-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_v82) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S2048x8192 : Shape := ⟨2, ![2048, 8192]⟩
abbrev S8192 : Shape := ⟨1, ![8192]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x8192 : S_.BroadcastsInDim S2048x8192 (![] : Fin 0 → Fin S2048x8192.rank)
  reducesTo_S2048x8192_S_d0_1 : S2048x8192.ReducesTo [0, 1] S_
  bcast_S_S8192 : S_.BroadcastsInDim S8192 (![] : Fin 0 → Fin S8192.rank)
  reducesTo_S8192_S_d0 : S8192.ReducesTo [0] S_
  bcast_S_S2048 : S_.BroadcastsInDim S2048 (![] : Fin 0 → Fin S2048.rank)
  reducesTo_S2048_S_d0 : S2048.ReducesTo [0] S_

variable [Facts]

def fn_part3 {F : FTy → Type} [FloatOps F] (main_arg11 : FVec F S2048 .f32) (main_arg12 : FVec F S2048 .f32) (main_v48 : IVec S_ 1) (main_v49 : FVec F S2048 .f32) (main_v50 : FVec F S2048 .f32) : IVec S_ 1 :=
  let main_v51 : IVec S2048 1 := cmpf .olt main_v49 main_v50
  let main_c_19 : IVec S_ 1 := constantI S_ 1 1#1
  let main_v52 : IVec S_ 1 := (fun x v => Host.reduce IntOp.andi x v reducesTo_S2048_S_d0 h_S_) main_v51 main_c_19
  let main_v53 : IVec S_ 1 := andi main_v48 main_v52
  let main_v54 : FVec F S2048 .f32 := Host.absf main_arg11
  let main_cst_20 : FVec F S_ .f32 := constant S_ .f32 0x7F800000#32
  let main_v55 : FVec F S2048 .f32 := broadcastInDim S2048 ![] bcast_S_S2048 main_cst_20
  let main_v56 : IVec S2048 1 := cmpf .olt main_v54 main_v55
  let main_c_21 : IVec S_ 1 := constantI S_ 1 1#1
  let main_v57 : IVec S_ 1 := (fun x v => Host.reduce IntOp.andi x v reducesTo_S2048_S_d0 h_S_) main_v56 main_c_21
  let main_v58 : IVec S_ 1 := andi main_v53 main_v57
  let main_v59 : FVec F S2048 .f32 := Host.absf main_arg12
  let main_cst_22 : FVec F S_ .f32 := constant S_ .f32 0x7F800000#32
  let main_v60 : FVec F S2048 .f32 := broadcastInDim S2048 ![] bcast_S_S2048 main_cst_22
  let main_v61 : IVec S2048 1 := cmpf .olt main_v59 main_v60
  let main_c_23 : IVec S_ 1 := constantI S_ 1 1#1
  let main_v62 : IVec S_ 1 := (fun x v => Host.reduce IntOp.andi x v reducesTo_S2048_S_d0 h_S_) main_v61 main_c_23
  let main_v63 : IVec S_ 1 := andi main_v58 main_v62
  main_v63

def fn_part2 {F : FTy → Type} [FloatOps F] (main_arg7 : FVec F S8192 .f32) (main_arg8 : FVec F S8192 .f32) (main_arg9 : FVec F S2048 .f32) (main_arg10 : FVec F S2048 .f32) (main_arg11 : FVec F S2048 .f32) (main_arg12 : FVec F S2048 .f32) (main_v33 : IVec S_ 1) : IVec S_ 1 :=
  let main_v34 : FVec F S8192 .f32 := Host.absf main_arg7
  let main_cst_12 : FVec F S_ .f32 := constant S_ .f32 0x7F800000#32
  let main_v35 : FVec F S8192 .f32 := broadcastInDim S8192 ![] bcast_S_S8192 main_cst_12
  let main_v36 : IVec S8192 1 := cmpf .olt main_v34 main_v35
  let main_c_13 : IVec S_ 1 := constantI S_ 1 1#1
  let main_v37 : IVec S_ 1 := (fun x v => Host.reduce IntOp.andi x v reducesTo_S8192_S_d0 h_S_) main_v36 main_c_13
  let main_v38 : IVec S_ 1 := andi main_v33 main_v37
  let main_v39 : FVec F S8192 .f32 := Host.absf main_arg8
  let main_cst_14 : FVec F S_ .f32 := constant S_ .f32 0x7F800000#32
  let main_v40 : FVec F S8192 .f32 := broadcastInDim S8192 ![] bcast_S_S8192 main_cst_14
  let main_v41 : IVec S8192 1 := cmpf .olt main_v39 main_v40
  let main_c_15 : IVec S_ 1 := constantI S_ 1 1#1
  let main_v42 : IVec S_ 1 := (fun x v => Host.reduce IntOp.andi x v reducesTo_S8192_S_d0 h_S_) main_v41 main_c_15
  let main_v43 : IVec S_ 1 := andi main_v38 main_v42
  let main_v44 : FVec F S2048 .f32 := Host.absf main_arg9
  let main_cst_16 : FVec F S_ .f32 := constant S_ .f32 0x7F800000#32
  let main_v45 : FVec F S2048 .f32 := broadcastInDim S2048 ![] bcast_S_S2048 main_cst_16
  let main_v46 : IVec S2048 1 := cmpf .olt main_v44 main_v45
  let main_c_17 : IVec S_ 1 := constantI S_ 1 1#1
  let main_v47 : IVec S_ 1 := (fun x v => Host.reduce IntOp.andi x v reducesTo_S2048_S_d0 h_S_) main_v46 main_c_17
  let main_v48 : IVec S_ 1 := andi main_v43 main_v47
  let main_v49 : FVec F S2048 .f32 := Host.absf main_arg10
  let main_cst_18 : FVec F S_ .f32 := constant S_ .f32 0x7F800000#32
  let main_v50 : FVec F S2048 .f32 := broadcastInDim S2048 ![] bcast_S_S2048 main_cst_18
  fn_part3 (F := F) main_arg11 main_arg12 main_v48 main_v49 main_v50

def fn_part1 {F : FTy → Type} [FloatOps F] (main_arg4 : FVec F S2048x8192 .f32) (main_arg5 : FVec F S8192 .f32) (main_arg6 : FVec F S8192 .f32) (main_arg7 : FVec F S8192 .f32) (main_arg8 : FVec F S8192 .f32) (main_arg9 : FVec F S2048 .f32) (main_arg10 : FVec F S2048 .f32) (main_arg11 : FVec F S2048 .f32) (main_arg12 : FVec F S2048 .f32) (main_v13 : IVec S_ 1) (main_v16 : IVec S2048x8192 1) : IVec S_ 1 :=
  let main_c_5 : IVec S_ 1 := constantI S_ 1 1#1
  let main_v17 : IVec S_ 1 := (fun x v => Host.reduce IntOp.andi x v reducesTo_S2048x8192_S_d0_1 h_S_) main_v16 main_c_5
  let main_v18 : IVec S_ 1 := andi main_v13 main_v17
  let main_v19 : FVec F S2048x8192 .f32 := Host.absf main_arg4
  let main_cst_6 : FVec F S_ .f32 := constant S_ .f32 0x7F800000#32
  let main_v20 : FVec F S2048x8192 .f32 := broadcastInDim S2048x8192 ![] bcast_S_S2048x8192 main_cst_6
  let main_v21 : IVec S2048x8192 1 := cmpf .olt main_v19 main_v20
  let main_c_7 : IVec S_ 1 := constantI S_ 1 1#1
  let main_v22 : IVec S_ 1 := (fun x v => Host.reduce IntOp.andi x v reducesTo_S2048x8192_S_d0_1 h_S_) main_v21 main_c_7
  let main_v23 : IVec S_ 1 := andi main_v18 main_v22
  let main_v24 : FVec F S8192 .f32 := Host.absf main_arg5
  let main_cst_8 : FVec F S_ .f32 := constant S_ .f32 0x7F800000#32
  let main_v25 : FVec F S8192 .f32 := broadcastInDim S8192 ![] bcast_S_S8192 main_cst_8
  let main_v26 : IVec S8192 1 := cmpf .olt main_v24 main_v25
  let main_c_9 : IVec S_ 1 := constantI S_ 1 1#1
  let main_v27 : IVec S_ 1 := (fun x v => Host.reduce IntOp.andi x v reducesTo_S8192_S_d0 h_S_) main_v26 main_c_9
  let main_v28 : IVec S_ 1 := andi main_v23 main_v27
  let main_v29 : FVec F S8192 .f32 := Host.absf main_arg6
  let main_cst_10 : FVec F S_ .f32 := constant S_ .f32 0x7F800000#32
  let main_v30 : FVec F S8192 .f32 := broadcastInDim S8192 ![] bcast_S_S8192 main_cst_10
  let main_v31 : IVec S8192 1 := cmpf .olt main_v29 main_v30
  let main_c_11 : IVec S_ 1 := constantI S_ 1 1#1
  let main_v32 : IVec S_ 1 := (fun x v => Host.reduce IntOp.andi x v reducesTo_S8192_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S4096x2048 .f32) (main_arg1 : FVec F S4096x2048 .f32) (main_arg2 : FVec F S4096x2048 .f32) (main_arg3 : FVec F S2048x8192 .f32) (main_arg4 : FVec F S2048x8192 .f32) (main_arg5 : FVec F S8192 .f32) (main_arg6 : FVec F S8192 .f32) (main_arg7 : FVec F S8192 .f32) (main_arg8 : FVec F S8192 .f32) (main_arg9 : FVec F S2048 .f32) (main_arg10 : FVec F S2048 .f32) (main_arg11 : FVec F S2048 .f32) (main_arg12 : FVec F S2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S2048x8192 .f32 := Host.absf main_arg3
  let main_cst_4 : FVec F S_ .f32 := constant S_ .f32 0x7F800000#32
  let main_v15 : FVec F S2048x8192 .f32 := broadcastInDim S2048x8192 ![] bcast_S_S2048x8192 main_cst_4
  let main_v16 : IVec S2048x8192 1 := cmpf .olt main_v14 main_v15
  fn_part1 (F := F) main_arg4 main_arg5 main_arg6 main_arg7 main_arg8 main_arg9 main_arg10 main_arg11 main_arg12 main_v13 main_v16
-- ==== Kernel.lean ====
abbrev S4096x2048 : Shape := ⟨2, ![4096, 2048]⟩
abbrev S2048x8192 : Shape := ⟨2, ![2048, 8192]⟩
abbrev S8192 : Shape := ⟨1, ![8192]⟩
abbrev S2048 : Shape := ⟨1, ![2048]⟩
abbrev S1x8192 : Shape := ⟨2, ![1, 8192]⟩
abbrev S1x2048 : Shape := ⟨2, ![1, 2048]⟩
abbrev S128x2048 : Shape := ⟨2, ![128, 2048]⟩
abbrev S2048x512 : Shape := ⟨2, ![2048, 512]⟩
abbrev S1x512 : Shape := ⟨2, ![1, 512]⟩
abbrev S128x8192 : Shape := ⟨2, ![128, 8192]⟩
abbrev S128x512 : Shape := ⟨2, ![128, 512]⟩
abbrev S128 : Shape := ⟨1, ![128]⟩
abbrev S128x1 : Shape := ⟨2, ![128, 1]⟩

abbrev nBuf : Space → Nat
  | .hbm => 27
  | .vmem => 26
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S2048x8192, .f32⟩
  | .hbm, ⟨4, _⟩ => ⟨S2048x8192, .f32⟩
  | .hbm, ⟨5, _⟩ => ⟨S8192, .f32⟩
  | .hbm, ⟨6, _⟩ => ⟨S8192, .f32⟩
  | .hbm, ⟨7, _⟩ => ⟨S8192, .f32⟩
  | .hbm, ⟨8, _⟩ => ⟨S8192, .f32⟩
  | .hbm, ⟨9, _⟩ => ⟨S2048, .f32⟩
  | .hbm, ⟨10, _⟩ => ⟨S2048, .f32⟩
  | .hbm, ⟨11, _⟩ => ⟨S2048, .f32⟩
  | .hbm, ⟨12, _⟩ => ⟨S2048, .f32⟩
  | .hbm, ⟨13, _⟩ => ⟨S4096x2048, .bf16⟩
  | .hbm, ⟨14, _⟩ => ⟨S4096x2048, .bf16⟩
  | .hbm, ⟨15, _⟩ => ⟨S2048x8192, .bf16⟩
  | .hbm, ⟨16, _⟩ => ⟨S2048x8192, .bf16⟩
  | .hbm, ⟨17, _⟩ => ⟨S1x8192, .f32⟩
  | .hbm, ⟨18, _⟩ => ⟨S1x8192, .f32⟩
  | .hbm, ⟨19, _⟩ => ⟨S1x8192, .f32⟩
  | .hbm, ⟨20, _⟩ => ⟨S1x8192, .f32⟩
  | .hbm, ⟨21, _⟩ => ⟨S1x2048, .f32⟩
  | .hbm, ⟨22, _⟩ => ⟨S1x2048, .f32⟩
  | .hbm, ⟨23, _⟩ => ⟨S1x2048, .f32⟩
  | .hbm, ⟨24, _⟩ => ⟨S1x2048, .f32⟩
  | .hbm, ⟨25, _⟩ => ⟨S4096x2048, .f32⟩
  | .hbm, ⟨26, _⟩ => ⟨S4096x2048, .f32⟩
  | .local _ .vmem, ⟨0, _⟩ => ⟨S128x2048, .bf16⟩
  | .local _ .vmem, ⟨1, _⟩ => ⟨S128x2048, .bf16⟩
  | .local _ .vmem, ⟨2, _⟩ => ⟨S128x2048, .bf16⟩
  | .local _ .vmem, ⟨3, _⟩ => ⟨S128x2048, .bf16⟩
  | .local _ .vmem, ⟨4, _⟩ => ⟨S128x2048, .f32⟩
  | .local _ .vmem, ⟨5, _⟩ => ⟨S128x2048, .f32⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S1x8192, .f32⟩
  | .local _ .vmem, ⟨15, _⟩ => ⟨S1x8192, .f32⟩
  | .local _ .vmem, ⟨16, _⟩ => ⟨S1x2048, .f32⟩
  | .local _ .vmem, ⟨17, _⟩ => ⟨S1x2048, .f32⟩
  | .local _ .vmem, ⟨18, _⟩ => ⟨S1x2048, .f32⟩
  | .local _ .vmem, ⟨19, _⟩ => ⟨S1x2048, .f32⟩
  | .local _ .vmem, ⟨20, _⟩ => ⟨S128x2048, .f32⟩
  | .local _ .vmem, ⟨21, _⟩ => ⟨S128x2048, .f32⟩
  | .local _ .vmem, ⟨22, _⟩ => ⟨S128x2048, .f32⟩
  | .local _ .vmem, ⟨23, _⟩ => ⟨S128x2048, .f32⟩
  | .local _ .vmem, ⟨24, _⟩ => ⟨S128x8192, .f32⟩
  | .local _ .vmem, ⟨25, _⟩ => ⟨S128x8192, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_v0_0 : Ref sig .tc := ⟨.hbm, 25, rfl⟩
abbrev main_v0_1 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem13_1 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨2, ![32, 16], ![false, false]⟩

def k0_mult1 (i : grid0.Coords) : BitVec 32 :=
  let arg1 : BitVec 32 := BitVec.ofNat 32 (i 1).val
  let c512_i32 : BitVec 32 := 512#32
  let v18 : BitVec 32 := Scalar.muli arg1 c512_i32
  v18
def k0_off1 (i : grid0.Coords) : Fin 2 → Nat :=
  let c0_12 : Index := 0#32
  let arg1 : BitVec 32 := BitVec.ofNat 32 (i 1).val
  let c512_i32 : BitVec 32 := 512#32
  let v18 : BitVec 32 := Scalar.muli arg1 c512_i32
  let v19 : BitVec 32 := v18
  let v20 : Index := Scalar.indexCast v19
  ![0, v20.toNat]
def k0_cond1 (i : grid0.Coords) : BitVec 1 :=
  let arg1 : BitVec 32 := BitVec.ofNat 32 (i 1).val
  let c15_i32 : BitVec 32 := 15#32
  let v28 : BitVec 1 := Scalar.cmpi .eq arg1 c15_i32
  let v29 : BitVec 32 := Scalar.extui v28
  let c0_i32 : BitVec 32 := 0#32
  let v30 : BitVec 1 := Scalar.cmpi .ne v29 c0_i32
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1x8192 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x8192 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S128x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S128x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

class Facts₀ : Prop where
  bitsLt_bf16_f32 : FTy.bits .bf16 < FTy.bits .f32
  shapeCasts_S8192_S1x8192 : S8192.ShapeCasts S1x8192
  shapeCasts_S2048_S1x2048 : S2048.ShapeCasts S1x2048
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S128x512 : S1x512.Broadcasts S128x512
  h_S128x512 : 0 < S128x512.numel
  shapeCasts_S128x512_S128x512 : S128x512.ShapeCasts S128x512
  inb_S128x8192_S128x8192_0_0 : ∀ a, (![0, 0] : Fin 2 → Nat) a + S128x8192.size a ≤ S128x8192.size a
  h_S128x8192 : 0 < S128x8192.numel
  reduces_S128x8192_S128 : S128x8192.Reduces [1] S128
  shapeCasts_S128_S128x1 : S128.ShapeCasts S128x1
  broadcasts_S128x1_S128x8192 : S128x1.Broadcasts S128x8192
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  broadcasts_S1x8192_S128x8192 : S1x8192.Broadcasts S128x8192
  slices_S128x8192_o0_0_S128x2048 : S128x8192.Slices ![0, 0] S128x2048
  slices_S128x8192_o0_2048_S128x2048 : S128x8192.Slices ![0, 2048] S128x2048
  slices_S128x8192_o0_4096_S128x2048 : S128x8192.Slices ![0, 4096] S128x2048
  slices_S128x8192_o0_6144_S128x2048 : S128x8192.Slices ![0, 6144] S128x2048
  reduces_S128x2048_S128 : S128x2048.Reduces [1] S128
  broadcasts_S128x1_S128x2048 : S128x1.Broadcasts S128x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S128x2048 : S1x2048.Broadcasts S128x2048
  dot_S128x2048_S2048x512_S128x512_1_0_0_1_n_n_wf : DotDims.WF S128x2048 S2048x512 S128x512 [1] [0] [0] [1] [] []
  hrank0 : 0 < grid0.rank
  k0_mult1_dvd : ∀ i : grid0.Coords, 512 ∣ (k0_mult1 i).toNat
  k0_off1_inb : ∀ i : grid0.Coords, ∀ a, (k0_off1 i) a + S128x512.size a ≤ S128x8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x2048.size a ≤ S4096x2048.size a
  hwx0_0 : ∀ i : grid0.Coords, EltTy.bits .bf16 = 32 ∨ (Rect.block (s := S4096x2048) S128x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x2048.size a ≤ S4096x2048.size a
  hwx0_1 : ∀ i : grid0.Coords, EltTy.bits .bf16 = 32 ∨ (Rect.block (s := S4096x2048) S128x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x2048.size a ≤ S4096x2048.size a
  hwx0_2 : ∀ i : grid0.Coords, EltTy.bits .f32 = 32 ∨ (Rect.block (s := S4096x2048) S128x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S2048x8192.size a
  hwx0_3 : ∀ i : grid0.Coords, EltTy.bits .bf16 = 32 ∨ (Rect.block (s := S2048x8192) S2048x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x512.size a ≤ S2048x8192.size a
  hwx0_4 : ∀ i : grid0.Coords, EltTy.bits .bf16 = 32 ∨ (Rect.block (s := S2048x8192) S2048x512.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x8192.size a
  hwx0_5 : ∀ i : grid0.Coords, EltTy.bits .f32 = 32 ∨ (Rect.block (s := S1x8192) S1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x8192.size a
  hwx0_6 : ∀ i : grid0.Coords, EltTy.bits .f32 = 32 ∨ (Rect.block (s := S1x8192) S1x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x8192.size a ≤ S1x8192.size a
  hwx0_7 : ∀ i : grid0.Coords, EltTy.bits .f32 = 32 ∨ (Rect.block (s := S1x8192) S1x8192.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x8192.size a ≤ S1x8192.size a
  hwx0_8 : ∀ i : grid0.Coords, EltTy.bits .f32 = 32 ∨ (Rect.block (s := S1x8192) S1x8192.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x2048.size a ≤ S1x2048.size a
  hwx0_9 : ∀ i : grid0.Coords, EltTy.bits .f32 = 32 ∨ (Rect.block (s := S1x2048) S1x2048.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x2048.size a ≤ S1x2048.size a
  hwx0_10 : ∀ i : grid0.Coords, EltTy.bits .f32 = 32 ∨ (Rect.block (s := S1x2048) S1x2048.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x2048.size a ≤ S1x2048.size a
  hwx0_11 : ∀ i : grid0.Coords, EltTy.bits .f32 = 32 ∨ (Rect.block (s := S1x2048) S1x2048.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x2048.size a ≤ S1x2048.size a
  hwx0_12 : ∀ i : grid0.Coords, EltTy.bits .f32 = 32 ∨ (Rect.block (s := S1x2048) S1x2048.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S128x2048.size a ≤ S4096x2048.size a
  hwx0_13 : ∀ i : grid0.Coords, EltTy.bits .f32 = 32 ∨ (Rect.block (s := S4096x2048) S128x2048.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S128x2048.size a ≤ S4096x2048.size a
  hwx0_14 : ∀ i : grid0.Coords, EltTy.bits .f32 = 32 ∨ (Rect.block (s := S4096x2048) S128x2048.size (cc0_transform_14 i) (hinb0_14 i)).WholeWords (EltTy.packing .f32)

variable [Facts₀]

def dot_S128x2048_S2048x512_S128x512_1_0_0_1_n_n : DotDims S128x2048 S2048x512 S128x512 where
  lhsContracting := [1]
  rhsContracting := [0]
  lhsNonContracting := [0]
  rhsNonContracting := [1]
  lhsBatch := []
  rhsBatch := []
  wf := dot_S128x2048_S2048x512_S128x512_1_0_0_1_n_n_wf

abbrev win0_0 : Pipeline.Window sig grid0 :=
  Pipeline.Window.ofSpec (Memref.whole main_call0_v0) S128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1) S128x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v2) S2048x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_call0_v3) S2048x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_call0_v4) S1x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_call0_v5) S1x512.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_call0_v6) S1x8192.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_call0_v7) S1x8192.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_call0_v8) S1x2048.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_call0_v9) S1x2048.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_call0_v10) S1x2048.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_call0_v11) S1x2048.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v0_0) S128x2048.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v0_1) S128x2048.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

abbrev idle0 : Fin 15 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun i => !(k0_cond1 i == 1#1) | 14 => fun i => !(k0_cond1 i == 1#1) | ⟨_ + 15, h⟩ => absurd h (Nat.not_lt.2 (Nat.le_add_left _ _))

class Facts : Prop extends Facts₀ where

variable [Facts]
-- ==== ReferenceIdeal.lean ====
abbrev S4096x2048 : Shape := ⟨2, ![4096, 2048]⟩
abbrev S2048x8192 : Shape := ⟨2, ![2048, 8192]⟩
abbrev S8192 : Shape := ⟨1, ![8192]⟩
abbrev S2048 : Shape := ⟨1, ![2048]⟩
abbrev S4096x8192 : Shape := ⟨2, ![4096, 8192]⟩
abbrev S1x8192 : Shape := ⟨2, ![1, 8192]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 143
  | .vmem => 0
  | .smem => 0
  | _ => 0

abbrev hbmTy0_0 (i : Nat) : BufTy := match i % 128 with
  | 0 => ⟨S4096x2048, .f32⟩
  | 1 => ⟨S4096x2048, .f32⟩
  | 2 => ⟨S4096x2048, .f32⟩
  | 3 => ⟨S2048x8192, .f32⟩
  | 4 => ⟨S2048x8192, .f32⟩
  | 5 => ⟨S8192, .f32⟩
  | 6 => ⟨S8192, .f32⟩
  | 7 => ⟨S8192, .f32⟩
  | 8 => ⟨S8192, .f32⟩
  | 9 => ⟨S2048, .f32⟩
  | 10 => ⟨S2048, .f32⟩
  | 11 => ⟨S2048, .f32⟩
  | 12 => ⟨S2048, .f32⟩
  | 13 => ⟨S4096x8192, .f32⟩
  | 14 => ⟨S1x8192, .f32⟩
  | 15 => ⟨S4096x8192, .f32⟩
  | 16 => ⟨S4096x8192, .f32⟩
  | 17 => ⟨S_, .f32⟩
  | 18 => ⟨S4096, .f32⟩
  | 19 => ⟨S4096x1, .f32⟩
  | 20 => ⟨S_, .f32⟩
  | 21 => ⟨S4096x1, .f32⟩
  | 22 => ⟨S4096x1, .f32⟩
  | 23 => ⟨S4096x8192, .f32⟩
  | 24 => ⟨S4096x8192, .f32⟩
  | 25 => ⟨S4096x8192, .f32⟩
  | 26 => ⟨S_, .f32⟩
  | 27 => ⟨S4096, .f32⟩
  | 28 => ⟨S4096x1, .f32⟩
  | 29 => ⟨S_, .f32⟩
  | 30 => ⟨S4096x1, .f32⟩
  | 31 => ⟨S4096x1, .f32⟩
  | 32 => ⟨S4096x8192, .f32⟩
  | 33 => ⟨S4096x8192, .f32⟩
  | 34 => ⟨S_, .f32⟩
  | 35 => ⟨S4096x1, .f32⟩
  | 36 => ⟨S4096x1, .f32⟩
  | 37 => ⟨S4096x1, .f32⟩
  | 38 => ⟨S4096x8192, .f32⟩
  | 39 => ⟨S4096x8192, .f32⟩
  | 40 => ⟨S1x8192, .f32⟩
  | 41 => ⟨S4096x8192, .f32⟩
  | 42 => ⟨S4096x8192, .f32⟩
  | 43 => ⟨S1x8192, .f32⟩
  | 44 => ⟨S4096x8192, .f32⟩
  | 45 => ⟨S4096x8192, .f32⟩
  | 46 => ⟨S4096x8192, .f32⟩
  | 47 => ⟨S1x8192, .f32⟩
  | 48 => ⟨S4096x8192, .f32⟩
  | 49 => ⟨S4096x8192, .f32⟩
  | 50 => ⟨S4096x8192, .f32⟩
  | 51 => ⟨S4096x2048, .f32⟩
  | 52 => ⟨S4096x2048, .f32⟩
  | 53 => ⟨S4096x2048, .f32⟩
  | 54 => ⟨S4096x2048, .f32⟩
  | 55 => ⟨S4096x2048, .f32⟩
  | 56 => ⟨S4096x2048, .f32⟩
  | 57 => ⟨S_, .f32⟩
  | 58 => ⟨S4096x2048, .f32⟩
  | 59 => ⟨S4096x2048, .f32⟩
  | 60 => ⟨S_, .f32⟩
  | 61 => ⟨S4096x2048, .f32⟩
  | 62 => ⟨S4096x2048, .f32⟩
  | 63 => ⟨S4096x2048, .f32⟩
  | 64 => ⟨S4096x2048, .f32⟩
  | 65 => ⟨S_, .f32⟩
  | 66 => ⟨S4096x2048, .f32⟩
  | 67 => ⟨S4096x2048, .f32⟩
  | 68 => ⟨S_, .f32⟩
  | 69 => ⟨S4096x2048, .f32⟩
  | 70 => ⟨S4096x2048, .f32⟩
  | 71 => ⟨S4096x2048, .f32⟩
  | 72 => ⟨S4096x2048, .f32⟩
  | 73 => ⟨S4096x2048, .f32⟩
  | 74 => ⟨S_, .f32⟩
  | 75 => ⟨S4096x2048, .f32⟩
  | 76 => ⟨S4096x2048, .f32⟩
  | 77 => ⟨S_, .f32⟩
  | 78 => ⟨S4096x2048, .f32⟩
  | 79 => ⟨S4096x2048, .f32⟩
  | 80 => ⟨S4096x2048, .f32⟩
  | 81 => ⟨S4096x2048, .f32⟩
  | 82 => ⟨S4096x2048, .f32⟩
  | 83 => ⟨S_, .f32⟩
  | 84 => ⟨S4096, .f32⟩
  | 85 => ⟨S4096x1, .f32⟩
  | 86 => ⟨S_, .f32⟩
  | 87 => ⟨S4096x1, .f32⟩
  | 88 => ⟨S4096x1, .f32⟩
  | 89 => ⟨S4096x2048, .f32⟩
  | 90 => ⟨S4096x2048, .f32⟩
  | 91 => ⟨S4096x2048, .f32⟩
  | 92 => ⟨S_, .f32⟩
  | 93 => ⟨S4096, .f32⟩
  | 94 => ⟨S4096x1, .f32⟩
  | 95 => ⟨S_, .f32⟩
  | 96 => ⟨S4096x1, .f32⟩
  | 97 => ⟨S4096x1, .f32⟩
  | 98 => ⟨S4096x2048, .f32⟩
  | 99 => ⟨S4096x2048, .f32⟩
  | 100 => ⟨S_, .f32⟩
  | 101 => ⟨S4096x1, .f32⟩
  | 102 => ⟨S4096x1, .f32⟩
  | 103 => ⟨S4096x1, .f32⟩
  | 104 => ⟨S4096x2048, .f32⟩
  | 105 => ⟨S4096x2048, .f32⟩
  | 106 => ⟨S1x2048, .f32⟩
  | 107 => ⟨S4096x2048, .f32⟩
  | 108 => ⟨S4096x2048, .f32⟩
  | 109 => ⟨S1x2048, .f32⟩
  | 110 => ⟨S4096x2048, .f32⟩
  | 111 => ⟨S4096x2048, .f32⟩
  | 112 => ⟨S4096x2048, .f32⟩
  | 113 => ⟨S4096x2048, .f32⟩
  | 114 => ⟨S_, .f32⟩
  | 115 => ⟨S4096, .f32⟩
  | 116 => ⟨S4096x1, .f32⟩
  | 117 => ⟨S_, .f32⟩
  | 118 => ⟨S4096x1, .f32⟩
  | 119 => ⟨S4096x1, .f32⟩
  | 120 => ⟨S4096x2048, .f32⟩
  | 121 => ⟨S4096x2048, .f32⟩
  | 122 => ⟨S4096x2048, .f32⟩
  | 123 => ⟨S_, .f32⟩
  | 124 => ⟨S4096, .f32⟩
  | 125 => ⟨S4096x1, .f32⟩
  | 126 => ⟨S_, .f32⟩
  | 127 => ⟨S4096x1, .f32⟩
  | _ => ⟨S4096x2048, .f32⟩

abbrev hbmTy0_1 (i : Nat) : BufTy := match i % 128 with
  | 0 => ⟨S4096x1, .f32⟩
  | 1 => ⟨S4096x2048, .f32⟩
  | 2 => ⟨S4096x2048, .f32⟩
  | 3 => ⟨S_, .f32⟩
  | 4 => ⟨S4096x1, .f32⟩
  | 5 => ⟨S4096x1, .f32⟩
  | 6 => ⟨S4096x1, .f32⟩
  | 7 => ⟨S4096x2048, .f32⟩
  | 8 => ⟨S4096x2048, .f32⟩
  | 9 => ⟨S1x2048, .f32⟩
  | 10 => ⟨S4096x2048, .f32⟩
  | 11 => ⟨S4096x2048, .f32⟩
  | 12 => ⟨S1x2048, .f32⟩
  | 13 => ⟨S4096x2048, .f32⟩
  | 14 => ⟨S4096x2048, .f32⟩
  | _ => ⟨S4096x2048, .f32⟩

abbrev hbmTy (i : Nat) : BufTy := match i / 128 with
  | 0 => hbmTy0_0 i
  | 1 => hbmTy0_1 i
  | _ => ⟨S4096x2048, .f32⟩

abbrev bufTy : (tb : Table) → Fin (tcTables nBuf tb) → BufTy
  | .hbm, ⟨i, _⟩ => hbmTy i
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_4 : Ref sig .tc := ⟨.hbm, 57, rfl⟩
abbrev main_v39 : Ref sig .tc := ⟨.hbm, 58, rfl⟩
abbrev main_v40 : Ref sig .tc := ⟨.hbm, 59, rfl⟩
abbrev main_cst_5 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_6 : Ref sig .tc := ⟨.hbm, 65, rfl⟩
abbrev main_v45 : Ref sig .tc := ⟨.hbm, 66, rfl⟩
abbrev main_v46 : Ref sig .tc := ⟨.hbm, 67, rfl⟩
abbrev main_cst_7 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_8 : Ref sig .tc := ⟨.hbm, 74, rfl⟩
abbrev main_v52 : Ref sig .tc := ⟨.hbm, 75, rfl⟩
abbrev main_v53 : Ref sig .tc := ⟨.hbm, 76, rfl⟩
abbrev main_cst_9 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_10 : Ref sig .tc := ⟨.hbm, 83, rfl⟩
abbrev main_v59 : Ref sig .tc := ⟨.hbm, 84, rfl⟩
abbrev main_v60 : Ref sig .tc := ⟨.hbm, 85, rfl⟩
abbrev main_cst_11 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_12 : Ref sig .tc := ⟨.hbm, 92, rfl⟩
abbrev main_v66 : Ref sig .tc := ⟨.hbm, 93, rfl⟩
abbrev main_v67 : Ref sig .tc := ⟨.hbm, 94, rfl⟩
abbrev main_cst_13 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_14 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_cst_15 : Ref sig .tc := ⟨.hbm, 114, rfl⟩
abbrev main_v85 : Ref sig .tc := ⟨.hbm, 115, rfl⟩
abbrev main_v86 : Ref sig .tc := ⟨.hbm, 116, rfl⟩
abbrev main_cst_16 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_cst_17 : Ref sig .tc := ⟨.hbm, 123, rfl⟩
abbrev main_v92 : Ref sig .tc := ⟨.hbm, 124, rfl⟩
abbrev main_v93 : Ref sig .tc := ⟨.hbm, 125, rfl⟩
abbrev main_cst_18 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_cst_19 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩

abbrev nD : Nat := 1
abbrev τ : Topo := Topo.v7x

variable {F : FTy → Type} [FloatOps F]

class Facts₀ : Prop where
  bcast_S8192_S1x8192_1 : S8192.BroadcastsInDim S1x8192 (![1] : Fin 1 → Fin S1x8192.rank)
  bcast_S1x8192_S4096x8192_0_1 : S1x8192.BroadcastsInDim S4096x8192 (![0, 1] : Fin 2 → Fin S4096x8192.rank)
  reducesTo_S4096x8192_S4096_d1 : S4096x8192.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x8192_0_1 : S4096x1.BroadcastsInDim S4096x8192 (![0, 1] : Fin 2 → Fin S4096x8192.rank)
  slices_S4096x8192_S4096x2048_0_0 : S4096x8192.Slices ![0, 0] S4096x2048
  slices_S4096x8192_S4096x2048_0_2048 : S4096x8192.Slices ![0, 2048] S4096x2048
  slices_S4096x8192_S4096x2048_0_4096 : S4096x8192.Slices ![0, 4096] S4096x2048
  slices_S4096x8192_S4096x2048_0_6144 : S4096x8192.Slices ![0, 6144] S4096x2048
  bcast_S_S4096x2048 : S_.BroadcastsInDim S4096x2048 (![] : Fin 0 → Fin S4096x2048.rank)
  reducesTo_S4096x2048_S4096_d1 : S4096x2048.ReducesTo [1] S4096
  bcast_S4096x1_S4096x2048_0_1 : S4096x1.BroadcastsInDim S4096x2048 (![0, 1] : Fin 2 → Fin S4096x2048.rank)
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  dot_S4096x2048_S2048x8192_S4096x8192_1_0_0_1_n_n_wf : DotDims.WF S4096x2048 S2048x8192 S4096x8192 [1] [0] [0] [1] [] []

variable [Facts₀]

def dot_S4096x2048_S2048x8192_S4096x8192_1_0_0_1_n_n : DotDims S4096x2048 S2048x8192 S4096x8192 where
  lhsContracting := [1]
  rhsContracting := [0]
  lhsNonContracting := [0]
  rhsNonContracting := [1]
  lhsBatch := []
  rhsBatch := []
  wf := dot_S4096x2048_S2048x8192_S4096x8192_1_0_0_1_n_n_wf

class Facts : Prop extends Facts₀ where

variable [Facts]
-- ==== Proof.WordTile.lean ====
/-
  The cell body on whole staging buffers at a grid point that is not the last column tile of its batch tile.
  It stores one [128, 512] column tile of each dense layer into the two carried gate-row buffers and touches
  nothing else: the thirteen inputs and the two result buffers come back as they were handed over, and each
  gate-row buffer comes back as what it held with the one tile written over it.
-/
import proofs.«178478_j42855183680049_2_alg».proof.Proof.Gen.Kernel.Frame
import proofs.«178478_j42855183680049_2_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one branch is taken at the last column tile of a batch tile. -/
abbrev lastTile (i : grid0.Coords) : Prop := k0_cond1 i = 1#1

/-- Over the grid in its running order that is every sixteenth point, counting from the fifteenth. -/
theorem lastTile_iff : ∀ t : Fin cfg0.N, lastTile (grid0.coords t) ↔ t.val % 16 = 15 :=
  (by decide +kernel : ∀ t : Fin grid0.N, lastTile (grid0.coords t) ↔ t.val % 16 = 15)

set_option maxHeartbeats 1000000 in
/-- Away from the last column tile: the tiles written into the two gate-row buffers (newest first), with the run that
    leaves exactly those written over what the buffers held (`xs0`, `xs1`) and everything else as it was. -/
noncomputable def tileRun (c : Dev nD) (i : grid0.Coords) (arg2 : Memref sig .tc .vmem S128x2048 .bf16) (harg2 : arg2.IsWhole) (arg3 : Memref sig .tc .vmem S128x2048 .bf16) (harg3 : arg3.IsWhole) (arg4 : Memref sig .tc .vmem S128x2048 .f32) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S1x512 .f32) (harg7 : arg7.IsWhole) (arg8 : Memref sig .tc .vmem S1x512 .f32) (harg8 : arg8.IsWhole) (arg9 : Memref sig .tc .vmem S1x8192 .f32) (harg9 : arg9.IsWhole) (arg10 : Memref sig .tc .vmem S1x8192 .f32) (harg10 : arg10.IsWhole) (arg11 : Memref sig .tc .vmem S1x2048 .f32) (harg11 : arg11.IsWhole) (arg12 : Memref sig .tc .vmem S1x2048 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S128x2048 .f32) (harg15 : arg15.IsWhole) (arg16 : Memref sig .tc .vmem S128x2048 .f32) (harg16 : arg16.IsWhole) (arg17 : Memref sig .tc .vmem S128x8192 .f32) (harg17 : arg17.IsWhole) (arg18 : Memref sig .tc .vmem S128x8192 .f32) (harg18 : arg18.IsWhole) (hc0 : ¬lastTile i)
    (x0 : Vec F S128x2048 .bf16) (x1 : Vec F S128x2048 .bf16) (x2 : Vec F S128x2048 .f32) (x3 : Vec F S2048x512 .bf16) (x4 : Vec F S2048x512 .bf16) (x5 : Vec F S1x512 .f32) (x6 : Vec F S1x512 .f32) (x7 : Vec F S1x8192 .f32) (x8 : Vec F S1x8192 .f32) (x9 : Vec F S1x2048 .f32) (x10 : Vec F S1x2048 .f32) (x11 : Vec F S1x2048 .f32) (x12 : Vec F S1x2048 .f32) :
    Σ' (LS0 : List (View.Piece (Elt F) S128x8192 .f32)), { LS1 : List (View.Piece (Elt F) S128x8192 .f32) //
      ∀ (xi13 xi14 : Vec F S128x2048 .f32) (xs0 xs1 : Vec F S128x8192 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare xi13 ∗ owns (c : Thread nD τ) arg16 fullShare xi14 ∗ owns (c : Thread nD τ) arg17 fullShare xs0 ∗ owns (c : Thread nD τ) arg18 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare xi13 ∗ owns (c : Thread nD τ) arg16 fullShare xi14 ∗ (arg17.view.loc (c : Thread nD τ) ↦[arg17.view.set]{fullShare} arg17.view.writes (Elt F) (harg17.unread xs0) LS0) ∗ (arg18.view.loc (c : Thread nD τ) ↦[arg18.view.set]{fullShare} arg18.view.writes (Elt F) (harg18.unread xs1) LS1)) -∗ K ⟨⟩))
          ⊢ wp frame (wpE (defs₀ (F := F)) Variants.none c none) E (cc0__lstm_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, fun xi13 xi14 xs0 xs1 E K => ?run⟩
  case run =>
    simp only [cc0__lstm_kernel_eq_skeleton]; unfold cc0__lstm_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hfs0; obtain rfl := harg18.eq_unread hfs1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [HS0]; · iexact HS0
    iexact HS1

end Cert.Kernel.Body

end
-- ==== Proof.WordFinal.lean ====
/-
  The cell body on whole staging buffers at the last column tile of a batch tile.  It stores the last column tile of
  each dense layer into the two carried gate-row buffers, reads both buffers back whole, and from those 128 complete
  gate rows, the old cell block and the six scale and shift rows computes and stores the new hidden block and the new
  cell block, each through the whole of its result buffer.
-/
import proofs.«178478_j42855183680049_2_alg».proof.Proof.WordTile

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- At the last column tile, from gate-row buffers holding `xs0`, `xs1`: what is stored into the two result buffers and
    the two gate-row buffers (newest first), with the run that leaves exactly those written and the inputs as they were. -/
noncomputable def finalRun (c : Dev nD) (i : grid0.Coords) (arg2 : Memref sig .tc .vmem S128x2048 .bf16) (harg2 : arg2.IsWhole) (arg3 : Memref sig .tc .vmem S128x2048 .bf16) (harg3 : arg3.IsWhole) (arg4 : Memref sig .tc .vmem S128x2048 .f32) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S1x512 .f32) (harg7 : arg7.IsWhole) (arg8 : Memref sig .tc .vmem S1x512 .f32) (harg8 : arg8.IsWhole) (arg9 : Memref sig .tc .vmem S1x8192 .f32) (harg9 : arg9.IsWhole) (arg10 : Memref sig .tc .vmem S1x8192 .f32) (harg10 : arg10.IsWhole) (arg11 : Memref sig .tc .vmem S1x2048 .f32) (harg11 : arg11.IsWhole) (arg12 : Memref sig .tc .vmem S1x2048 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S128x2048 .f32) (harg15 : arg15.IsWhole) (arg16 : Memref sig .tc .vmem S128x2048 .f32) (harg16 : arg16.IsWhole) (arg17 : Memref sig .tc .vmem S128x8192 .f32) (harg17 : arg17.IsWhole) (arg18 : Memref sig .tc .vmem S128x8192 .f32) (harg18 : arg18.IsWhole) (hc0 : lastTile i)
    (x0 : Vec F S128x2048 .bf16) (x1 : Vec F S128x2048 .bf16) (x2 : Vec F S128x2048 .f32) (x3 : Vec F S2048x512 .bf16) (x4 : Vec F S2048x512 .bf16) (x5 : Vec F S1x512 .f32) (x6 : Vec F S1x512 .f32) (x7 : Vec F S1x8192 .f32) (x8 : Vec F S1x8192 .f32) (x9 : Vec F S1x2048 .f32) (x10 : Vec F S1x2048 .f32) (x11 : Vec F S1x2048 .f32) (x12 : Vec F S1x2048 .f32) (xs0 xs1 : Vec F S128x8192 .f32) :
    Σ' (L13 : List (View.Piece (Elt F) S128x2048 .f32)) (L14 : List (View.Piece (Elt F) S128x2048 .f32)) (LS0 : List (View.Piece (Elt F) S128x8192 .f32)), { LS1 : List (View.Piece (Elt F) S128x8192 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ d, owns (c : Thread nD τ) arg15 fullShare d) ∗ (∃ d, owns (c : Thread nD τ) arg16 fullShare d) ∗ owns (c : Thread nD τ) arg17 fullShare xs0 ∗ owns (c : Thread nD τ) arg18 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14) ∗ (arg17.view.loc (c : Thread nD τ) ↦[arg17.view.set]{fullShare} arg17.view.writes (Elt F) (harg17.unread xs0) LS0) ∗ (arg18.view.loc (c : Thread nD τ) ↦[arg18.view.set]{fullShare} arg18.view.writes (Elt F) (harg18.unread xs1) LS1)) -∗ K ⟨⟩))
          ⊢ wp frame (wpE (defs₀ (F := F)) Variants.none c none) E (cc0__lstm_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, fun E K => ?run⟩
  case run =>
    simp only [cc0__lstm_kernel_eq_skeleton]; unfold cc0__lstm_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg17.eq_unread hfs0; obtain rfl := harg18.eq_unread hfs1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]; · iexists _; iexact H13
    isplitl [H14]; · iexists _; iexact H14
    isplitl [HS0]; · iexact HS0
    iexact HS1

end Cert.Kernel.Body

end
-- ==== Proof.GateRowStore.lean ====
/-
  A [128, 8192] buffer filled one [128, 512] column tile at a time.

  Two contents of the buffer "agree below k" when they are equal on the first k column tiles, the columns
  [0, 512·k).  Storing column tile k, the columns [512·k, 512·(k+1)), through a unit-stride rectangle leaves every
  earlier column as it was, so contents that agreed with X below k and are stored X's tile k agree with X below k + 1;
  agreement below 16 is equality; and a buffer stored whole reads back what was stored.  A read of an element under the newest store is that store's payload at the
  element's position in the rectangle; a read of an element the store misses on the column axis is the old contents.
-/
import Idealize.ShloMosaic.Lib.WritesUnit
import Idealize.ShloMosaic.Lib.ValueIdx

noncomputable section

namespace Cert.GateRows

open Idealize.ShloMosaic Idealize.ShloMosaic.ValueIdx

/-- The buffer's shape and one column tile's. -/
abbrev Rows : Shape := ⟨2, ![128, 8192]⟩
abbrev Tile : Shape := ⟨2, ![128, 512]⟩

variable {Val : EltTy → Type} {e : EltTy}

/-- Two contents agree on the first `k` column tiles. -/
def AgreeBelow (k : ℕ) (xs X : Rows.Idx → Val e) : Prop := ∀ y : Rows.Idx, (y 1).val < 512 * k → xs y = X y

/-- Below no tile there is nothing to agree on. -/
theorem agreeBelow_zero (xs X : Rows.Idx → Val e) : AgreeBelow 0 xs X := fun y h => absurd h (by omega)

/-- Sixteen tiles are the whole buffer. -/
theorem agreeBelow_all {xs X : Rows.Idx → Val e} (h : AgreeBelow 16 xs X) : xs = X :=
  funext fun y => h y (by have : (y 1).val < 8192 := idx2_lt1 y; omega)

variable {sig : RefSig} {κ : Kind} {sp : Space}

/-- Storing tile `k` of `X` over contents that agree with `X` below `k` gives contents that agree with `X` below `k + 1`. -/
theorem agreeBelow_store (v : View sig κ sp Rows e) (f : v.ty.Contents Val) (k : ℕ)
    {off : Fin 2 → ℕ} (inb : ∀ a, off a + Tile.size a ≤ Rows.size a) (hoff : off = ![0, 512 * k])
    (w : (Rect.unit (s := Rows) off Tile.size inb).shape.Idx → Val e) (X : Rows.Idx → Val e)
    (hbelow : AgreeBelow k (v.read Val f) X)
    (hw : ∀ (p : Fin 128) (q : Fin 512) (hq : 512 * k + q.val < 8192), w (ix2 p q) = X (ix2 p ⟨512 * k + q.val, hq⟩)) :
    AgreeBelow (k + 1) (v.read Val (v.writes Val f [(⟨Rect.unit (s := Rows) off Tile.size inb, w⟩ : View.Piece Val Rows e)])) X := by
  intro y hy
  have h0 : (y 0).val < 128 := idx2_lt0 y
  have h1 : (y 1).val < 8192 := idx2_lt1 y
  by_cases hlo : (y 1).val < 512 * k
  · rw [View.read_writes_cons_unit_of_not_mem v f inb w [] y hoff (1 : Fin 2) (Or.inl hlo)]
    exact hbelow y hlo
  · have hq : (y 1).val - 512 * k < 512 := by omega
    rw [View.read_writes_cons_unit_of_mem v f inb w [] y (ix2 (⟨(y 0).val, h0⟩ : Fin 128) (⟨(y 1).val - 512 * k, hq⟩ : Fin 512)) hoff
      (fun a => by
        match a with
        | ⟨0, _⟩ => show (y 0).val = 0 + (y 0).val; omega
        | ⟨1, _⟩ => show (y 1).val = 512 * k + ((y 1).val - 512 * k); omega)]
    rw [hw _ _ (by show 512 * k + ((y 1).val - 512 * k) < 8192; omega)]
    exact congrArg X (funext fun a => Fin.ext (by
      match a with
      | ⟨0, _⟩ => rfl
      | ⟨1, _⟩ => show 512 * k + ((y 1).val - 512 * k) = (y 1).val; omega))

/-- A rank-two buffer stored whole, through the zero-offset rectangle of its own sizes, reads back the payload. -/
theorem read_store_all {a b : ℕ} (v : View sig κ sp (⟨2, ![a, b]⟩ : Shape) e) (f : v.ty.Contents Val)
    {off : Fin 2 → ℕ} (hoff : off = ![0, 0]) (inb : ∀ i, off i + (![a, b] : Fin 2 → ℕ) i ≤ (⟨2, ![a, b]⟩ : Shape).size i)
    (w : (Rect.unit (s := (⟨2, ![a, b]⟩ : Shape)) off ![a, b] inb).shape.Idx → Val e) :
    v.read Val (v.writes Val f [(⟨Rect.unit (s := (⟨2, ![a, b]⟩ : Shape)) off ![a, b] inb, w⟩ : View.Piece Val (⟨2, ![a, b]⟩ : Shape) e)]) = w := by
  funext y
  exact View.read_writes_cons_unit_of_mem v f inb w [] y y hoff (fun i => by
    match i with
    | ⟨0, _⟩ => show (y 0).val = 0 + (y 0).val; omega
    | ⟨1, _⟩ => show (y 1).val = 0 + (y 1).val; omega)

end Cert.GateRows

end
-- ==== Proof.WordData.lean ====
/-
  The proof data of the cell's one pipelined region.

  The grid runs the sixteen column tiles of a batch tile one after the other, so the batch tile of point n is n / 16 and
  the point of that batch tile that computes column c of a gate row is 16·(n / 16) + c / 512.  The assembled gate rows of
  a batch tile are therefore a closed function of the input blocks at its sixteen points: at (p, c) the dense tile
  computed at that point, read at (p, c mod 512).  The invariant before point n says only that each carried buffer
  agrees with that function on the column tiles stored so far in the current batch tile, the first n mod 16; what the
  buffers held before, and the columns not yet stored, are left unnamed.  At the last column tile all sixteen agree, the
  buffers ARE the closed function, and the two result blocks are the body's finalising arithmetic applied to it.  The two
  result windows are idle away from the last column tile: the body hands their buffers back untouched.
-/
import proofs.«178478_j42855183680049_2_alg».proof.Proof.WordFinal
import proofs.«178478_j42855183680049_2_alg».proof.Proof.GateRowStore

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.GateRows (AgreeBelow)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging buffers at a point, and the two carried buffers -/

abbrev ms0 (t : Fin cfg0.N) : Memref sig .tc .vmem S128x2048 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x2048 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x2048 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S2048x512 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S2048x512 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x512 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x512 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x8192 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x8192 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x2048 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S1x2048 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S1x2048 .f32 := win0_11.stage (cfg0.slots t 11)
abbrev hs11 (t : Fin cfg0.N) : (ms11 t).IsWhole := hstage0_11 ((cfg0.slots t 11).cast nbuf0_11)
abbrev ms12 (t : Fin cfg0.N) : Memref sig .tc .vmem S1x2048 .f32 := win0_12.stage (cfg0.slots t 12)
abbrev hs12 (t : Fin cfg0.N) : (ms12 t).IsWhole := hstage0_12 ((cfg0.slots t 12).cast nbuf0_12)
abbrev ms13 (t : Fin cfg0.N) : Memref sig .tc .vmem S128x2048 .f32 := win0_13.stage (cfg0.slots t 13)
abbrev hs13 (t : Fin cfg0.N) : (ms13 t).IsWhole := hstage0_13 ((cfg0.slots t 13).cast nbuf0_13)
abbrev ms14 (t : Fin cfg0.N) : Memref sig .tc .vmem S128x2048 .f32 := win0_14.stage (cfg0.slots t 14)
abbrev hs14 (t : Fin cfg0.N) : (ms14 t).IsWhole := hstage0_14 ((cfg0.slots t 14).cast nbuf0_14)
/-- The two carried gate-row buffers: whole scoped buffers of the kernel's own. -/
abbrev sc0 : Memref sig .tc .vmem S128x8192 .f32 := Memref.whole cc0_scratch0
abbrev sc1 : Memref sig .tc .vmem S128x8192 .f32 := Memref.whole cc0_scratch1

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
theorem live6 : ∀ t : Fin cfg0.N, cfg0.idle 6 (grid0.coords t) = false := by decide +kernel
theorem live7 : ∀ t : Fin cfg0.N, cfg0.idle 7 (grid0.coords t) = false := by decide +kernel
theorem live8 : ∀ t : Fin cfg0.N, cfg0.idle 8 (grid0.coords t) = false := by decide +kernel
theorem live9 : ∀ t : Fin cfg0.N, cfg0.idle 9 (grid0.coords t) = false := by decide +kernel
theorem live10 : ∀ t : Fin cfg0.N, cfg0.idle 10 (grid0.coords t) = false := by decide +kernel
theorem live11 : ∀ t : Fin cfg0.N, cfg0.idle 11 (grid0.coords t) = false := by decide +kernel
theorem live12 : ∀ t : Fin cfg0.N, cfg0.idle 12 (grid0.coords t) = false := by decide +kernel
/-- The two result windows are idle away from the last column tile, live and written back at it. -/
theorem idle13 : ∀ t : Fin cfg0.N, ¬lastTile (grid0.coords t) → cfg0.idle 13 (grid0.coords t) = true := by decide +kernel
theorem idle14 : ∀ t : Fin cfg0.N, ¬lastTile (grid0.coords t) → cfg0.idle 14 (grid0.coords t) = true := by decide +kernel
theorem live13 : ∀ t : Fin cfg0.N, lastTile (grid0.coords t) → cfg0.idle 13 (grid0.coords t) = false := by decide +kernel
theorem live14 : ∀ t : Fin cfg0.N, lastTile (grid0.coords t) → cfg0.idle 14 (grid0.coords t) = false := by decide +kernel
theorem noFlush13 : ∀ t : Fin cfg0.N, ¬lastTile (grid0.coords t) → (cfg0.win 13).flush t = false := by decide +kernel
theorem noFlush14 : ∀ t : Fin cfg0.N, ¬lastTile (grid0.coords t) → (cfg0.win 14).flush t = false := by decide +kernel

/-- The column-tile coordinate of a point is its position within its batch tile. -/
theorem tile_of_point : ∀ t : Fin cfg0.N, ((grid0.coords t) 1).val = t.val % 16 :=
  (by decide +kernel : ∀ t : Fin grid0.N, ((grid0.coords t) 1).val = t.val % 16)

/-- The launch's invariant, with the two carried buffers as buffers owned at some contents. -/
theorem PhiA_eq (c : Dev nD) :
    (Pipeline.ΦA spec0 c : sProp 𝕄)
      = iprop(iprop((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

/-! ## The assembled gate rows of a batch tile, in closed form -/

/-- The point of `n`'s batch tile that computes column `col` of a gate row. -/
def tilePoint (n col : ℕ) : Fin cfg0.N :=
  ⟨(16 * (n / 16) + col / 512) % 512, lt_of_lt_of_eq (Nat.mod_lt _ (by decide)) N_0.symm⟩

/-- It depends on `n` through its batch tile only. -/
theorem tilePoint_congr {n n' : ℕ} (h : n / 16 = n' / 16) (col : ℕ) : tilePoint n col = tilePoint n' col := by
  apply Fin.ext
  show (16 * (n / 16) + col / 512) % 512 = (16 * (n' / 16) + col / 512) % 512
  rw [h]

/-- The point itself computes the columns of its own tile. -/
theorem tilePoint_self (t : Fin cfg0.N) (col : ℕ) (h : col / 512 = t.val % 16) : tilePoint t.val col = t := by
  have hN : t.val < 512 := lt_of_lt_of_eq t.isLt (show cfg0.N = 512 from N_0)
  apply Fin.ext
  show (16 * (t.val / 16) + col / 512) % 512 = t.val
  rw [h]; omega

/-- The input-path and hidden-path dense tiles computed at a point, from the point's input blocks. -/
def tileX (c : Dev nD) (t : Fin cfg0.N) : Vec F S128x512 .f32 := k0_pay1 (iblk m c 0 t) (iblk m c 3 t) (iblk m c 5 t)
def tileH (c : Dev nD) (t : Fin cfg0.N) : Vec F S128x512 .f32 := k0_pay2 (iblk m c 1 t) (iblk m c 4 t) (iblk m c 6 t)

/-- The assembled gate rows of point `n`'s batch tile: at (p, col) the tile of the point that computes `col`. -/
def rowsX (c : Dev nD) (n : ℕ) : Vec F S128x8192 .f32 := fun y =>
  tileX m c (tilePoint n (y 1).val) (ValueIdx.ix2 (y 0 : Fin 128) (⟨(y 1).val % 512, Nat.mod_lt _ (by decide)⟩ : Fin 512))
def rowsH (c : Dev nD) (n : ℕ) : Vec F S128x8192 .f32 := fun y =>
  tileH m c (tilePoint n (y 1).val) (ValueIdx.ix2 (y 0 : Fin 128) (⟨(y 1).val % 512, Nat.mod_lt _ (by decide)⟩ : Fin 512))

theorem rowsX_congr (c : Dev nD) {n n' : ℕ} (h : n / 16 = n' / 16) : rowsX m c n = rowsX m c n' := by
  funext y; unfold rowsX; rw [tilePoint_congr h]
theorem rowsH_congr (c : Dev nD) {n n' : ℕ} (h : n / 16 = n' / 16) : rowsH m c n = rowsH m c n' := by
  funext y; unfold rowsH; rw [tilePoint_congr h]

/-! ## The two result blocks at the last column tile -/

/-- The new cell block: the finalising arithmetic on the assembled gate rows, the old cell block and the cell scale and shift rows. -/
def cellBlk (c : Dev nD) (t : Fin cfg0.N) : Vec F S128x2048 .f32 :=
  k0_pay8 (k0_pay6 (rowsX m c t.val) (iblk m c 7 t) (iblk m c 8 t) (rowsH m c t.val) (iblk m c 2 t))
    (k0_pay7 (rowsX m c t.val) (iblk m c 7 t) (iblk m c 8 t) (rowsH m c t.val) (iblk m c 2 t))
    (Scalar.ofBits .f32 0x45000000#32) (iblk m c 9 t) (iblk m c 10 t)

/-- The new hidden block, likewise, with the hidden scale and shift rows. -/
def hiddenBlk (c : Dev nD) (t : Fin cfg0.N) : Vec F S128x2048 .f32 :=
  k0_pay3 (k0_pay9 (k0_pay5 (rowsX m c t.val) (iblk m c 7 t) (iblk m c 8 t) (rowsH m c t.val))
      (k0_pay6 (rowsX m c t.val) (iblk m c 7 t) (iblk m c 8 t) (rowsH m c t.val) (iblk m c 2 t))
      (k0_pay7 (rowsX m c t.val) (iblk m c 7 t) (iblk m c 8 t) (rowsH m c t.val) (iblk m c 2 t))
      (Scalar.ofBits .f32 0x45000000#32) (iblk m c 9 t) (iblk m c 10 t))
    (k0_pay10 (iblk m c 11 t)) (iblk m c 12 t)

/-! ## The invariant and the proof data -/

/-- Before point `n`: each carried buffer agrees with the batch tile's assembled gate rows on the column tiles stored so
    far, the first `n mod 16`; the generator register is at some state. -/
def Inv (c : Dev nD) (n : ℕ) : sProp 𝕄 :=
  iprop(iprop((∃ xs0, owns (c : Thread nD τ) sc0 fullShare xs0 ∗ ⌜AgreeBelow (n % 16) xs0 (rowsX m c n)⌝)
      ∗ (∃ xs1, owns (c : Thread nD τ) sc1 fullShare xs1 ∗ ⌜AgreeBelow (n % 16) xs1 (rowsH m c n)⌝)) ∗ (∃ r, prngReg c r))

/-- The proof data on core `c`: the arrays as the region finds them; after the body each input's buffer at its block,
    the result buffers at the two blocks above (read only where the window is written back: at the last column
    tiles); the invariant `Inv`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => hiddenBlk m c t
    | ⟨14, _⟩ => cellBlk m c t
  Φ t := Inv m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = hiddenBlk m c t := by dsimp only [dats]
theorem after14 (c : Dev nD) (t : Fin cfg0.N) : (dats m 0 c).after 14 t = cellBlk m c t := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d
theorem before10 (c : Dev nD) (t : Fin cfg0.N) (d) : (dats m 0 c).before 10 t d = iblk m c 10 t :=
  before0_10_of m (dats m 0 c) (A_eq m c 10) (after10 m c) t d
theorem before11 (c : Dev nD) (t : Fin cfg0.N) (d) : (dats m 0 c).before 11 t d = iblk m c 11 t :=
  before0_11_of m (dats m 0 c) (A_eq m c 11) (after11 m c) t d
theorem before12 (c : Dev nD) (t : Fin cfg0.N) (d) : (dats m 0 c).before 12 t d = iblk m c 12 t :=
  before0_12_of m (dats m 0 c) (A_eq m c 12) (after12 m c) t d

/-- The launch's invariant gives the invariant before the first point, where nothing has been stored; -/
theorem hin (c : Dev nD) : Pipeline.ΦA spec0 c ⊢ (dats m 0 c).Φ 0 := by
  rw [show (dats m 0 c).Φ 0 = Inv m c 0 from rfl, PhiA_eq]
  unfold Inv
  iintro ⟨⟨⟨%d0, H0⟩, ⟨%d1, H1⟩⟩, Hg⟩
  isplitl [H0 H1]
  · isplitl [H0]
    · iexists d0; isplitl [H0]; · iexact H0
      ipureintro; exact Cert.GateRows.agreeBelow_zero _ _
    · iexists d1; isplitl [H1]; · iexact H1
      ipureintro; exact Cert.GateRows.agreeBelow_zero _ _
  iexact Hg

/-- and the invariant at any position gives it back, the carried buffers' contents forgotten. -/
theorem Inv_out (c : Dev nD) (n : ℕ) : Inv m c n ⊢ Pipeline.ΦA spec0 c := by
  rw [PhiA_eq]; unfold Inv
  iintro ⟨⟨⟨%xs0, H0, -⟩, ⟨%xs1, H1, -⟩⟩, Hg⟩
  isplitl [H0 H1]
  · isplitl [H0]
    · iexists xs0; iexact H0
    · iexists xs1; iexact H1
  iexact Hg

theorem hout (c : Dev nD) : (dats m 0 c).Φ (Fin.last cfg0.N) ⊢ Pipeline.ΦA spec0 c :=
  Inv_out m c _

end Cert.Kernel.Body

end
-- ==== Proof.WordSteps.lean ====
/-
  One tile store extends the agreement by one column tile.

  At a point t that is not the last column tile of its batch tile, the body stores into each carried buffer the dense
  tile computed from the point's own input blocks, at the columns of the point's own tile, 512·(t mod 16) onward.  The
  closed form's tile at those columns is the tile of the point itself, so contents that agreed with the closed form on
  the first t mod 16 tiles agree, after the store, on the first t mod 16 + 1; and the next point is in the same batch
  tile, so its closed form is the same function.
-/
import proofs.«178478_j42855183680049_2_alg».proof.Proof.WordData
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic Idealize.ShloMosaic.ValueIdx
open Idealize.SL Idealize.SL.Sem
open Idealize.ShloMosaic.Pipeline (Dat Cfg Window)
open Cert.GateRows (AgreeBelow)

variable {F : FTy → Type} [FloatOps F]

variable (m : (ℓ : Loc nD τ sig) → Buf (Elt F) ℓ)

/-- A zero offset vector, as the printed rectangles spell it. -/
theorem zero2 : (![0, 0] : Fin 2 → ℕ) = fun _ => 0 := funext fun a => by fin_cases a <;> rfl

/-- The closed form's tile at the columns of point `t`'s own tile is the tile computed at `t`. -/
theorem rowsX_own (c : Dev nD) (t : Fin cfg0.N) (p : Fin 128) (q : Fin 512) (hq : 512 * (t.val % 16) + q.val < 8192) :
    rowsX m c t.val (ix2 p (⟨512 * (t.val % 16) + q.val, hq⟩ : Fin 8192)) = tileX m c t (ix2 p q) := by
  unfold rowsX
  have hq' : q.val < 512 := q.isLt
  rw [show tilePoint t.val ((ix2 p (⟨512 * (t.val % 16) + q.val, hq⟩ : Fin 8192) : S128x8192.Idx) 1).val = t from
    tilePoint_self t _ (by show (512 * (t.val % 16) + q.val) / 512 = t.val % 16; omega)]
  exact congrArg (tileX m c t) (funext fun a => Fin.ext (by
    match a with
    | ⟨0, _⟩ => rfl
    | ⟨1, _⟩ => show (512 * (t.val % 16) + q.val) % 512 = q.val; omega))

theorem rowsH_own (c : Dev nD) (t : Fin cfg0.N) (p : Fin 128) (q : Fin 512) (hq : 512 * (t.val % 16) + q.val < 8192) :
    rowsH m c t.val (ix2 p (⟨512 * (t.val % 16) + q.val, hq⟩ : Fin 8192)) = tileH m c t (ix2 p q) := by
  unfold rowsH
  have hq' : q.val < 512 := q.isLt
  rw [show tilePoint t.val ((ix2 p (⟨512 * (t.val % 16) + q.val, hq⟩ : Fin 8192) : S128x8192.Idx) 1).val = t from
    tilePoint_self t _ (by show (512 * (t.val % 16) + q.val) / 512 = t.val % 16; omega)]
  exact congrArg (tileH m c t) (funext fun a => Fin.ext (by
    match a with
    | ⟨0, _⟩ => rfl
    | ⟨1, _⟩ => show (512 * (t.val % 16) + q.val) % 512 = q.val; omega))

/-- The store's offsets at point `t`: row 0, column 512·(t mod 16). -/
theorem off_at (t : Fin cfg0.N) : k0_off1 (grid0.coords t) = ![0, 512 * (t.val % 16)] := by
  rw [k0_off1_eq, tile_of_point t]

set_option maxHeartbeats 3200000 in
/-- After the tile run at `t`, the input-path buffer agrees with the closed form on one more tile. -/
theorem tile_step_X (c : Dev nD) (t : Fin cfg0.N) (h0 : ¬t.val % 16 = 15) (xs0 : Vec F S128x8192 .f32)
    (hag : AgreeBelow (t.val % 16) xs0 (rowsX m c t.val)) :
    AgreeBelow ((t.val + 1) % 16)
      (sc0.view.read (Elt F) (sc0.view.writes (Elt F) ((Memref.isWhole_whole cc0_scratch0).unread xs0)
        (tileRun (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) sc0 (Memref.isWhole_whole _) sc1 (Memref.isWhole_whole _) (fun h => h0 ((lastTile_iff t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)).1))
      (rowsX m c (t.val + 1)) := by
  have hN : t.val < 512 := lt_of_lt_of_eq t.isLt (show cfg0.N = 512 from N_0)
  rw [show (t.val + 1) % 16 = t.val % 16 + 1 from by omega, rowsX_congr m c (show (t.val + 1) / 16 = t.val / 16 from by omega)]
  unfold tileRun; dsimp only
  refine Cert.GateRows.agreeBelow_store sc0.view _ (t.val % 16) _ (off_at t) _ _ ?_ ?_
  · rw [(Memref.isWhole_whole cc0_scratch0).read_unread]; exact hag
  · intro p q hq
    simp only [View.readAt_eq_ld, (hs0 t).read_unread, (hs3 t).read_unread, (hs5 t).read_unread,
      View.ld_unit_zero (S := S128x2048) zero2, View.ld_unit_zero (S := S2048x512) zero2, View.ld_unit_zero (S := S1x512) zero2]
    exact (rowsX_own m c t p q hq).symm

set_option maxHeartbeats 3200000 in
/-- The same for the hidden-path buffer. -/
theorem tile_step_H (c : Dev nD) (t : Fin cfg0.N) (h0 : ¬t.val % 16 = 15) (xs1 : Vec F S128x8192 .f32)
    (hag : AgreeBelow (t.val % 16) xs1 (rowsH m c t.val)) :
    AgreeBelow ((t.val + 1) % 16)
      (sc1.view.read (Elt F) (sc1.view.writes (Elt F) ((Memref.isWhole_whole cc0_scratch1).unread xs1)
        (tileRun (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) sc0 (Memref.isWhole_whole _) sc1 (Memref.isWhole_whole _) (fun h => h0 ((lastTile_iff t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)).2.1))
      (rowsH m c (t.val + 1)) := by
  have hN : t.val < 512 := lt_of_lt_of_eq t.isLt (show cfg0.N = 512 from N_0)
  rw [show (t.val + 1) % 16 = t.val % 16 + 1 from by omega, rowsH_congr m c (show (t.val + 1) / 16 = t.val / 16 from by omega)]
  unfold tileRun; dsimp only
  refine Cert.GateRows.agreeBelow_store sc1.view _ (t.val % 16) _ (off_at t) _ _ ?_ ?_
  · rw [(Memref.isWhole_whole cc0_scratch1).read_unread]; exact hag
  · intro p q hq
    simp only [View.readAt_eq_ld, (hs1 t).read_unread, (hs4 t).read_unread, (hs6 t).read_unread,
      View.ld_unit_zero (S := S128x2048) zero2, View.ld_unit_zero (S := S2048x512) zero2, View.ld_unit_zero (S := S1x512) zero2]
    exact (rowsH_own m c t p q hq).symm

end Cert.Kernel.Body

end
-- ==== Proof.WordFinish.lean ====
/-
  The last column tile completes the gate rows, and the two result blocks are the finalising arithmetic on them.

  At the last column tile of a batch tile the carried buffers agree with the batch tile's assembled gate rows on the
  first fifteen tiles; the body's store of the sixteenth makes that all sixteen, so what the body then reads back whole
  from each buffer IS the assembled gate rows.  Each result buffer is stored whole, once, so it reads back exactly what
  was stored: the finalising arithmetic applied to the assembled gate rows, the old cell block and the scale and shift
  rows — the two blocks the proof data name.
-/
import proofs.«178478_j42855183680049_2_alg».proof.Proof.WordSteps

set_option maxRecDepth 16384

noncomputable section

namespace Cert.Kernel.Body

open Cert.Kernel Cert.Kernel.Gen
open Idealize.ShloMosaic Idealize.ShloMosaic.TcCoe Idealize.ShloMosaic.Tactic Idealize.ShloMosaic.ValueIdx
open Idealize.SL Idealize.SL.Sem
open Idealize.ShloMosaic.Pipeline (Dat Cfg Window)
open Cert.GateRows (AgreeBelow)

variable {F : FTy → Type} [FloatOps F]

variable (m : (ℓ : Loc nD τ sig) → Buf (Elt F) ℓ)

/-- What the body reads back whole from the input-path buffer after the last tile's store: the assembled gate rows. -/
theorem read_all_X (c : Dev nD) (t : Fin cfg0.N) (h0 : t.val % 16 = 15) (xs0 : Vec F S128x8192 .f32)
    (hag : AgreeBelow (t.val % 16) xs0 (rowsX m c t.val)) :
    View.readAt (Elt F) sc0.view (Rect.unit (s := S128x8192) ![0, 0] S128x8192.size inb_S128x8192_S128x8192_0_0).toLoadRect
      (sc0.view.writes (Elt F) ((Memref.isWhole_whole cc0_scratch0).unread xs0)
        (finalRun.sl.HS0_1 (F := F) c (grid0.coords t) (ms0 t) (hs0 t) (ms3 t) (hs3 t) (ms5 t) (hs5 t) (iblk m c 0 t) (iblk m c 3 t) (iblk m c 5 t)))
      = rowsX m c t.val := by
  rw [View.readAt_eq_ld, View.ld_unit_zero (S := S128x8192) zero2]
  refine Cert.GateRows.agreeBelow_all ?_
  unfold finalRun.sl.HS0_1
  have key := Cert.GateRows.agreeBelow_store (Val := Elt F) sc0.view ((Memref.isWhole_whole cc0_scratch0).unread xs0) (t.val % 16)
    (k0_off1_inb (grid0.coords t)) (off_at t)
    (k0_pay1 (View.readAt (Elt F) (ms0 t).view (Rect.unit (s := S128x2048) ![0, 0] S128x2048.size inb_S128x2048_S128x2048_0_0).toLoadRect ((hs0 t).unread (iblk m c 0 t)))
      (View.readAt (Elt F) (ms3 t).view (Rect.unit (s := S2048x512) ![0, 0] S2048x512.size inb_S2048x512_S2048x512_0_0).toLoadRect ((hs3 t).unread (iblk m c 3 t)))
      (View.readAt (Elt F) (ms5 t).view (Rect.unit (s := S1x512) ![0, 0] S1x512.size inb_S1x512_S1x512_0_0).toLoadRect ((hs5 t).unread (iblk m c 5 t))))
    (rowsX m c t.val)
    (by rw [(Memref.isWhole_whole cc0_scratch0).read_unread]; exact hag)
    (by
      intro p q hq
      simp only [View.readAt_eq_ld, (hs0 t).read_unread, (hs3 t).read_unread, (hs5 t).read_unread,
        View.ld_unit_zero (S := S128x2048) zero2, View.ld_unit_zero (S := S2048x512) zero2, View.ld_unit_zero (S := S1x512) zero2]
      exact (rowsX_own m c t p q hq).symm)
  rw [h0] at key
  exact key

/-- The same for the hidden-path buffer. -/
theorem read_all_H (c : Dev nD) (t : Fin cfg0.N) (h0 : t.val % 16 = 15) (xs1 : Vec F S128x8192 .f32)
    (hag : AgreeBelow (t.val % 16) xs1 (rowsH m c t.val)) :
    View.readAt (Elt F) sc1.view (Rect.unit (s := S128x8192) ![0, 0] S128x8192.size inb_S128x8192_S128x8192_0_0).toLoadRect
      (sc1.view.writes (Elt F) ((Memref.isWhole_whole cc0_scratch1).unread xs1)
        (finalRun.sl.HS1_1 (F := F) c (grid0.coords t) (ms1 t) (hs1 t) (ms4 t) (hs4 t) (ms6 t) (hs6 t) (iblk m c 1 t) (iblk m c 4 t) (iblk m c 6 t)))
      = rowsH m c t.val := by
  rw [View.readAt_eq_ld, View.ld_unit_zero (S := S128x8192) zero2]
  refine Cert.GateRows.agreeBelow_all ?_
  unfold finalRun.sl.HS1_1
  have key := Cert.GateRows.agreeBelow_store (Val := Elt F) sc1.view ((Memref.isWhole_whole cc0_scratch1).unread xs1) (t.val % 16)
    (k0_off1_inb (grid0.coords t)) (off_at t)
    (k0_pay2 (View.readAt (Elt F) (ms1 t).view (Rect.unit (s := S128x2048) ![0, 0] S128x2048.size inb_S128x2048_S128x2048_0_0).toLoadRect ((hs1 t).unread (iblk m c 1 t)))
      (View.readAt (Elt F) (ms4 t).view (Rect.unit (s := S2048x512) ![0, 0] S2048x512.size inb_S2048x512_S2048x512_0_0).toLoadRect ((hs4 t).unread (iblk m c 4 t)))
      (View.readAt (Elt F) (ms6 t).view (Rect.unit (s := S1x512) ![0, 0] S1x512.size inb_S1x512_S1x512_0_0).toLoadRect ((hs6 t).unread (iblk m c 6 t))))
    (rowsH m c t.val)
    (by rw [(Memref.isWhole_whole cc0_scratch1).read_unread]; exact hag)
    (by
      intro p q hq
      simp only [View.readAt_eq_ld, (hs1 t).read_unread, (hs4 t).read_unread, (hs6 t).read_unread,
        View.ld_unit_zero (S := S128x2048) zero2, View.ld_unit_zero (S := S2048x512) zero2, View.ld_unit_zero (S := S1x512) zero2]
      exact (rowsH_own m c t p q hq).symm)
  rw [h0] at key
  exact key

/-- After the final run the hidden result buffer holds the proof data's hidden block, whatever it held before. -/
theorem final_hidden (c : Dev nD) (t : Fin cfg0.N) (h0 : t.val % 16 = 15) (xs0 xs1 : Vec F S128x8192 .f32)
    (hag0 : AgreeBelow (t.val % 16) xs0 (rowsX m c t.val)) (hag1 : AgreeBelow (t.val % 16) xs1 (rowsH m c t.val))
    (f : (ms13 t).view.ty.Contents (Elt F)) :
    (ms13 t).view.read (Elt F) ((ms13 t).view.writes (Elt F) f (finalRun (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) sc0 (Memref.isWhole_whole _) sc1 (Memref.isWhole_whole _) ((lastTile_iff t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) xs0 xs1).1) = hiddenBlk m c t := by
  unfold finalRun finalRun.sl.r_4 finalRun.sl.r_5 finalRun.sl.r finalRun.sl.r_1 finalRun.sl.r_2 finalRun.sl.cst_30
  dsimp only
  rw [Cert.GateRows.read_store_all (ms13 t).view f rfl]
  rw [read_all_X m c t h0 xs0 hag0, read_all_H m c t h0 xs1 hag1]
  simp only [View.readAt_eq_ld, (hs0 t).read_unread, (hs1 t).read_unread, (hs2 t).read_unread, (hs3 t).read_unread, (hs4 t).read_unread, (hs5 t).read_unread, (hs6 t).read_unread, (hs7 t).read_unread, (hs8 t).read_unread, (hs9 t).read_unread, (hs10 t).read_unread, (hs11 t).read_unread, (hs12 t).read_unread,
    View.ld_unit_zero (S := S128x2048) zero2, View.ld_unit_zero (S := S1x8192) zero2, View.ld_unit_zero (S := S1x2048) zero2]
  rfl

/-- And the cell result buffer the proof data's cell block. -/
theorem final_cell (c : Dev nD) (t : Fin cfg0.N) (h0 : t.val % 16 = 15) (xs0 xs1 : Vec F S128x8192 .f32)
    (hag0 : AgreeBelow (t.val % 16) xs0 (rowsX m c t.val)) (hag1 : AgreeBelow (t.val % 16) xs1 (rowsH m c t.val))
    (f : (ms14 t).view.ty.Contents (Elt F)) :
    (ms14 t).view.read (Elt F) ((ms14 t).view.writes (Elt F) f (finalRun (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) sc0 (Memref.isWhole_whole _) sc1 (Memref.isWhole_whole _) ((lastTile_iff t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) xs0 xs1).2.1) = cellBlk m c t := by
  unfold finalRun finalRun.sl.r_3 finalRun.sl.r_1 finalRun.sl.r_2 finalRun.sl.cst_30
  dsimp only
  rw [Cert.GateRows.read_store_all (ms14 t).view f rfl]
  rw [read_all_X m c t h0 xs0 hag0, read_all_H m c t h0 xs1 hag1]
  simp only [View.readAt_eq_ld, (hs0 t).read_unread, (hs1 t).read_unread, (hs2 t).read_unread, (hs3 t).read_unread, (hs4 t).read_unread, (hs5 t).read_unread, (hs6 t).read_unread, (hs7 t).read_unread, (hs8 t).read_unread, (hs9 t).read_unread, (hs10 t).read_unread, (hs11 t).read_unread, (hs12 t).read_unread,
    View.ld_unit_zero (S := S128x2048) zero2, View.ld_unit_zero (S := S1x8192) zero2, View.ld_unit_zero (S := S1x2048) zero2]
  rfl

end Cert.Kernel.Body

end
-- ==== Proof.WordBody.lean ====
/-
  The body obligation of the cell's region, and the region's run.

  At every point the body is handed the invariant, each input buffer at its block and the two result buffers.  Away
  from the last column tile of a batch tile it stores one tile into each carried buffer, which extends the agreement with
  the batch tile's assembled gate rows by one tile, and hands the idle result buffers back untouched.  At the last
  column tile the store completes the agreement: the carried buffers ARE the assembled gate rows, the two result buffers
  end at the two blocks the proof data name, and the next point starts a new batch tile, where nothing is stored yet.
  The launch's invariant gives the first point's and the last point's gives it back, so the region runs: every weakly
  fair execution terminates with each array at what the proof data compute and every other buffer as it was.
-/
import proofs.«178478_j42855183680049_2_alg».proof.Proof.WordFinish

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.GateRows (AgreeBelow)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d))
    ∗ (∃ d, owns (c : Thread nD τ) (ms14 t) fullShare ((dats m 0 c).before 14 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t)

set_option maxHeartbeats 6400000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12]
  rw [show (dats m 0 c).owesAt () t.succ = (dats m 0 c).owesAt () t.castSucc from rfl]
  rw [show (dats m 0 c).Φ t.castSucc = Inv m c t.val from rfl, show (dats m 0 c).Φ t.succ = Inv m c (t.val + 1) from rfl]
  have hN : t.val < 512 := lt_of_lt_of_eq t.isLt (show cfg0.N = 512 from N_0)
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4 t], after4]
  rw [show (dats m 0 c).leavesExact 5 t = owns (c : Thread nD τ) (ms5 t) fullShare ((dats m 0 c).after 5 t) from by
    unfold Dat.leavesExact; rw [live5 t], after5]
  rw [show (dats m 0 c).leavesExact 6 t = owns (c : Thread nD τ) (ms6 t) fullShare ((dats m 0 c).after 6 t) from by
    unfold Dat.leavesExact; rw [live6 t], after6]
  rw [show (dats m 0 c).leavesExact 7 t = owns (c : Thread nD τ) (ms7 t) fullShare ((dats m 0 c).after 7 t) from by
    unfold Dat.leavesExact; rw [live7 t], after7]
  rw [show (dats m 0 c).leavesExact 8 t = owns (c : Thread nD τ) (ms8 t) fullShare ((dats m 0 c).after 8 t) from by
    unfold Dat.leavesExact; rw [live8 t], after8]
  rw [show (dats m 0 c).leavesExact 9 t = owns (c : Thread nD τ) (ms9 t) fullShare ((dats m 0 c).after 9 t) from by
    unfold Dat.leavesExact; rw [live9 t], after9]
  rw [show (dats m 0 c).leavesExact 10 t = owns (c : Thread nD τ) (ms10 t) fullShare ((dats m 0 c).after 10 t) from by
    unfold Dat.leavesExact; rw [live10 t], after10]
  rw [show (dats m 0 c).leavesExact 11 t = owns (c : Thread nD τ) (ms11 t) fullShare ((dats m 0 c).after 11 t) from by
    unfold Dat.leavesExact; rw [live11 t], after11]
  rw [show (dats m 0 c).leavesExact 12 t = owns (c : Thread nD τ) (ms12 t) fullShare ((dats m 0 c).after 12 t) from by
    unfold Dat.leavesExact; rw [live12 t], after12]
  by_cases h0 : t.val % 16 = 15
  · have hc : lastTile (grid0.coords t) := (lastTile_iff t).mpr h0
    rw [show (dats m 0 c).leavesExact 13 t = owns (c : Thread nD τ) (ms13 t) fullShare ((dats m 0 c).after 13 t) from by
      unfold Dat.leavesExact; rw [live13 t hc], after13]
    rw [show (dats m 0 c).leavesExact 14 t = owns (c : Thread nD τ) (ms14 t) fullShare ((dats m 0 c).after 14 t) from by
      unfold Dat.leavesExact; rw [live14 t hc], after14]
    unfold Inv
    iintro ⟨⟨⟨⟨%xs0, HS0, %hag0⟩, ⟨%xs1, HS1, %hag1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply ((finalRun c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) sc0 (Memref.isWhole_whole _) sc1 (Memref.isWhole_whole _) hc (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) xs0 xs1).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [H14]; · iexists _; iexact H14
    isplitl [HS0]; · iexact HS0
    isplitl [HS1]; · iexact HS1
    iintro ⟨H0, H1, H2, H3, H4, H5, H6, H7, H8, H9, H10, H11, H12, ⟨%f13, H13⟩, ⟨%f14, H14⟩, HS0, HS1⟩
    isplitl [HS0 HS1 Hg]
    · isplitl [HS0 HS1]
      · isplitl [HS0]
        · iexists _; isplitl [HS0]
          · unfold owns; iexists _; isplitr; swap; · iexact HS0
            ipureintro; rfl
          · ipureintro; rw [show (t.val + 1) % 16 = 0 from by omega]; exact Cert.GateRows.agreeBelow_zero _ _
        · iexists _; isplitl [HS1]
          · unfold owns; iexists _; isplitr; swap; · iexact HS1
            ipureintro; rfl
          · ipureintro; rw [show (t.val + 1) % 16 = 0 from by omega]; exact Cert.GateRows.agreeBelow_zero _ _
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]
    · unfold owns; iexists _; isplitr; swap; · iexact H13
      ipureintro; exact final_hidden m c t h0 xs0 xs1 hag0 hag1 f13
    · unfold owns; iexists _; isplitr; swap; · iexact H14
      ipureintro; exact final_cell m c t h0 xs0 xs1 hag0 hag1 f14
  · have hc : ¬lastTile (grid0.coords t) := fun h => h0 ((lastTile_iff t).mp h)
    rw [Dat.leavesExact_idle (dats m 0 c) 13 t (idle13 t hc) (noFlush13 t hc),
      Dat.leavesExact_idle (dats m 0 c) 14 t (idle14 t hc) (noFlush14 t hc)]
    unfold Inv
    iintro ⟨⟨⟨⟨%xs0, HS0, %hag0⟩, ⟨%xs1, HS1, %hag1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply ((tileRun c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) sc0 (Memref.isWhole_whole _) sc1 (Memref.isWhole_whole _) (fun h => h0 ((lastTile_iff t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)).2.2 _ _ xs0 xs1 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [HS0]; · iexact HS0
    isplitl [HS1]; · iexact HS1
    iintro ⟨H0, H1, H2, H3, H4, H5, H6, H7, H8, H9, H10, H11, H12, H13, H14, HS0, HS1⟩
    isplitl [HS0 HS1 Hg]
    · isplitl [HS0 HS1]
      · isplitl [HS0]
        · iexists _; isplitl [HS0]
          · unfold owns; iexists _; isplitr; swap; · iexact HS0
            ipureintro; rfl
          · ipureintro; exact tile_step_X m c t h0 xs0 hag0
        · iexists _; isplitl [HS1]
          · unfold owns; iexists _; isplitr; swap; · iexact HS1
            ipureintro; rfl
          · ipureintro; exact tile_step_H m c t h0 xs1 hag1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    iexists _; iexact H14

/-- The library's body obligation, at every point. -/
theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- The region's run: every weakly fair execution of @main terminates with every array of the region at what the
    proof data compute (an input as launched, a result overwritten block by block by what the body left at each
    write-back) and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- So the thirteen argument arrays end as they were launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ (dats m) (A_eq m) (run_main m ρ)

end Cert.Kernel.Body

end
-- ==== Proof.IdealTile.lean ====
/-
  The cell body on whole staging buffers at a grid point that is not the last column tile of its batch tile.
  It stores one [128, 512] column tile of each dense layer into the two carried gate-row buffers and touches
  nothing else: the thirteen inputs and the two result buffers come back as they were handed over, and each
  gate-row buffer comes back as what it held with the one tile written over it.
-/
import proofs.«178478_j42855183680049_2_alg».proof.Proof.Gen.KernelIdeal.Frame
import proofs.«178478_j42855183680049_2_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one branch is taken at the last column tile of a batch tile. -/
abbrev lastTile (i : grid0.Coords) : Prop := k0_cond1 i = 1#1

/-- Over the grid in its running order that is every sixteenth point, counting from the fifteenth. -/
theorem lastTile_iff : ∀ t : Fin cfg0.N, lastTile (grid0.coords t) ↔ t.val % 16 = 15 :=
  (by decide +kernel : ∀ t : Fin grid0.N, lastTile (grid0.coords t) ↔ t.val % 16 = 15)

set_option maxHeartbeats 1000000 in
/-- Away from the last column tile: the tiles written into the two gate-row buffers (newest first), with the run that
    leaves exactly those written over what the buffers held (`xs0`, `xs1`) and everything else as it was. -/
noncomputable def tileRun (c : Dev nD) (i : grid0.Coords) (arg2 : Memref sig .tc .vmem S128x2048 .bf16) (harg2 : arg2.IsWhole) (arg3 : Memref sig .tc .vmem S128x2048 .bf16) (harg3 : arg3.IsWhole) (arg4 : Memref sig .tc .vmem S128x2048 .f32) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S1x512 .f32) (harg7 : arg7.IsWhole) (arg8 : Memref sig .tc .vmem S1x512 .f32) (harg8 : arg8.IsWhole) (arg9 : Memref sig .tc .vmem S1x8192 .f32) (harg9 : arg9.IsWhole) (arg10 : Memref sig .tc .vmem S1x8192 .f32) (harg10 : arg10.IsWhole) (arg11 : Memref sig .tc .vmem S1x2048 .f32) (harg11 : arg11.IsWhole) (arg12 : Memref sig .tc .vmem S1x2048 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S128x2048 .f32) (harg15 : arg15.IsWhole) (arg16 : Memref sig .tc .vmem S128x2048 .f32) (harg16 : arg16.IsWhole) (arg17 : Memref sig .tc .vmem S128x8192 .f32) (harg17 : arg17.IsWhole) (arg18 : Memref sig .tc .vmem S128x8192 .f32) (harg18 : arg18.IsWhole) (hc0 : ¬lastTile i)
    (x0 : Vec F S128x2048 .bf16) (x1 : Vec F S128x2048 .bf16) (x2 : Vec F S128x2048 .f32) (x3 : Vec F S2048x512 .bf16) (x4 : Vec F S2048x512 .bf16) (x5 : Vec F S1x512 .f32) (x6 : Vec F S1x512 .f32) (x7 : Vec F S1x8192 .f32) (x8 : Vec F S1x8192 .f32) (x9 : Vec F S1x2048 .f32) (x10 : Vec F S1x2048 .f32) (x11 : Vec F S1x2048 .f32) (x12 : Vec F S1x2048 .f32) :
    Σ' (LS0 : List (View.Piece (Elt F) S128x8192 .f32)), { LS1 : List (View.Piece (Elt F) S128x8192 .f32) //
      ∀ (xi13 xi14 : Vec F S128x2048 .f32) (xs0 xs1 : Vec F S128x8192 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare xi13 ∗ owns (c : Thread nD τ) arg16 fullShare xi14 ∗ owns (c : Thread nD τ) arg17 fullShare xs0 ∗ owns (c : Thread nD τ) arg18 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare xi13 ∗ owns (c : Thread nD τ) arg16 fullShare xi14 ∗ (arg17.view.loc (c : Thread nD τ) ↦[arg17.view.set]{fullShare} arg17.view.writes (Elt F) (harg17.unread xs0) LS0) ∗ (arg18.view.loc (c : Thread nD τ) ↦[arg18.view.set]{fullShare} arg18.view.writes (Elt F) (harg18.unread xs1) LS1)) -∗ K ⟨⟩))
          ⊢ wp frame (wpE (defs₀ (F := F)) Variants.none c none) E (cc0__lstm_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, fun xi13 xi14 xs0 xs1 E K => ?run⟩
  case run =>
    simp only [cc0__lstm_kernel_eq_skeleton]; unfold cc0__lstm_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hfs0; obtain rfl := harg18.eq_unread hfs1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [HS0]; · iexact HS0
    iexact HS1

end Cert.KernelIdeal.Body

end
-- ==== Proof.IdealFinal.lean ====
/-
  The cell body on whole staging buffers at the last column tile of a batch tile.  It stores the last column tile of
  each dense layer into the two carried gate-row buffers, reads both buffers back whole, and from those 128 complete
  gate rows, the old cell block and the six scale and shift rows computes and stores the new hidden block and the new
  cell block, each through the whole of its result buffer.
-/
import proofs.«178478_j42855183680049_2_alg».proof.Proof.IdealTile

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- At the last column tile, from gate-row buffers holding `xs0`, `xs1`: what is stored into the two result buffers and
    the two gate-row buffers (newest first), with the run that leaves exactly those written and the inputs as they were. -/
noncomputable def finalRun (c : Dev nD) (i : grid0.Coords) (arg2 : Memref sig .tc .vmem S128x2048 .bf16) (harg2 : arg2.IsWhole) (arg3 : Memref sig .tc .vmem S128x2048 .bf16) (harg3 : arg3.IsWhole) (arg4 : Memref sig .tc .vmem S128x2048 .f32) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S1x512 .f32) (harg7 : arg7.IsWhole) (arg8 : Memref sig .tc .vmem S1x512 .f32) (harg8 : arg8.IsWhole) (arg9 : Memref sig .tc .vmem S1x8192 .f32) (harg9 : arg9.IsWhole) (arg10 : Memref sig .tc .vmem S1x8192 .f32) (harg10 : arg10.IsWhole) (arg11 : Memref sig .tc .vmem S1x2048 .f32) (harg11 : arg11.IsWhole) (arg12 : Memref sig .tc .vmem S1x2048 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S128x2048 .f32) (harg15 : arg15.IsWhole) (arg16 : Memref sig .tc .vmem S128x2048 .f32) (harg16 : arg16.IsWhole) (arg17 : Memref sig .tc .vmem S128x8192 .f32) (harg17 : arg17.IsWhole) (arg18 : Memref sig .tc .vmem S128x8192 .f32) (harg18 : arg18.IsWhole) (hc0 : lastTile i)
    (x0 : Vec F S128x2048 .bf16) (x1 : Vec F S128x2048 .bf16) (x2 : Vec F S128x2048 .f32) (x3 : Vec F S2048x512 .bf16) (x4 : Vec F S2048x512 .bf16) (x5 : Vec F S1x512 .f32) (x6 : Vec F S1x512 .f32) (x7 : Vec F S1x8192 .f32) (x8 : Vec F S1x8192 .f32) (x9 : Vec F S1x2048 .f32) (x10 : Vec F S1x2048 .f32) (x11 : Vec F S1x2048 .f32) (x12 : Vec F S1x2048 .f32) (xs0 xs1 : Vec F S128x8192 .f32) :
    Σ' (L13 : List (View.Piece (Elt F) S128x2048 .f32)) (L14 : List (View.Piece (Elt F) S128x2048 .f32)) (LS0 : List (View.Piece (Elt F) S128x8192 .f32)), { LS1 : List (View.Piece (Elt F) S128x8192 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ d, owns (c : Thread nD τ) arg15 fullShare d) ∗ (∃ d, owns (c : Thread nD τ) arg16 fullShare d) ∗ owns (c : Thread nD τ) arg17 fullShare xs0 ∗ owns (c : Thread nD τ) arg18 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14) ∗ (arg17.view.loc (c : Thread nD τ) ↦[arg17.view.set]{fullShare} arg17.view.writes (Elt F) (harg17.unread xs0) LS0) ∗ (arg18.view.loc (c : Thread nD τ) ↦[arg18.view.set]{fullShare} arg18.view.writes (Elt F) (harg18.unread xs1) LS1)) -∗ K ⟨⟩))
          ⊢ wp frame (wpE (defs₀ (F := F)) Variants.none c none) E (cc0__lstm_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, fun E K => ?run⟩
  case run =>
    simp only [cc0__lstm_kernel_eq_skeleton]; unfold cc0__lstm_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg17.eq_unread hfs0; obtain rfl := harg18.eq_unread hfs1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]; · iexists _; iexact H13
    isplitl [H14]; · iexists _; iexact H14
    isplitl [HS0]; · iexact HS0
    iexact HS1

end Cert.KernelIdeal.Body

end
-- ==== Proof.IdealData.lean ====
/-
  The proof data of the cell's one pipelined region.

  The grid runs the sixteen column tiles of a batch tile one after the other, so the batch tile of point n is n / 16 and
  the point of that batch tile that computes column c of a gate row is 16·(n / 16) + c / 512.  The assembled gate rows of
  a batch tile are therefore a closed function of the input blocks at its sixteen points: at (p, c) the dense tile
  computed at that point, read at (p, c mod 512).  The invariant before point n says only that each carried buffer
  agrees with that function on the column tiles stored so far in the current batch tile, the first n mod 16; what the
  buffers held before, and the columns not yet stored, are left unnamed.  At the last column tile all sixteen agree, the
  buffers ARE the closed function, and the two result blocks are the body's finalising arithmetic applied to it.  The two
  result windows are idle away from the last column tile: the body hands their buffers back untouched.
-/
import proofs.«178478_j42855183680049_2_alg».proof.Proof.IdealFinal
import proofs.«178478_j42855183680049_2_alg».proof.Proof.GateRowStore

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.GateRows (AgreeBelow)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging buffers at a point, and the two carried buffers -/

abbrev ms0 (t : Fin cfg0.N) : Memref sig .tc .vmem S128x2048 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x2048 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x2048 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S2048x512 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S2048x512 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x512 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x512 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x8192 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x8192 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x2048 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S1x2048 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S1x2048 .f32 := win0_11.stage (cfg0.slots t 11)
abbrev hs11 (t : Fin cfg0.N) : (ms11 t).IsWhole := hstage0_11 ((cfg0.slots t 11).cast nbuf0_11)
abbrev ms12 (t : Fin cfg0.N) : Memref sig .tc .vmem S1x2048 .f32 := win0_12.stage (cfg0.slots t 12)
abbrev hs12 (t : Fin cfg0.N) : (ms12 t).IsWhole := hstage0_12 ((cfg0.slots t 12).cast nbuf0_12)
abbrev ms13 (t : Fin cfg0.N) : Memref sig .tc .vmem S128x2048 .f32 := win0_13.stage (cfg0.slots t 13)
abbrev hs13 (t : Fin cfg0.N) : (ms13 t).IsWhole := hstage0_13 ((cfg0.slots t 13).cast nbuf0_13)
abbrev ms14 (t : Fin cfg0.N) : Memref sig .tc .vmem S128x2048 .f32 := win0_14.stage (cfg0.slots t 14)
abbrev hs14 (t : Fin cfg0.N) : (ms14 t).IsWhole := hstage0_14 ((cfg0.slots t 14).cast nbuf0_14)
/-- The two carried gate-row buffers: whole scoped buffers of the kernel's own. -/
abbrev sc0 : Memref sig .tc .vmem S128x8192 .f32 := Memref.whole cc0_scratch0
abbrev sc1 : Memref sig .tc .vmem S128x8192 .f32 := Memref.whole cc0_scratch1

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
theorem live6 : ∀ t : Fin cfg0.N, cfg0.idle 6 (grid0.coords t) = false := by decide +kernel
theorem live7 : ∀ t : Fin cfg0.N, cfg0.idle 7 (grid0.coords t) = false := by decide +kernel
theorem live8 : ∀ t : Fin cfg0.N, cfg0.idle 8 (grid0.coords t) = false := by decide +kernel
theorem live9 : ∀ t : Fin cfg0.N, cfg0.idle 9 (grid0.coords t) = false := by decide +kernel
theorem live10 : ∀ t : Fin cfg0.N, cfg0.idle 10 (grid0.coords t) = false := by decide +kernel
theorem live11 : ∀ t : Fin cfg0.N, cfg0.idle 11 (grid0.coords t) = false := by decide +kernel
theorem live12 : ∀ t : Fin cfg0.N, cfg0.idle 12 (grid0.coords t) = false := by decide +kernel
/-- The two result windows are idle away from the last column tile, live and written back at it. -/
theorem idle13 : ∀ t : Fin cfg0.N, ¬lastTile (grid0.coords t) → cfg0.idle 13 (grid0.coords t) = true := by decide +kernel
theorem idle14 : ∀ t : Fin cfg0.N, ¬lastTile (grid0.coords t) → cfg0.idle 14 (grid0.coords t) = true := by decide +kernel
theorem live13 : ∀ t : Fin cfg0.N, lastTile (grid0.coords t) → cfg0.idle 13 (grid0.coords t) = false := by decide +kernel
theorem live14 : ∀ t : Fin cfg0.N, lastTile (grid0.coords t) → cfg0.idle 14 (grid0.coords t) = false := by decide +kernel
theorem noFlush13 : ∀ t : Fin cfg0.N, ¬lastTile (grid0.coords t) → (cfg0.win 13).flush t = false := by decide +kernel
theorem noFlush14 : ∀ t : Fin cfg0.N, ¬lastTile (grid0.coords t) → (cfg0.win 14).flush t = false := by decide +kernel

/-- The column-tile coordinate of a point is its position within its batch tile. -/
theorem tile_of_point : ∀ t : Fin cfg0.N, ((grid0.coords t) 1).val = t.val % 16 :=
  (by decide +kernel : ∀ t : Fin grid0.N, ((grid0.coords t) 1).val = t.val % 16)

/-- The launch's invariant, with the two carried buffers as buffers owned at some contents. -/
theorem PhiA_eq (c : Dev nD) :
    (Pipeline.ΦA spec0 c : sProp 𝕄)
      = iprop(iprop((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

/-! ## The assembled gate rows of a batch tile, in closed form -/

/-- The point of `n`'s batch tile that computes column `col` of a gate row. -/
def tilePoint (n col : ℕ) : Fin cfg0.N :=
  ⟨(16 * (n / 16) + col / 512) % 512, lt_of_lt_of_eq (Nat.mod_lt _ (by decide)) N_0.symm⟩

/-- It depends on `n` through its batch tile only. -/
theorem tilePoint_congr {n n' : ℕ} (h : n / 16 = n' / 16) (col : ℕ) : tilePoint n col = tilePoint n' col := by
  apply Fin.ext
  show (16 * (n / 16) + col / 512) % 512 = (16 * (n' / 16) + col / 512) % 512
  rw [h]

/-- The point itself computes the columns of its own tile. -/
theorem tilePoint_self (t : Fin cfg0.N) (col : ℕ) (h : col / 512 = t.val % 16) : tilePoint t.val col = t := by
  have hN : t.val < 512 := lt_of_lt_of_eq t.isLt (show cfg0.N = 512 from N_0)
  apply Fin.ext
  show (16 * (t.val / 16) + col / 512) % 512 = t.val
  rw [h]; omega

/-- The input-path and hidden-path dense tiles computed at a point, from the point's input blocks. -/
def tileX (c : Dev nD) (t : Fin cfg0.N) : Vec F S128x512 .f32 := k0_pay1 (iblk m c 0 t) (iblk m c 3 t) (iblk m c 5 t)
def tileH (c : Dev nD) (t : Fin cfg0.N) : Vec F S128x512 .f32 := k0_pay2 (iblk m c 1 t) (iblk m c 4 t) (iblk m c 6 t)

/-- The assembled gate rows of point `n`'s batch tile: at (p, col) the tile of the point that computes `col`. -/
def rowsX (c : Dev nD) (n : ℕ) : Vec F S128x8192 .f32 := fun y =>
  tileX m c (tilePoint n (y 1).val) (ValueIdx.ix2 (y 0 : Fin 128) (⟨(y 1).val % 512, Nat.mod_lt _ (by decide)⟩ : Fin 512))
def rowsH (c : Dev nD) (n : ℕ) : Vec F S128x8192 .f32 := fun y =>
  tileH m c (tilePoint n (y 1).val) (ValueIdx.ix2 (y 0 : Fin 128) (⟨(y 1).val % 512, Nat.mod_lt _ (by decide)⟩ : Fin 512))

theorem rowsX_congr (c : Dev nD) {n n' : ℕ} (h : n / 16 = n' / 16) : rowsX m c n = rowsX m c n' := by
  funext y; unfold rowsX; rw [tilePoint_congr h]
theorem rowsH_congr (c : Dev nD) {n n' : ℕ} (h : n / 16 = n' / 16) : rowsH m c n = rowsH m c n' := by
  funext y; unfold rowsH; rw [tilePoint_congr h]

/-! ## The two result blocks at the last column tile -/

/-- The new cell block: the finalising arithmetic on the assembled gate rows, the old cell block and the cell scale and shift rows. -/
def cellBlk (c : Dev nD) (t : Fin cfg0.N) : Vec F S128x2048 .f32 :=
  k0_pay8 (k0_pay6 (rowsX m c t.val) (iblk m c 7 t) (iblk m c 8 t) (rowsH m c t.val) (iblk m c 2 t))
    (k0_pay7 (rowsX m c t.val) (iblk m c 7 t) (iblk m c 8 t) (rowsH m c t.val) (iblk m c 2 t))
    (Scalar.ofBits .f32 0x45000000#32) (iblk m c 9 t) (iblk m c 10 t)

/-- The new hidden block, likewise, with the hidden scale and shift rows. -/
def hiddenBlk (c : Dev nD) (t : Fin cfg0.N) : Vec F S128x2048 .f32 :=
  k0_pay3 (k0_pay9 (k0_pay5 (rowsX m c t.val) (iblk m c 7 t) (iblk m c 8 t) (rowsH m c t.val))
      (k0_pay6 (rowsX m c t.val) (iblk m c 7 t) (iblk m c 8 t) (rowsH m c t.val) (iblk m c 2 t))
      (k0_pay7 (rowsX m c t.val) (iblk m c 7 t) (iblk m c 8 t) (rowsH m c t.val) (iblk m c 2 t))
      (Scalar.ofBits .f32 0x45000000#32) (iblk m c 9 t) (iblk m c 10 t))
    (k0_pay10 (iblk m c 11 t)) (iblk m c 12 t)

/-! ## The invariant and the proof data -/

/-- Before point `n`: each carried buffer agrees with the batch tile's assembled gate rows on the column tiles stored so
    far, the first `n mod 16`; the generator register is at some state. -/
def Inv (c : Dev nD) (n : ℕ) : sProp 𝕄 :=
  iprop(iprop((∃ xs0, owns (c : Thread nD τ) sc0 fullShare xs0 ∗ ⌜AgreeBelow (n % 16) xs0 (rowsX m c n)⌝)
      ∗ (∃ xs1, owns (c : Thread nD τ) sc1 fullShare xs1 ∗ ⌜AgreeBelow (n % 16) xs1 (rowsH m c n)⌝)) ∗ (∃ r, prngReg c r))

/-- The proof data on core `c`: the arrays as the region finds them; after the body each input's buffer at its block,
    the result buffers at the two blocks above (read only where the window is written back: at the last column
    tiles); the invariant `Inv`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => hiddenBlk m c t
    | ⟨14, _⟩ => cellBlk m c t
  Φ t := Inv m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = hiddenBlk m c t := by dsimp only [dats]
theorem after14 (c : Dev nD) (t : Fin cfg0.N) : (dats m 0 c).after 14 t = cellBlk m c t := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d
theorem before10 (c : Dev nD) (t : Fin cfg0.N) (d) : (dats m 0 c).before 10 t d = iblk m c 10 t :=
  before0_10_of m (dats m 0 c) (A_eq m c 10) (after10 m c) t d
theorem before11 (c : Dev nD) (t : Fin cfg0.N) (d) : (dats m 0 c).before 11 t d = iblk m c 11 t :=
  before0_11_of m (dats m 0 c) (A_eq m c 11) (after11 m c) t d
theorem before12 (c : Dev nD) (t : Fin cfg0.N) (d) : (dats m 0 c).before 12 t d = iblk m c 12 t :=
  before0_12_of m (dats m 0 c) (A_eq m c 12) (after12 m c) t d

/-- The launch's invariant gives the invariant before the first point, where nothing has been stored; -/
theorem hin (c : Dev nD) : Pipeline.ΦA spec0 c ⊢ (dats m 0 c).Φ 0 := by
  rw [show (dats m 0 c).Φ 0 = Inv m c 0 from rfl, PhiA_eq]
  unfold Inv
  iintro ⟨⟨⟨%d0, H0⟩, ⟨%d1, H1⟩⟩, Hg⟩
  isplitl [H0 H1]
  · isplitl [H0]
    · iexists d0; isplitl [H0]; · iexact H0
      ipureintro; exact Cert.GateRows.agreeBelow_zero _ _
    · iexists d1; isplitl [H1]; · iexact H1
      ipureintro; exact Cert.GateRows.agreeBelow_zero _ _
  iexact Hg

/-- and the invariant at any position gives it back, the carried buffers' contents forgotten. -/
theorem Inv_out (c : Dev nD) (n : ℕ) : Inv m c n ⊢ Pipeline.ΦA spec0 c := by
  rw [PhiA_eq]; unfold Inv
  iintro ⟨⟨⟨%xs0, H0, -⟩, ⟨%xs1, H1, -⟩⟩, Hg⟩
  isplitl [H0 H1]
  · isplitl [H0]
    · iexists xs0; iexact H0
    · iexists xs1; iexact H1
  iexact Hg

theorem hout (c : Dev nD) : (dats m 0 c).Φ (Fin.last cfg0.N) ⊢ Pipeline.ΦA spec0 c :=
  Inv_out m c _

end Cert.KernelIdeal.Body

end
-- ==== Proof.IdealSteps.lean ====
/-
  One tile store extends the agreement by one column tile.

  At a point t that is not the last column tile of its batch tile, the body stores into each carried buffer the dense
  tile computed from the point's own input blocks, at the columns of the point's own tile, 512·(t mod 16) onward.  The
  closed form's tile at those columns is the tile of the point itself, so contents that agreed with the closed form on
  the first t mod 16 tiles agree, after the store, on the first t mod 16 + 1; and the next point is in the same batch
  tile, so its closed form is the same function.
-/
import proofs.«178478_j42855183680049_2_alg».proof.Proof.IdealData
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)
open Cert.GateRows (AgreeBelow)

variable {F : FTy → Type} [FloatOps F]

variable (m : (ℓ : Loc nD τ sig) → Buf (Elt F) ℓ)

/-- A zero offset vector, as the printed rectangles spell it. -/
theorem zero2 : (![0, 0] : Fin 2 → ℕ) = fun _ => 0 := funext fun a => by fin_cases a <;> rfl

/-- The closed form's tile at the columns of point `t`'s own tile is the tile computed at `t`. -/
theorem rowsX_own (c : Dev nD) (t : Fin cfg0.N) (p : Fin 128) (q : Fin 512) (hq : 512 * (t.val % 16) + q.val < 8192) :
    rowsX m c t.val (ix2 p (⟨512 * (t.val % 16) + q.val, hq⟩ : Fin 8192)) = tileX m c t (ix2 p q) := by
  unfold rowsX
  have hq' : q.val < 512 := q.isLt
  rw [show tilePoint t.val ((ix2 p (⟨512 * (t.val % 16) + q.val, hq⟩ : Fin 8192) : S128x8192.Idx) 1).val = t from
    tilePoint_self t _ (by show (512 * (t.val % 16) + q.val) / 512 = t.val % 16; omega)]
  exact congrArg (tileX m c t) (funext fun a => Fin.ext (by
    match a with
    | ⟨0, _⟩ => rfl
    | ⟨1, _⟩ => show (512 * (t.val % 16) + q.val) % 512 = q.val; omega))

theorem rowsH_own (c : Dev nD) (t : Fin cfg0.N) (p : Fin 128) (q : Fin 512) (hq : 512 * (t.val % 16) + q.val < 8192) :
    rowsH m c t.val (ix2 p (⟨512 * (t.val % 16) + q.val, hq⟩ : Fin 8192)) = tileH m c t (ix2 p q) := by
  unfold rowsH
  have hq' : q.val < 512 := q.isLt
  rw [show tilePoint t.val ((ix2 p (⟨512 * (t.val % 16) + q.val, hq⟩ : Fin 8192) : S128x8192.Idx) 1).val = t from
    tilePoint_self t _ (by show (512 * (t.val % 16) + q.val) / 512 = t.val % 16; omega)]
  exact congrArg (tileH m c t) (funext fun a => Fin.ext (by
    match a with
    | ⟨0, _⟩ => rfl
    | ⟨1, _⟩ => show (512 * (t.val % 16) + q.val) % 512 = q.val; omega))

/-- The store's offsets at point `t`: row 0, column 512·(t mod 16). -/
theorem off_at (t : Fin cfg0.N) : k0_off1 (grid0.coords t) = ![0, 512 * (t.val % 16)] := by
  rw [k0_off1_eq, tile_of_point t]

set_option maxHeartbeats 3200000 in
/-- After the tile run at `t`, the input-path buffer agrees with the closed form on one more tile. -/
theorem tile_step_X (c : Dev nD) (t : Fin cfg0.N) (h0 : ¬t.val % 16 = 15) (xs0 : Vec F S128x8192 .f32)
    (hag : AgreeBelow (t.val % 16) xs0 (rowsX m c t.val)) :
    AgreeBelow ((t.val + 1) % 16)
      (sc0.view.read (Elt F) (sc0.view.writes (Elt F) ((Memref.isWhole_whole cc0_scratch0).unread xs0)
        (tileRun (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) sc0 (Memref.isWhole_whole _) sc1 (Memref.isWhole_whole _) (fun h => h0 ((lastTile_iff t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)).1))
      (rowsX m c (t.val + 1)) := by
  have hN : t.val < 512 := lt_of_lt_of_eq t.isLt (show cfg0.N = 512 from N_0)
  rw [show (t.val + 1) % 16 = t.val % 16 + 1 from by omega, rowsX_congr m c (show (t.val + 1) / 16 = t.val / 16 from by omega)]
  unfold tileRun; dsimp only
  refine Cert.GateRows.agreeBelow_store sc0.view _ (t.val % 16) _ (off_at t) _ _ ?_ ?_
  · rw [(Memref.isWhole_whole cc0_scratch0).read_unread]; exact hag
  · intro p q hq
    simp only [View.readAt_eq_ld, (hs0 t).read_unread, (hs3 t).read_unread, (hs5 t).read_unread,
      View.ld_unit_zero (S := S128x2048) zero2, View.ld_unit_zero (S := S2048x512) zero2, View.ld_unit_zero (S := S1x512) zero2]
    exact (rowsX_own m c t p q hq).symm

set_option maxHeartbeats 3200000 in
/-- The same for the hidden-path buffer. -/
theorem tile_step_H (c : Dev nD) (t : Fin cfg0.N) (h0 : ¬t.val % 16 = 15) (xs1 : Vec F S128x8192 .f32)
    (hag : AgreeBelow (t.val % 16) xs1 (rowsH m c t.val)) :
    AgreeBelow ((t.val + 1) % 16)
      (sc1.view.read (Elt F) (sc1.view.writes (Elt F) ((Memref.isWhole_whole cc0_scratch1).unread xs1)
        (tileRun (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) sc0 (Memref.isWhole_whole _) sc1 (Memref.isWhole_whole _) (fun h => h0 ((lastTile_iff t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)).2.1))
      (rowsH m c (t.val + 1)) := by
  have hN : t.val < 512 := lt_of_lt_of_eq t.isLt (show cfg0.N = 512 from N_0)
  rw [show (t.val + 1) % 16 = t.val % 16 + 1 from by omega, rowsH_congr m c (show (t.val + 1) / 16 = t.val / 16 from by omega)]
  unfold tileRun; dsimp only
  refine Cert.GateRows.agreeBelow_store sc1.view _ (t.val % 16) _ (off_at t) _ _ ?_ ?_
  · rw [(Memref.isWhole_whole cc0_scratch1).read_unread]; exact hag
  · intro p q hq
    simp only [View.readAt_eq_ld, (hs1 t).read_unread, (hs4 t).read_unread, (hs6 t).read_unread,
      View.ld_unit_zero (S := S128x2048) zero2, View.ld_unit_zero (S := S2048x512) zero2, View.ld_unit_zero (S := S1x512) zero2]
    exact (rowsH_own m c t p q hq).symm

end Cert.KernelIdeal.Body

end
-- ==== Proof.IdealFinish.lean ====
/-
  The last column tile completes the gate rows, and the two result blocks are the finalising arithmetic on them.

  At the last column tile of a batch tile the carried buffers agree with the batch tile's assembled gate rows on the
  first fifteen tiles; the body's store of the sixteenth makes that all sixteen, so what the body then reads back whole
  from each buffer IS the assembled gate rows.  Each result buffer is stored whole, once, so it reads back exactly what
  was stored: the finalising arithmetic applied to the assembled gate rows, the old cell block and the scale and shift
  rows — the two blocks the proof data name.
-/
import proofs.«178478_j42855183680049_2_alg».proof.Proof.IdealSteps

set_option maxRecDepth 16384

noncomputable section

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)
open Cert.GateRows (AgreeBelow)

variable {F : FTy → Type} [FloatOps F]

variable (m : (ℓ : Loc nD τ sig) → Buf (Elt F) ℓ)

/-- What the body reads back whole from the input-path buffer after the last tile's store: the assembled gate rows. -/
theorem read_all_X (c : Dev nD) (t : Fin cfg0.N) (h0 : t.val % 16 = 15) (xs0 : Vec F S128x8192 .f32)
    (hag : AgreeBelow (t.val % 16) xs0 (rowsX m c t.val)) :
    View.readAt (Elt F) sc0.view (Rect.unit (s := S128x8192) ![0, 0] S128x8192.size inb_S128x8192_S128x8192_0_0).toLoadRect
      (sc0.view.writes (Elt F) ((Memref.isWhole_whole cc0_scratch0).unread xs0)
        (finalRun.sl.HS0_1 (F := F) c (grid0.coords t) (ms0 t) (hs0 t) (ms3 t) (hs3 t) (ms5 t) (hs5 t) (iblk m c 0 t) (iblk m c 3 t) (iblk m c 5 t)))
      = rowsX m c t.val := by
  rw [View.readAt_eq_ld, View.ld_unit_zero (S := S128x8192) zero2]
  refine Cert.GateRows.agreeBelow_all ?_
  unfold finalRun.sl.HS0_1
  have key := Cert.GateRows.agreeBelow_store (Val := Elt F) sc0.view ((Memref.isWhole_whole cc0_scratch0).unread xs0) (t.val % 16)
    (k0_off1_inb (grid0.coords t)) (off_at t)
    (k0_pay1 (View.readAt (Elt F) (ms0 t).view (Rect.unit (s := S128x2048) ![0, 0] S128x2048.size inb_S128x2048_S128x2048_0_0).toLoadRect ((hs0 t).unread (iblk m c 0 t)))
      (View.readAt (Elt F) (ms3 t).view (Rect.unit (s := S2048x512) ![0, 0] S2048x512.size inb_S2048x512_S2048x512_0_0).toLoadRect ((hs3 t).unread (iblk m c 3 t)))
      (View.readAt (Elt F) (ms5 t).view (Rect.unit (s := S1x512) ![0, 0] S1x512.size inb_S1x512_S1x512_0_0).toLoadRect ((hs5 t).unread (iblk m c 5 t))))
    (rowsX m c t.val)
    (by rw [(Memref.isWhole_whole cc0_scratch0).read_unread]; exact hag)
    (by
      intro p q hq
      simp only [View.readAt_eq_ld, (hs0 t).read_unread, (hs3 t).read_unread, (hs5 t).read_unread,
        View.ld_unit_zero (S := S128x2048) zero2, View.ld_unit_zero (S := S2048x512) zero2, View.ld_unit_zero (S := S1x512) zero2]
      exact (rowsX_own m c t p q hq).symm)
  rw [h0] at key
  exact key

/-- The same for the hidden-path buffer. -/
theorem read_all_H (c : Dev nD) (t : Fin cfg0.N) (h0 : t.val % 16 = 15) (xs1 : Vec F S128x8192 .f32)
    (hag : AgreeBelow (t.val % 16) xs1 (rowsH m c t.val)) :
    View.readAt (Elt F) sc1.view (Rect.unit (s := S128x8192) ![0, 0] S128x8192.size inb_S128x8192_S128x8192_0_0).toLoadRect
      (sc1.view.writes (Elt F) ((Memref.isWhole_whole cc0_scratch1).unread xs1)
        (finalRun.sl.HS1_1 (F := F) c (grid0.coords t) (ms1 t) (hs1 t) (ms4 t) (hs4 t) (ms6 t) (hs6 t) (iblk m c 1 t) (iblk m c 4 t) (iblk m c 6 t)))
      = rowsH m c t.val := by
  rw [View.readAt_eq_ld, View.ld_unit_zero (S := S128x8192) zero2]
  refine Cert.GateRows.agreeBelow_all ?_
  unfold finalRun.sl.HS1_1
  have key := Cert.GateRows.agreeBelow_store (Val := Elt F) sc1.view ((Memref.isWhole_whole cc0_scratch1).unread xs1) (t.val % 16)
    (k0_off1_inb (grid0.coords t)) (off_at t)
    (k0_pay2 (View.readAt (Elt F) (ms1 t).view (Rect.unit (s := S128x2048) ![0, 0] S128x2048.size inb_S128x2048_S128x2048_0_0).toLoadRect ((hs1 t).unread (iblk m c 1 t)))
      (View.readAt (Elt F) (ms4 t).view (Rect.unit (s := S2048x512) ![0, 0] S2048x512.size inb_S2048x512_S2048x512_0_0).toLoadRect ((hs4 t).unread (iblk m c 4 t)))
      (View.readAt (Elt F) (ms6 t).view (Rect.unit (s := S1x512) ![0, 0] S1x512.size inb_S1x512_S1x512_0_0).toLoadRect ((hs6 t).unread (iblk m c 6 t))))
    (rowsH m c t.val)
    (by rw [(Memref.isWhole_whole cc0_scratch1).read_unread]; exact hag)
    (by
      intro p q hq
      simp only [View.readAt_eq_ld, (hs1 t).read_unread, (hs4 t).read_unread, (hs6 t).read_unread,
        View.ld_unit_zero (S := S128x2048) zero2, View.ld_unit_zero (S := S2048x512) zero2, View.ld_unit_zero (S := S1x512) zero2]
      exact (rowsH_own m c t p q hq).symm)
  rw [h0] at key
  exact key

/-- After the final run the hidden result buffer holds the proof data's hidden block, whatever it held before. -/
theorem final_hidden (c : Dev nD) (t : Fin cfg0.N) (h0 : t.val % 16 = 15) (xs0 xs1 : Vec F S128x8192 .f32)
    (hag0 : AgreeBelow (t.val % 16) xs0 (rowsX m c t.val)) (hag1 : AgreeBelow (t.val % 16) xs1 (rowsH m c t.val))
    (f : (ms13 t).view.ty.Contents (Elt F)) :
    (ms13 t).view.read (Elt F) ((ms13 t).view.writes (Elt F) f (finalRun (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) sc0 (Memref.isWhole_whole _) sc1 (Memref.isWhole_whole _) ((lastTile_iff t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) xs0 xs1).1) = hiddenBlk m c t := by
  unfold finalRun finalRun.sl.r_4 finalRun.sl.r_5 finalRun.sl.r finalRun.sl.r_1 finalRun.sl.r_2 finalRun.sl.cst_30
  dsimp only
  rw [Cert.GateRows.read_store_all (ms13 t).view f rfl]
  rw [read_all_X m c t h0 xs0 hag0, read_all_H m c t h0 xs1 hag1]
  simp only [View.readAt_eq_ld, (hs0 t).read_unread, (hs1 t).read_unread, (hs2 t).read_unread, (hs3 t).read_unread, (hs4 t).read_unread, (hs5 t).read_unread, (hs6 t).read_unread, (hs7 t).read_unread, (hs8 t).read_unread, (hs9 t).read_unread, (hs10 t).read_unread, (hs11 t).read_unread, (hs12 t).read_unread,
    View.ld_unit_zero (S := S128x2048) zero2, View.ld_unit_zero (S := S1x8192) zero2, View.ld_unit_zero (S := S1x2048) zero2]
  rfl

/-- And the cell result buffer the proof data's cell block. -/
theorem final_cell (c : Dev nD) (t : Fin cfg0.N) (h0 : t.val % 16 = 15) (xs0 xs1 : Vec F S128x8192 .f32)
    (hag0 : AgreeBelow (t.val % 16) xs0 (rowsX m c t.val)) (hag1 : AgreeBelow (t.val % 16) xs1 (rowsH m c t.val))
    (f : (ms14 t).view.ty.Contents (Elt F)) :
    (ms14 t).view.read (Elt F) ((ms14 t).view.writes (Elt F) f (finalRun (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) sc0 (Memref.isWhole_whole _) sc1 (Memref.isWhole_whole _) ((lastTile_iff t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) xs0 xs1).2.1) = cellBlk m c t := by
  unfold finalRun finalRun.sl.r_3 finalRun.sl.r_1 finalRun.sl.r_2 finalRun.sl.cst_30
  dsimp only
  rw [Cert.GateRows.read_store_all (ms14 t).view f rfl]
  rw [read_all_X m c t h0 xs0 hag0, read_all_H m c t h0 xs1 hag1]
  simp only [View.readAt_eq_ld, (hs0 t).read_unread, (hs1 t).read_unread, (hs2 t).read_unread, (hs3 t).read_unread, (hs4 t).read_unread, (hs5 t).read_unread, (hs6 t).read_unread, (hs7 t).read_unread, (hs8 t).read_unread, (hs9 t).read_unread, (hs10 t).read_unread, (hs11 t).read_unread, (hs12 t).read_unread,
    View.ld_unit_zero (S := S128x2048) zero2, View.ld_unit_zero (S := S1x8192) zero2, View.ld_unit_zero (S := S1x2048) zero2]
  rfl

end Cert.KernelIdeal.Body

end
-- ==== Proof.IdealBody.lean ====
/-
  The body obligation of the cell's region, and the region's run.

  At every point the body is handed the invariant, each input buffer at its block and the two result buffers.  Away
  from the last column tile of a batch tile it stores one tile into each carried buffer, which extends the agreement with
  the batch tile's assembled gate rows by one tile, and hands the idle result buffers back untouched.  At the last
  column tile the store completes the agreement: the carried buffers ARE the assembled gate rows, the two result buffers
  end at the two blocks the proof data name, and the next point starts a new batch tile, where nothing is stored yet.
  The launch's invariant gives the first point's and the last point's gives it back, so the region runs: every weakly
  fair execution terminates with each array at what the proof data compute and every other buffer as it was.
-/
import proofs.«178478_j42855183680049_2_alg».proof.Proof.IdealFinish

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.GateRows (AgreeBelow)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d))
    ∗ (∃ d, owns (c : Thread nD τ) (ms14 t) fullShare ((dats m 0 c).before 14 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t)

set_option maxHeartbeats 6400000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12]
  rw [show (dats m 0 c).owesAt () t.succ = (dats m 0 c).owesAt () t.castSucc from rfl]
  rw [show (dats m 0 c).Φ t.castSucc = Inv m c t.val from rfl, show (dats m 0 c).Φ t.succ = Inv m c (t.val + 1) from rfl]
  have hN : t.val < 512 := lt_of_lt_of_eq t.isLt (show cfg0.N = 512 from N_0)
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4 t], after4]
  rw [show (dats m 0 c).leavesExact 5 t = owns (c : Thread nD τ) (ms5 t) fullShare ((dats m 0 c).after 5 t) from by
    unfold Dat.leavesExact; rw [live5 t], after5]
  rw [show (dats m 0 c).leavesExact 6 t = owns (c : Thread nD τ) (ms6 t) fullShare ((dats m 0 c).after 6 t) from by
    unfold Dat.leavesExact; rw [live6 t], after6]
  rw [show (dats m 0 c).leavesExact 7 t = owns (c : Thread nD τ) (ms7 t) fullShare ((dats m 0 c).after 7 t) from by
    unfold Dat.leavesExact; rw [live7 t], after7]
  rw [show (dats m 0 c).leavesExact 8 t = owns (c : Thread nD τ) (ms8 t) fullShare ((dats m 0 c).after 8 t) from by
    unfold Dat.leavesExact; rw [live8 t], after8]
  rw [show (dats m 0 c).leavesExact 9 t = owns (c : Thread nD τ) (ms9 t) fullShare ((dats m 0 c).after 9 t) from by
    unfold Dat.leavesExact; rw [live9 t], after9]
  rw [show (dats m 0 c).leavesExact 10 t = owns (c : Thread nD τ) (ms10 t) fullShare ((dats m 0 c).after 10 t) from by
    unfold Dat.leavesExact; rw [live10 t], after10]
  rw [show (dats m 0 c).leavesExact 11 t = owns (c : Thread nD τ) (ms11 t) fullShare ((dats m 0 c).after 11 t) from by
    unfold Dat.leavesExact; rw [live11 t], after11]
  rw [show (dats m 0 c).leavesExact 12 t = owns (c : Thread nD τ) (ms12 t) fullShare ((dats m 0 c).after 12 t) from by
    unfold Dat.leavesExact; rw [live12 t], after12]
  by_cases h0 : t.val % 16 = 15
  · have hc : lastTile (grid0.coords t) := (lastTile_iff t).mpr h0
    rw [show (dats m 0 c).leavesExact 13 t = owns (c : Thread nD τ) (ms13 t) fullShare ((dats m 0 c).after 13 t) from by
      unfold Dat.leavesExact; rw [live13 t hc], after13]
    rw [show (dats m 0 c).leavesExact 14 t = owns (c : Thread nD τ) (ms14 t) fullShare ((dats m 0 c).after 14 t) from by
      unfold Dat.leavesExact; rw [live14 t hc], after14]
    unfold Inv
    iintro ⟨⟨⟨⟨%xs0, HS0, %hag0⟩, ⟨%xs1, HS1, %hag1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply ((finalRun c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) sc0 (Memref.isWhole_whole _) sc1 (Memref.isWhole_whole _) hc (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) xs0 xs1).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [H14]; · iexists _; iexact H14
    isplitl [HS0]; · iexact HS0
    isplitl [HS1]; · iexact HS1
    iintro ⟨H0, H1, H2, H3, H4, H5, H6, H7, H8, H9, H10, H11, H12, ⟨%f13, H13⟩, ⟨%f14, H14⟩, HS0, HS1⟩
    isplitl [HS0 HS1 Hg]
    · isplitl [HS0 HS1]
      · isplitl [HS0]
        · iexists _; isplitl [HS0]
          · unfold owns; iexists _; isplitr; swap; · iexact HS0
            ipureintro; rfl
          · ipureintro; rw [show (t.val + 1) % 16 = 0 from by omega]; exact Cert.GateRows.agreeBelow_zero _ _
        · iexists _; isplitl [HS1]
          · unfold owns; iexists _; isplitr; swap; · iexact HS1
            ipureintro; rfl
          · ipureintro; rw [show (t.val + 1) % 16 = 0 from by omega]; exact Cert.GateRows.agreeBelow_zero _ _
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]
    · unfold owns; iexists _; isplitr; swap; · iexact H13
      ipureintro; exact final_hidden m c t h0 xs0 xs1 hag0 hag1 f13
    · unfold owns; iexists _; isplitr; swap; · iexact H14
      ipureintro; exact final_cell m c t h0 xs0 xs1 hag0 hag1 f14
  · have hc : ¬lastTile (grid0.coords t) := fun h => h0 ((lastTile_iff t).mp h)
    rw [Dat.leavesExact_idle (dats m 0 c) 13 t (idle13 t hc) (noFlush13 t hc),
      Dat.leavesExact_idle (dats m 0 c) 14 t (idle14 t hc) (noFlush14 t hc)]
    unfold Inv
    iintro ⟨⟨⟨⟨%xs0, HS0, %hag0⟩, ⟨%xs1, HS1, %hag1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply ((tileRun c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) sc0 (Memref.isWhole_whole _) sc1 (Memref.isWhole_whole _) (fun h => h0 ((lastTile_iff t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)).2.2 _ _ xs0 xs1 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [HS0]; · iexact HS0
    isplitl [HS1]; · iexact HS1
    iintro ⟨H0, H1, H2, H3, H4, H5, H6, H7, H8, H9, H10, H11, H12, H13, H14, HS0, HS1⟩
    isplitl [HS0 HS1 Hg]
    · isplitl [HS0 HS1]
      · isplitl [HS0]
        · iexists _; isplitl [HS0]
          · unfold owns; iexists _; isplitr; swap; · iexact HS0
            ipureintro; rfl
          · ipureintro; exact tile_step_X m c t h0 xs0 hag0
        · iexists _; isplitl [HS1]
          · unfold owns; iexists _; isplitr; swap; · iexact HS1
            ipureintro; rfl
          · ipureintro; exact tile_step_H m c t h0 xs1 hag1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    iexists _; iexact H14

/-- The library's body obligation, at every point. -/
theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- The region's run: every weakly fair execution of @main terminates with every array of the region at what the
    proof data compute (an input as launched, a result overwritten block by block by what the body left at each
    write-back) and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- So the thirteen argument arrays end as they were launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ (dats m) (A_eq m) (run_main m ρ)

end Cert.KernelIdeal.Body

end
-- ==== Proof.Spec.lean ====
/-
  The layer-normalised LSTM cell as one function of its thirteen argument arrays, index by index, on the
  extended reals.

  For a batch row r the input path is a(j) = (Σ_k x(r,k) · W_ih(k,j)) + b_ih(j) over the 8192 gate columns j, and
  the hidden path b(j) = (Σ_k h(r,k) · W_hh(k,j)) + b_hh(j).  A row v of length n is normalised with divisor d as
      lnorm d v g β j = (v j − μ) · rsqrt(σ² + ε) · g j + β j,   μ = (Σ v) / d,   σ² = (Σ (v − μ)²) / d.
  The gate pre-activations are lnorm of the input path plus the hidden path; the four gate blocks are the columns
  [0, 2048), [2048, 4096), [4096, 6144), [6144, 8192): input, forget, candidate, output.  The new cell row is
  σ(f) · c_prev + σ(i) · tanh(g), normalised to give c_t; the hidden row σ(o) · tanh(c_t) is normalised to give h_t.
  Everything after the two dense layers acts on one batch row at a time, so it is stated per row first.
  Nothing here needs a finite entry: every step is the same operation in both programs.
-/
import Idealize.ShloMosaic.PureOps.Ideal
import Idealize.ShloMosaic.Lib.ValueIdx

noncomputable section

open scoped BigOperators

namespace Cert.LnLstm

open Idealize.ShloMosaic Idealize.ShloMosaic.ValueIdx

/-- The stabiliser added to a variance: the f32 word nearest 1e-5, the same word in both programs. -/
def eps : EReal := Ideal.ofBits .f32 0x3727C5AC#32
/-- The gate row's length as a float, 8192.0. -/
def n8192 : EReal := Ideal.ofBits .f32 0x46000000#32
/-- The hidden row's length as a float, 2048.0. -/
def n2048 : EReal := Ideal.ofBits .f32 0x45000000#32

/-- The mean of a row with divisor `d`. -/
def mean {n : ℕ} (d : EReal) (v : Fin n → EReal) : EReal := Ideal.div (∑ j, v j) d

/-- A row normalised to zero mean and unit variance (up to `eps`), then scaled by `g` and shifted by `β`. -/
def lnorm {n : ℕ} (d : EReal) (v g β : Fin n → EReal) (j : Fin n) : EReal :=
  (v j - mean d v) * Ideal.rsqrt (mean d (fun k => (v k - mean d v) * (v k - mean d v)) + eps) * g j + β j

/-- Column `o + q` of a gate row, for the gate block starting at column `o`. -/
def col (o : ℕ) (ho : o + 2048 ≤ 8192) (q : Fin 2048) : Fin 8192 := ⟨o + q.val, by have := q.isLt; omega⟩

/-! ## One batch row -/

/-- The gate pre-activations of a row: the input path `a` normalised (scale `g`, shift `β`) plus the hidden path `b`. -/
def rowGates (a b g β : Fin 8192 → EReal) (j : Fin 8192) : EReal := lnorm n8192 a g β j + b j

/-- The cell row before normalisation, from the gate row `G` and the old cell row `cp`: forget gate times the old cell
    plus input gate times the candidate. -/
def rowCellRaw (G : Fin 8192 → EReal) (cp : Fin 2048 → EReal) (q : Fin 2048) : EReal :=
  Ideal.logistic (G (col 2048 (by decide) q)) * cp q
    + Ideal.logistic (G (col 0 (by decide) q)) * Ideal.tanh (G (col 4096 (by decide) q))

/-- The new cell row: the raw cell row normalised. -/
def rowCell (G : Fin 8192 → EReal) (cp gc βc : Fin 2048 → EReal) (q : Fin 2048) : EReal :=
  lnorm n2048 (rowCellRaw G cp) gc βc q

/-- The hidden row before normalisation: output gate times tanh of the new cell row. -/
def rowHiddenRaw (G : Fin 8192 → EReal) (cp gc βc : Fin 2048 → EReal) (q : Fin 2048) : EReal :=
  Ideal.logistic (G (col 6144 (by decide) q)) * Ideal.tanh (rowCell G cp gc βc q)

/-- The new hidden row: the raw hidden row normalised. -/
def rowHidden (G : Fin 8192 → EReal) (cp gc βc gh βh : Fin 2048 → EReal) (q : Fin 2048) : EReal :=
  lnorm n2048 (rowHiddenRaw G cp gc βc) gh βh q

/-! ## The whole arrays -/

section

variable (X H C : (⟨2, ![4096, 2048]⟩ : Shape).Idx → EReal) (Wih Whh : (⟨2, ![2048, 8192]⟩ : Shape).Idx → EReal)
  (bih bhh gx betax : (⟨1, ![8192]⟩ : Shape).Idx → EReal) (gc betac gh betah : (⟨1, ![2048]⟩ : Shape).Idx → EReal)

/-- A dense layer's row: the contraction over the 2048 features plus the bias. -/
def dense (A : (⟨2, ![4096, 2048]⟩ : Shape).Idx → EReal) (W : (⟨2, ![2048, 8192]⟩ : Shape).Idx → EReal)
    (b : (⟨1, ![8192]⟩ : Shape).Idx → EReal) (r : Fin 4096) (j : Fin 8192) : EReal :=
  (∑ k : Fin 2048, A (ix2 r k) * W (ix2 k j)) + b (ix1 j)

/-- The gate pre-activations of batch row `r`. -/
def gates (r : Fin 4096) : Fin 8192 → EReal :=
  rowGates (dense X Wih bih r) (dense H Whh bhh r) (fun j => gx (ix1 j)) (fun j => betax (ix1 j))

/-- The new cell state as a [4096, 2048] array. -/
def cellArr : (⟨2, ![4096, 2048]⟩ : Shape).Idx → EReal := fun i =>
  rowCell (gates X H Wih Whh bih bhh gx betax (i 0)) (fun q => C (ix2 (i 0) q)) (fun q => gc (ix1 q))
    (fun q => betac (ix1 q)) (i 1)

/-- The new hidden state as a [4096, 2048] array. -/
def hiddenArr : (⟨2, ![4096, 2048]⟩ : Shape).Idx → EReal := fun i =>
  rowHidden (gates X H Wih Whh bih bhh gx betax (i 0)) (fun q => C (ix2 (i 0) q)) (fun q => gc (ix1 q))
    (fun q => betac (ix1 q)) (fun q => gh (ix1 q)) (fun q => betah (ix1 q)) (i 1)

end

end Cert.LnLstm

end
-- ==== Proof.KernelArraysHost.lean ====
/-
  The arrays the cell's windows stage, as the region finds them.

  Before the region the program converts the two activations and the two weight matrices to bf16 and views each of the
  eight vectors (two biases, three scales, three shifts) as a one-row matrix.  On the extended reals a conversion is the
  identity, and the one-row view of a vector reads at (0, j) the vector at j.  The old cell state is staged as it was
  launched.
-/
import proofs.«178478_j42855183680049_2_alg».proof.Proof.Gen.KernelIdeal.Frame
import Idealize.ShloMosaic.Lib.StableHlo.Run
import Idealize.ShloMosaic.Lib.ValueIdx
import Idealize.ShloMosaic.Lib.ValueLayout

noncomputable section

namespace Cert.KernelIdeal.Arrays

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ)

/-! ## The thirteen argument arrays on a core, as launched -/

abbrev aX (c : Dev nD) : S4096x2048.Idx → EReal := m ((c : Thread nD τ).loc main_arg0)
abbrev aH (c : Dev nD) : S4096x2048.Idx → EReal := m ((c : Thread nD τ).loc main_arg1)
abbrev aC (c : Dev nD) : S4096x2048.Idx → EReal := m ((c : Thread nD τ).loc main_arg2)
abbrev aWih (c : Dev nD) : S2048x8192.Idx → EReal := m ((c : Thread nD τ).loc main_arg3)
abbrev aWhh (c : Dev nD) : S2048x8192.Idx → EReal := m ((c : Thread nD τ).loc main_arg4)
abbrev aBih (c : Dev nD) : S8192.Idx → EReal := m ((c : Thread nD τ).loc main_arg5)
abbrev aBhh (c : Dev nD) : S8192.Idx → EReal := m ((c : Thread nD τ).loc main_arg6)
abbrev aGx (c : Dev nD) : S8192.Idx → EReal := m ((c : Thread nD τ).loc main_arg7)
abbrev aBetax (c : Dev nD) : S8192.Idx → EReal := m ((c : Thread nD τ).loc main_arg8)
abbrev aGc (c : Dev nD) : S2048.Idx → EReal := m ((c : Thread nD τ).loc main_arg9)
abbrev aBetac (c : Dev nD) : S2048.Idx → EReal := m ((c : Thread nD τ).loc main_arg10)
abbrev aGh (c : Dev nD) : S2048.Idx → EReal := m ((c : Thread nD τ).loc main_arg11)
abbrev aBetah (c : Dev nD) : S2048.Idx → EReal := m ((c : Thread nD τ).loc main_arg12)

/-! ## The converted matrices: the arguments themselves -/

theorem V_v0 (c : Dev nD) : (V m c main_call0_v0 : S4096x2048.Idx → EReal) = aX m c := by
  unfold V; after_results; rfl
theorem V_v1 (c : Dev nD) : (V m c main_call0_v1 : S4096x2048.Idx → EReal) = aH m c := by
  unfold V; after_results; rfl
theorem V_c (c : Dev nD) : (V m c main_arg2 : S4096x2048.Idx → EReal) = aC m c := V_main_arg2 m c
theorem V_v2 (c : Dev nD) : (V m c main_call0_v2 : S2048x8192.Idx → EReal) = aWih m c := by
  unfold V; after_results; rfl
theorem V_v3 (c : Dev nD) : (V m c main_call0_v3 : S2048x8192.Idx → EReal) = aWhh m c := by
  unfold V; after_results; rfl

/-! ## The vectors viewed as one-row matrices -/

theorem V_v4 (c : Dev nD) (j : Fin 8192) : (V m c main_call0_v4 : S1x8192.Idx → EReal) (ix2 0 j) = aBih m c (ix1 j) := by
  unfold V; after_results; exact shapeCast_a_1a_apply _ _ 0 j
theorem V_v5 (c : Dev nD) (j : Fin 8192) : (V m c main_call0_v5 : S1x8192.Idx → EReal) (ix2 0 j) = aBhh m c (ix1 j) := by
  unfold V; after_results; exact shapeCast_a_1a_apply _ _ 0 j
theorem V_v6 (c : Dev nD) (j : Fin 8192) : (V m c main_call0_v6 : S1x8192.Idx → EReal) (ix2 0 j) = aGx m c (ix1 j) := by
  unfold V; after_results; exact shapeCast_a_1a_apply _ _ 0 j
theorem V_v7 (c : Dev nD) (j : Fin 8192) : (V m c main_call0_v7 : S1x8192.Idx → EReal) (ix2 0 j) = aBetax m c (ix1 j) := by
  unfold V; after_results; exact shapeCast_a_1a_apply _ _ 0 j
theorem V_v8 (c : Dev nD) (j : Fin 2048) : (V m c main_call0_v8 : S1x2048.Idx → EReal) (ix2 0 j) = aGc m c (ix1 j) := by
  unfold V; after_results; exact shapeCast_a_1a_apply _ _ 0 j
theorem V_v9 (c : Dev nD) (j : Fin 2048) : (V m c main_call0_v9 : S1x2048.Idx → EReal) (ix2 0 j) = aBetac m c (ix1 j) := by
  unfold V; after_results; exact shapeCast_a_1a_apply _ _ 0 j
theorem V_v10 (c : Dev nD) (j : Fin 2048) : (V m c main_call0_v10 : S1x2048.Idx → EReal) (ix2 0 j) = aGh m c (ix1 j) := by
  unfold V; after_results; exact shapeCast_a_1a_apply _ _ 0 j
theorem V_v11 (c : Dev nD) (j : Fin 2048) : (V m c main_call0_v11 : S1x2048.Idx → EReal) (ix2 0 j) = aBetah m c (ix1 j) := by
  unfold V; after_results; exact shapeCast_a_1a_apply _ _ 0 j

end Cert.KernelIdeal.Arrays

end
-- ==== Proof.KernelArraysBlocks.lean ====
/-
  The windows' blocks at a grid point, read at an index.

  The grid has 32 batch tiles of 128 rows and, within each, 16 column tiles of 512 gate columns; point t is column
  tile t mod 16 of batch tile t / 16.  The activations' and the cell state's blocks are the 128 rows of the batch tile,
  whole; the weights' blocks are the 512 columns of the column tile, whole; the biases' blocks are those 512 columns of
  the one-row view; the scale and shift rows are staged whole.  So a block read at an inner index is the argument array at
  the global index: row 128·(t / 16) + p, column 512·(t mod 16) + q.
-/
import proofs.«178478_j42855183680049_2_alg».proof.Proof.KernelArraysHost
import Idealize.ShloMosaic.Lib.Pipeline.Value

set_option maxRecDepth 16384

noncomputable section

namespace Cert.KernelIdeal.Arrays

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ)

/-- The global row of inner row `p` at point `t`: row p of batch tile t / 16. -/
def rowOf (t : Fin cfg0.N) (p : Fin 128) : Fin 4096 :=
  ⟨128 * (t.val / 16) + p.val, by have h := t.isLt; have hN : cfg0.N = 512 := N_0; have := p.isLt; omega⟩

/-- The global gate column of inner column `q` at point `t`: column q of column tile t mod 16. -/
def colOf (t : Fin cfg0.N) (q : Fin 512) : Fin 8192 :=
  ⟨512 * (t.val % 16) + q.val, by have := q.isLt; omega⟩

/-! ## The index maps over the grid -/

theorem idx0 : ∀ t : Fin cfg0.N, win0_0.index t 0 = t.val / 16 ∧ win0_0.index t 1 = 0 :=
  (by decide +kernel : ∀ t : Fin grid0.N, win0_0.index t 0 = t.val / 16 ∧ win0_0.index t 1 = 0)
theorem idx1 : ∀ t : Fin cfg0.N, win0_1.index t 0 = t.val / 16 ∧ win0_1.index t 1 = 0 :=
  (by decide +kernel : ∀ t : Fin grid0.N, win0_1.index t 0 = t.val / 16 ∧ win0_1.index t 1 = 0)
theorem idx2 : ∀ t : Fin cfg0.N, win0_2.index t 0 = t.val / 16 ∧ win0_2.index t 1 = 0 :=
  (by decide +kernel : ∀ t : Fin grid0.N, win0_2.index t 0 = t.val / 16 ∧ win0_2.index t 1 = 0)
theorem idx13 : ∀ t : Fin cfg0.N, win0_13.index t 0 = t.val / 16 ∧ win0_13.index t 1 = 0 :=
  (by decide +kernel : ∀ t : Fin grid0.N, win0_13.index t 0 = t.val / 16 ∧ win0_13.index t 1 = 0)
theorem idx14 : ∀ t : Fin cfg0.N, win0_14.index t 0 = t.val / 16 ∧ win0_14.index t 1 = 0 :=
  (by decide +kernel : ∀ t : Fin grid0.N, win0_14.index t 0 = t.val / 16 ∧ win0_14.index t 1 = 0)
theorem idx3 : ∀ t : Fin cfg0.N, win0_3.index t 0 = 0 ∧ win0_3.index t 1 = t.val % 16 :=
  (by decide +kernel : ∀ t : Fin grid0.N, win0_3.index t 0 = 0 ∧ win0_3.index t 1 = t.val % 16)
theorem idx4 : ∀ t : Fin cfg0.N, win0_4.index t 0 = 0 ∧ win0_4.index t 1 = t.val % 16 :=
  (by decide +kernel : ∀ t : Fin grid0.N, win0_4.index t 0 = 0 ∧ win0_4.index t 1 = t.val % 16)
theorem idx5 : ∀ t : Fin cfg0.N, win0_5.index t 0 = 0 ∧ win0_5.index t 1 = t.val % 16 :=
  (by decide +kernel : ∀ t : Fin grid0.N, win0_5.index t 0 = 0 ∧ win0_5.index t 1 = t.val % 16)
theorem idx6 : ∀ t : Fin cfg0.N, win0_6.index t 0 = 0 ∧ win0_6.index t 1 = t.val % 16 :=
  (by decide +kernel : ∀ t : Fin grid0.N, win0_6.index t 0 = 0 ∧ win0_6.index t 1 = t.val % 16)
theorem idx7 : ∀ t : Fin cfg0.N, win0_7.index t 0 = 0 ∧ win0_7.index t 1 = 0 :=
  (by decide +kernel : ∀ t : Fin grid0.N, win0_7.index t 0 = 0 ∧ win0_7.index t 1 = 0)
theorem idx8 : ∀ t : Fin cfg0.N, win0_8.index t 0 = 0 ∧ win0_8.index t 1 = 0 :=
  (by decide +kernel : ∀ t : Fin grid0.N, win0_8.index t 0 = 0 ∧ win0_8.index t 1 = 0)
theorem idx9 : ∀ t : Fin cfg0.N, win0_9.index t 0 = 0 ∧ win0_9.index t 1 = 0 :=
  (by decide +kernel : ∀ t : Fin grid0.N, win0_9.index t 0 = 0 ∧ win0_9.index t 1 = 0)
theorem idx10 : ∀ t : Fin cfg0.N, win0_10.index t 0 = 0 ∧ win0_10.index t 1 = 0 :=
  (by decide +kernel : ∀ t : Fin grid0.N, win0_10.index t 0 = 0 ∧ win0_10.index t 1 = 0)
theorem idx11 : ∀ t : Fin cfg0.N, win0_11.index t 0 = 0 ∧ win0_11.index t 1 = 0 :=
  (by decide +kernel : ∀ t : Fin grid0.N, win0_11.index t 0 = 0 ∧ win0_11.index t 1 = 0)
theorem idx12 : ∀ t : Fin cfg0.N, win0_12.index t 0 = 0 ∧ win0_12.index t 1 = 0 :=
  (by decide +kernel : ∀ t : Fin grid0.N, win0_12.index t 0 = 0 ∧ win0_12.index t 1 = 0)

/-! ## The blocks -/

theorem iblk0_apply (c : Dev nD) (t : Fin cfg0.N) (p : Fin 128) (k : Fin 2048) :
    (iblk m c 0 t : Vec Ideal S128x2048 .bf16) (ix2 p k) = aX m c (ix2 (rowOf t p) k) := by
  unfold iblk
  rw [View.read_apply]
  show (V m c main_call0_v0 : S4096x2048.Idx → EReal) _ = _
  rw [V_v0]
  refine congrArg (aX m c) (funext fun a => Fin.ext ?_)
  match a with
  | ⟨0, _⟩ => show win0_0.index t 0 * 128 + 1 * p.val = 128 * (t.val / 16) + p.val; rw [(idx0 t).1]; omega
  | ⟨1, _⟩ => show win0_0.index t 1 * 2048 + 1 * k.val = k.val; rw [(idx0 t).2]; omega

theorem iblk1_apply (c : Dev nD) (t : Fin cfg0.N) (p : Fin 128) (k : Fin 2048) :
    (iblk m c 1 t : Vec Ideal S128x2048 .bf16) (ix2 p k) = aH m c (ix2 (rowOf t p) k) := by
  unfold iblk
  rw [View.read_apply]
  show (V m c main_call0_v1 : S4096x2048.Idx → EReal) _ = _
  rw [V_v1]
  refine congrArg (aH m c) (funext fun a => Fin.ext ?_)
  match a with
  | ⟨0, _⟩ => show win0_1.index t 0 * 128 + 1 * p.val = 128 * (t.val / 16) + p.val; rw [(idx1 t).1]; omega
  | ⟨1, _⟩ => show win0_1.index t 1 * 2048 + 1 * k.val = k.val; rw [(idx1 t).2]; omega

theorem iblk2_apply (c : Dev nD) (t : Fin cfg0.N) (p : Fin 128) (k : Fin 2048) :
    (iblk m c 2 t : Vec Ideal S128x2048 .f32) (ix2 p k) = aC m c (ix2 (rowOf t p) k) := by
  unfold iblk
  rw [View.read_apply]
  show (V m c main_arg2 : S4096x2048.Idx → EReal) _ = _
  rw [V_c]
  refine congrArg (aC m c) (funext fun a => Fin.ext ?_)
  match a with
  | ⟨0, _⟩ => show win0_2.index t 0 * 128 + 1 * p.val = 128 * (t.val / 16) + p.val; rw [(idx2 t).1]; omega
  | ⟨1, _⟩ => show win0_2.index t 1 * 2048 + 1 * k.val = k.val; rw [(idx2 t).2]; omega

theorem iblk3_apply (c : Dev nD) (t : Fin cfg0.N) (k : Fin 2048) (q : Fin 512) :
    (iblk m c 3 t : Vec Ideal S2048x512 .bf16) (ix2 k q) = aWih m c (ix2 k (colOf t q)) := by
  unfold iblk
  rw [View.read_apply]
  show (V m c main_call0_v2 : S2048x8192.Idx → EReal) _ = _
  rw [V_v2]
  refine congrArg (aWih m c) (funext fun a => Fin.ext ?_)
  match a with
  | ⟨0, _⟩ => show win0_3.index t 0 * 2048 + 1 * k.val = k.val; rw [(idx3 t).1]; omega
  | ⟨1, _⟩ => show win0_3.index t 1 * 512 + 1 * q.val = 512 * (t.val % 16) + q.val; rw [(idx3 t).2]; omega

theorem iblk4_apply (c : Dev nD) (t : Fin cfg0.N) (k : Fin 2048) (q : Fin 512) :
    (iblk m c 4 t : Vec Ideal S2048x512 .bf16) (ix2 k q) = aWhh m c (ix2 k (colOf t q)) := by
  unfold iblk
  rw [View.read_apply]
  show (V m c main_call0_v3 : S2048x8192.Idx → EReal) _ = _
  rw [V_v3]
  refine congrArg (aWhh m c) (funext fun a => Fin.ext ?_)
  match a with
  | ⟨0, _⟩ => show win0_4.index t 0 * 2048 + 1 * k.val = k.val; rw [(idx4 t).1]; omega
  | ⟨1, _⟩ => show win0_4.index t 1 * 512 + 1 * q.val = 512 * (t.val % 16) + q.val; rw [(idx4 t).2]; omega

theorem iblk5_apply (c : Dev nD) (t : Fin cfg0.N) (q : Fin 512) :
    (iblk m c 5 t : Vec Ideal S1x512 .f32) (ix2 0 q) = aBih m c (ix1 (colOf t q)) := by
  unfold iblk
  rw [View.read_apply]
  show (V m c main_call0_v4 : S1x8192.Idx → EReal) _ = _
  refine (congrArg (V m c main_call0_v4 : S1x8192.Idx → EReal) (funext fun a => Fin.ext ?_)).trans (V_v4 m c (colOf t q))
  match a with
  | ⟨0, _⟩ => show win0_5.index t 0 * 1 + 1 * 0 = 0; rw [(idx5 t).1]
  | ⟨1, _⟩ => show win0_5.index t 1 * 512 + 1 * q.val = 512 * (t.val % 16) + q.val; rw [(idx5 t).2]; omega

theorem iblk6_apply (c : Dev nD) (t : Fin cfg0.N) (q : Fin 512) :
    (iblk m c 6 t : Vec Ideal S1x512 .f32) (ix2 0 q) = aBhh m c (ix1 (colOf t q)) := by
  unfold iblk
  rw [View.read_apply]
  show (V m c main_call0_v5 : S1x8192.Idx → EReal) _ = _
  refine (congrArg (V m c main_call0_v5 : S1x8192.Idx → EReal) (funext fun a => Fin.ext ?_)).trans (V_v5 m c (colOf t q))
  match a with
  | ⟨0, _⟩ => show win0_6.index t 0 * 1 + 1 * 0 = 0; rw [(idx6 t).1]
  | ⟨1, _⟩ => show win0_6.index t 1 * 512 + 1 * q.val = 512 * (t.val % 16) + q.val; rw [(idx6 t).2]; omega

theorem iblk7_apply (c : Dev nD) (t : Fin cfg0.N) (j : Fin 8192) :
    (iblk m c 7 t : Vec Ideal S1x8192 .f32) (ix2 0 j) = aGx m c (ix1 j) := by
  unfold iblk
  rw [View.read_apply]
  show (V m c main_call0_v6 : S1x8192.Idx → EReal) _ = _
  refine (congrArg (V m c main_call0_v6 : S1x8192.Idx → EReal) (funext fun a => Fin.ext ?_)).trans (V_v6 m c j)
  match a with
  | ⟨0, _⟩ => show win0_7.index t 0 * 1 + 1 * 0 = 0; rw [(idx7 t).1]
  | ⟨1, _⟩ => show win0_7.index t 1 * 8192 + 1 * j.val = j.val; rw [(idx7 t).2]; omega

theorem iblk8_apply (c : Dev nD) (t : Fin cfg0.N) (j : Fin 8192) :
    (iblk m c 8 t : Vec Ideal S1x8192 .f32) (ix2 0 j) = aBetax m c (ix1 j) := by
  unfold iblk
  rw [View.read_apply]
  show (V m c main_call0_v7 : S1x8192.Idx → EReal) _ = _
  refine (congrArg (V m c main_call0_v7 : S1x8192.Idx → EReal) (funext fun a => Fin.ext ?_)).trans (V_v7 m c j)
  match a with
  | ⟨0, _⟩ => show win0_8.index t 0 * 1 + 1 * 0 = 0; rw [(idx8 t).1]
  | ⟨1, _⟩ => show win0_8.index t 1 * 8192 + 1 * j.val = j.val; rw [(idx8 t).2]; omega

theorem iblk9_apply (c : Dev nD) (t : Fin cfg0.N) (j : Fin 2048) :
    (iblk m c 9 t : Vec Ideal S1x2048 .f32) (ix2 0 j) = aGc m c (ix1 j) := by
  unfold iblk
  rw [View.read_apply]
  show (V m c main_call0_v8 : S1x2048.Idx → EReal) _ = _
  refine (congrArg (V m c main_call0_v8 : S1x2048.Idx → EReal) (funext fun a => Fin.ext ?_)).trans (V_v8 m c j)
  match a with
  | ⟨0, _⟩ => show win0_9.index t 0 * 1 + 1 * 0 = 0; rw [(idx9 t).1]
  | ⟨1, _⟩ => show win0_9.index t 1 * 2048 + 1 * j.val = j.val; rw [(idx9 t).2]; omega

theorem iblk10_apply (c : Dev nD) (t : Fin cfg0.N) (j : Fin 2048) :
    (iblk m c 10 t : Vec Ideal S1x2048 .f32) (ix2 0 j) = aBetac m c (ix1 j) := by
  unfold iblk
  rw [View.read_apply]
  show (V m c main_call0_v9 : S1x2048.Idx → EReal) _ = _
  refine (congrArg (V m c main_call0_v9 : S1x2048.Idx → EReal) (funext fun a => Fin.ext ?_)).trans (V_v9 m c j)
  match a with
  | ⟨0, _⟩ => show win0_10.index t 0 * 1 + 1 * 0 = 0; rw [(idx10 t).1]
  | ⟨1, _⟩ => show win0_10.index t 1 * 2048 + 1 * j.val = j.val; rw [(idx10 t).2]; omega

theorem iblk11_apply (c : Dev nD) (t : Fin cfg0.N) (j : Fin 2048) :
    (iblk m c 11 t : Vec Ideal S1x2048 .f32) (ix2 0 j) = aGh m c (ix1 j) := by
  unfold iblk
  rw [View.read_apply]
  show (V m c main_call0_v10 : S1x2048.Idx → EReal) _ = _
  refine (congrArg (V m c main_call0_v10 : S1x2048.Idx → EReal) (funext fun a => Fin.ext ?_)).trans (V_v10 m c j)
  match a with
  | ⟨0, _⟩ => show win0_11.index t 0 * 1 + 1 * 0 = 0; rw [(idx11 t).1]
  | ⟨1, _⟩ => show win0_11.index t 1 * 2048 + 1 * j.val = j.val; rw [(idx11 t).2]; omega

theorem iblk12_apply (c : Dev nD) (t : Fin cfg0.N) (j : Fin 2048) :
    (iblk m c 12 t : Vec Ideal S1x2048 .f32) (ix2 0 j) = aBetah m c (ix1 j) := by
  unfold iblk
  rw [View.read_apply]
  show (V m c main_call0_v11 : S1x2048.Idx → EReal) _ = _
  refine (congrArg (V m c main_call0_v11 : S1x2048.Idx → EReal) (funext fun a => Fin.ext ?_)).trans (V_v11 m c j)
  match a with
  | ⟨0, _⟩ => show win0_12.index t 0 * 1 + 1 * 0 = 0; rw [(idx12 t).1]
  | ⟨1, _⟩ => show win0_12.index t 1 * 2048 + 1 * j.val = j.val; rw [(idx12 t).2]; omega

end Cert.KernelIdeal.Arrays

end
-- ==== Proof.KernelMathDense.lean ====
/-
  The two dense layers' column tiles, read at an index.

  Each grid point multiplies a [128, 2048] block of activations by a [2048, 512] block of weights into a zero
  accumulator and adds a [1, 512] bias row to every one of the 128 rows.  On the extended reals the product at (p, q)
  is the sum over the 2048 features k of A(p, k) · B(k, q): the contraction index of the product has one axis, of
  extent 2048, and the operand indices at that index are (p, k) and (k, q).
-/
import proofs.«178478_j42855183680049_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Math

open Idealize.ShloMosaic Idealize.ShloMosaic.ValueIdx Cert.KernelIdeal Cert.KernelIdeal.Gen

/-- The left operand's index at output (p, q) and feature k is (p, k). -/
theorem tile_lhsIdx (p : Fin 128) (q : Fin 512) (k : Fin 2048) :
    dot_S128x2048_S2048x512_S128x512_1_0_0_1_n_n.lhsIdx (ix2 p q) ((contrEquiv1 dot_S128x2048_S2048x512_S128x512_1_0_0_1_n_n 2048 rfl rfl).symm k) = ix2 p k :=
  funext fun ax => Fin.ext (by
    match ax with
    | ⟨0, _⟩ => rfl
    | ⟨1, _⟩ =>
      exact (DotDims.lhsIdx_val_of_single dot_S128x2048_S2048x512_S128x512_1_0_0_1_n_n (cl := (1 : Fin 2)) rfl (ix2 p q) _).trans
        (contrEquiv1_symm_val dot_S128x2048_S2048x512_S128x512_1_0_0_1_n_n 2048 rfl rfl k))

/-- The right operand's index at output (p, q) and feature k is (k, q). -/
theorem tile_rhsIdx (p : Fin 128) (q : Fin 512) (k : Fin 2048) :
    dot_S128x2048_S2048x512_S128x512_1_0_0_1_n_n.rhsIdx (ix2 p q) ((contrEquiv1 dot_S128x2048_S2048x512_S128x512_1_0_0_1_n_n 2048 rfl rfl).symm k) = ix2 k q :=
  funext fun ax => Fin.ext (by
    match ax with
    | ⟨0, _⟩ =>
      exact (DotDims.rhsIdx_val_of_single dot_S128x2048_S2048x512_S128x512_1_0_0_1_n_n (cr := (0 : Fin 2)) rfl (ix2 p q) _).trans
        (contrEquiv1_symm_val dot_S128x2048_S2048x512_S128x512_1_0_0_1_n_n 2048 rfl rfl k)
    | ⟨1, _⟩ => rfl)

/-- The product of a [128, 2048] block and a [2048, 512] block into the zero accumulator, at (p, q). -/
theorem tileMatmul_apply (A : FVec Ideal S128x2048 .bf16) (B : FVec Ideal S2048x512 .bf16) (p : Fin 128) (q : Fin 512) :
    matmul dot_S128x2048_S2048x512_S128x512_1_0_0_1_n_n none A B (constant (F := Ideal) S128x512 .f32 0x00000000#32) (ix2 p q)
      = ∑ k : Fin 2048, A (ix2 p k) * B (ix2 k q) := by
  refine (Ideal.matmul_constant_zero_apply dot_S128x2048_S2048x512_S128x512_1_0_0_1_n_n none A B (ix2 p q)).trans ?_
  rw [← Equiv.sum_comp (contrEquiv1 dot_S128x2048_S2048x512_S128x512_1_0_0_1_n_n 2048 rfl rfl).symm]
  refine Finset.sum_congr rfl fun k _ => ?_
  rw [tile_lhsIdx, tile_rhsIdx]

/-- The input path's tile at (p, q): the contraction over the features plus the bias. -/
theorem pay1_apply (v0 : Vec Ideal S128x2048 .bf16) (v2 : Vec Ideal S2048x512 .bf16) (v5 : Vec Ideal S1x512 .f32)
    (p : Fin 128) (q : Fin 512) :
    k0_pay1 v0 v2 v5 (ix2 p q) = (∑ k : Fin 2048, v0 (ix2 p k) * v2 (ix2 k q)) + v5 (ix2 0 q) := by
  unfold k0_pay1
  simp only [shapeCast_self]
  refine (addf_apply _ _ _).trans ?_
  rw [tileMatmul_apply, broadcastTo_1b_ab_apply]

/-- The hidden path's tile at (p, q): the same with the hidden path's blocks. -/
theorem pay2_apply (v9 : Vec Ideal S128x2048 .bf16) (v11 : Vec Ideal S2048x512 .bf16) (v14 : Vec Ideal S1x512 .f32)
    (p : Fin 128) (q : Fin 512) :
    k0_pay2 v9 v11 v14 (ix2 p q) = (∑ k : Fin 2048, v9 (ix2 p k) * v11 (ix2 k q)) + v14 (ix2 0 q) := by
  unfold k0_pay2
  simp only [shapeCast_self]
  refine (addf_apply _ _ _).trans ?_
  rw [tileMatmul_apply, broadcastTo_1b_ab_apply]

end Cert.KernelIdeal.Math

end
-- ==== Proof.KernelArraysTiles.lean ====
/-
  The dense tiles of a grid point are the dense layers at the point's rows and columns.

  The tile of point t at (p, q) contracts row 128·(t / 16) + p of the activations with column 512·(t mod 16) + q of the
  weights over the 2048 features and adds that column's bias: the dense layer's entry at the global row and column.
-/
import proofs.«178478_j42855183680049_2_alg».proof.Proof.KernelArraysBlocks
import proofs.«178478_j42855183680049_2_alg».proof.Proof.KernelMathDense
import proofs.«178478_j42855183680049_2_alg».proof.Proof.Spec

set_option maxRecDepth 16384

noncomputable section

open scoped BigOperators

namespace Cert.KernelIdeal.Arrays

open Cert.KernelIdeal Cert.KernelIdeal.Gen Cert.KernelIdeal.Math
open Idealize.ShloMosaic Idealize.ShloMosaic.TcCoe Idealize.ShloMosaic.ValueIdx Idealize.SL.Sem

variable (m : (ℓ : Loc nD τ sig) → Buf (Elt Ideal) ℓ)

/-- The input path's tile at point `t`, at (p, q). -/
theorem denseX_tile (c : Dev nD) (t : Fin cfg0.N) (p : Fin 128) (q : Fin 512) :
    k0_pay1 (iblk m c 0 t) (iblk m c 3 t) (iblk m c 5 t) (ix2 p q)
      = Cert.LnLstm.dense (aX m c) (aWih m c) (aBih m c) (rowOf t p) (colOf t q) := by
  refine (pay1_apply (iblk m c 0 t) (iblk m c 3 t) (iblk m c 5 t) p q).trans ?_
  unfold Cert.LnLstm.dense
  exact congrArg₂ (· + ·)
    (Finset.sum_congr rfl fun k _ => congrArg₂ (· * ·) (iblk0_apply m c t p k) (iblk3_apply m c t k q))
    (iblk5_apply m c t q)

/-- The hidden path's tile at point `t`, at (p, q). -/
theorem denseH_tile (c : Dev nD) (t : Fin cfg0.N) (p : Fin 128) (q : Fin 512) :
    k0_pay2 (iblk m c 1 t) (iblk m c 4 t) (iblk m c 6 t) (ix2 p q)
      = Cert.LnLstm.dense (aH m c) (aWhh m c) (aBhh m c) (rowOf t p) (colOf t q) := by
  refine (pay2_apply (iblk m c 1 t) (iblk m c 4 t) (iblk m c 6 t) p q).trans ?_
  unfold Cert.LnLstm.dense
  exact congrArg₂ (· + ·)
    (Finset.sum_congr rfl fun k _ => congrArg₂ (· * ·) (iblk1_apply m c t p k) (iblk4_apply m c t k q))
    (iblk6_apply m c t q)

end Cert.KernelIdeal.Arrays

end
-- ==== Proof.KernelMathLayout.lean ====
/-
  The layout steps of a row-wise normalisation, each read at an index.

  A sum over the columns of an [a, n] array is a vector of length a; it is kept as an [a, 1] column, divided and
  shifted there, and the column is then spread over the n columns again.  Three readings carry all of that:
  the column (i, 0) of a vector cast to [a, 1] is the vector's entry i; an [a, 1] column broadcast to [a, n] reads,
  at (p, c), the column's entry p; and the sum over axis 1 read at row p is the finite sum of the row's entries.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Math

open Idealize.ShloMosaic Idealize.ShloMosaic.ValueIdx

variable {α : Type}

/-- A vector of length `a` cast to an `[a, 1]` column reads, at `(i, u)`, the vector at `i`. -/
theorem colCast_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem colBroadcast_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum over the columns of an `[a, n]` array of extended reals, read at row `p`: the sum of that row. -/
theorem rowSum_apply {a n : ℕ} (src : FVec Ideal ⟨2, ![a, n]⟩ .f32) (h : (⟨2, ![a, n]⟩ : Shape).Reduces [1] ⟨1, ![a]⟩)
    (hφ : FKind.Formats .f32) (hacc : (0x00000000#32 : BitVec 32) = FKind.add.neutral .f32 hφ) (p : Fin a) :
    multiReduction (F := Ideal) .add [1] ⟨1, ![a]⟩ src 0x00000000#32 h hφ hacc (ix1 p) = ∑ k : Fin n, src (ix2 p k) :=
  (Ideal.multiReduction_add_single src _ h hφ hacc (ix1 p)).trans
    (Finset.sum_congr rfl fun k _ => congrArg src (funext fun ax => Fin.ext (by
      match ax with
      | ⟨0, _⟩ => rfl
      | ⟨1, _⟩ => rfl)))

end Cert.KernelIdeal.Math

end
-- ==== Proof.KernelMathNorm.lean ====
/-
  Centring and scaling a block of rows, read at an index.

  For an [128, n] block x whose row sums are held in an [128, 1] column s, the block
  (x − s/d spread over the columns) · rsqrt((Σ (x − s/d)²)/d' + e spread over the columns)
  reads at (p, q) as (x(p, q) − μ) · rsqrt(σ² + e), with μ the mean of row p with divisor d and σ² the mean of the
  squared deviations of row p with divisor d'.  The three normalisations of the cell are this block with different
  x, the sums taken either on the spot or beforehand.
-/
import proofs.«178478_j42855183680049_2_alg».proof.Proof.Spec
import proofs.«178478_j42855183680049_2_alg».proof.Proof.KernelMathLayout

noncomputable section

open scoped BigOperators

namespace Cert.KernelIdeal.Math

open Idealize.ShloMosaic Idealize.ShloMosaic.ValueIdx

/-- The column of row means spread over the columns reads, anywhere in row `p`, the mean of row `p`. -/
theorem meanSpread_apply {n : ℕ} (x : FVec Ideal ⟨2, ![128, n]⟩ .f32) (s : FVec Ideal ⟨2, ![128, 1]⟩ .f32)
    (hs : ∀ p : Fin 128, s (ix2 p (0 : Fin 1)) = ∑ k : Fin n, x (ix2 p k)) (d : EReal)
    (hB : (⟨2, ![128, 1]⟩ : Shape).Broadcasts ⟨2, ![128, n]⟩) (p : Fin 128) (c : Fin n) :
    broadcastTo ⟨2, ![128, n]⟩ (divf s (broadcast ⟨2, ![128, 1]⟩ d)) hB (ix2 p c)
      = Cert.LnLstm.mean d (fun j => x (ix2 p j)) := by
  rw [colBroadcast_apply]
  show Ideal.div (s (ix2 p (0 : Fin 1))) d = _
  rw [hs]
  rfl

/-- A block of rows centred by its row means and scaled by the reciprocal root of its row variances, at `(p, q)`. -/
theorem rowNorm_apply {n : ℕ} (x : FVec Ideal ⟨2, ![128, n]⟩ .f32) (s : FVec Ideal ⟨2, ![128, 1]⟩ .f32)
    (hs : ∀ p : Fin 128, s (ix2 p (0 : Fin 1)) = ∑ k : Fin n, x (ix2 p k)) (d d' e : EReal)
    (hB : (⟨2, ![128, 1]⟩ : Shape).Broadcasts ⟨2, ![128, n]⟩)
    (hR : (⟨2, ![128, n]⟩ : Shape).Reduces [1] ⟨1, ![128]⟩) (hφ : FKind.Formats .f32)
    (hacc : (0x00000000#32 : BitVec 32) = FKind.add.neutral .f32 hφ)
    (hC : (⟨1, ![128]⟩ : Shape).ShapeCasts ⟨2, ![128, 1]⟩) (p : Fin 128) (q : Fin n) :
    mulf (subf x (broadcastTo ⟨2, ![128, n]⟩ (divf s (broadcast ⟨2, ![128, 1]⟩ d)) hB))
        (broadcastTo ⟨2, ![128, n]⟩
          (rsqrt (addf (divf (shapeCast ⟨2, ![128, 1]⟩
              (multiReduction (F := Ideal) .add [1] ⟨1, ![128]⟩
                (mulf (subf x (broadcastTo ⟨2, ![128, n]⟩ (divf s (broadcast ⟨2, ![128, 1]⟩ d)) hB))
                      (subf x (broadcastTo ⟨2, ![128, n]⟩ (divf s (broadcast ⟨2, ![128, 1]⟩ d)) hB)))
                0x00000000#32 hR hφ hacc) hC) (broadcast ⟨2, ![128, 1]⟩ d'))
            (broadcast ⟨2, ![128, 1]⟩ e))) hB) (ix2 p q)
      = (x (ix2 p q) - Cert.LnLstm.mean d (fun j => x (ix2 p j)))
          * Ideal.rsqrt (Cert.LnLstm.mean d' (fun k => (x (ix2 p k) - Cert.LnLstm.mean d (fun j => x (ix2 p j)))
              * (x (ix2 p k) - Cert.LnLstm.mean d (fun j => x (ix2 p j)))) + e) := by
  refine (mulf_apply _ _ _).trans ?_
  refine congrArg₂ (· * ·) ?_ ?_
  · refine (subf_apply _ _ _).trans ?_
    rw [meanSpread_apply x s hs]
  · rw [colBroadcast_apply]
    show Ideal.rsqrt (Ideal.div (shapeCast ⟨2, ![128, 1]⟩ _ hC (ix2 p (0 : Fin 1))) d' + e) = _
    rw [colCast_apply, rowSum_apply]
    refine congrArg (fun t => Ideal.rsqrt (Ideal.div t d' + e)) ?_
    refine Finset.sum_congr rfl fun k _ => ?_
    refine (mulf_apply _ _ _).trans ?_
    refine congrArg₂ (· * ·) ?_ ?_ <;>
    · refine (subf_apply _ _ _).trans ?_
      rw [meanSpread_apply x s hs]

end Cert.KernelIdeal.Math

end
-- ==== Proof.KernelMath.lean ====
/-
  The gating arithmetic of the last grid point of a batch tile, read at an index.

  The assembled [128, 8192] input-path rows are normalised along their 8192 columns, scaled and shifted by two
  [1, 8192] rows, and the hidden-path rows are added: the gate pre-activations of the 128 batch rows.  Their four
  2048-column blocks give the forget, input, candidate and output gates; the raw cell row is
  σ(forget) · old cell + σ(input) · tanh(candidate), normalised along its 2048 columns to the new cell row, and
  σ(output) · tanh(new cell), normalised again, is the new hidden row.  Each statement reads one entry (p, q) of a
  block as the per-row function of the specification at row p.
-/
import proofs.«178478_j42855183680049_2_alg».proof.Proof.Gen.KernelIdeal.Skeleton
import proofs.«178478_j42855183680049_2_alg».proof.Proof.Spec
import proofs.«178478_j42855183680049_2_alg».proof.Proof.KernelMathLayout
import proofs.«178478_j42855183680049_2_alg».proof.Proof.KernelMathNorm

noncomputable section

open scoped BigOperators

namespace Cert.KernelIdeal.Math

open Idealize.ShloMosaic Idealize.ShloMosaic.ValueIdx Cert.KernelIdeal Cert.KernelIdeal.Gen

/-- The column of row sums of an [128, n] block reads, in row `p`, the sum of row `p`. -/
theorem sumColumn_apply {n : ℕ} (src : FVec Ideal ⟨2, ![128, n]⟩ .f32)
    (h : (⟨2, ![128, n]⟩ : Shape).Reduces [1] ⟨1, ![128]⟩) (hφ : FKind.Formats .f32)
    (hacc : (0x00000000#32 : BitVec 32) = FKind.add.neutral .f32 hφ)
    (hC : (⟨1, ![128]⟩ : Shape).ShapeCasts ⟨2, ![128, 1]⟩) (p : Fin 128) (u : Fin 1) :
    shapeCast ⟨2, ![128, 1]⟩ (multiReduction (F := Ideal) .add [1] ⟨1, ![128]⟩ src 0x00000000#32 h hφ hacc) hC (ix2 p u)
      = ∑ k : Fin n, src (ix2 p k) :=
  (colCast_apply _ hC p u).trans (rowSum_apply src h hφ hacc p)

section

variable (v31 v58 : Vec Ideal S128x8192 .f32) (v50 v54 : Vec Ideal S1x8192 .f32) (v68 : Vec Ideal S128x2048 .f32)
  (v90 v94 v118 v122 : Vec Ideal S1x2048 .f32)

/-- The gate pre-activations of row `p` of the block, as the specification's per-row function. -/
abbrev G (p : Fin 128) : Fin 8192 → EReal :=
  Cert.LnLstm.rowGates (fun j => v31 (ix2 p j)) (fun j => v58 (ix2 p j)) (fun j => v50 (ix2 0 j)) (fun j => v54 (ix2 0 j))

/-- The gate block at (p, j): row p of the input path normalised, scaled, shifted, plus the hidden path. -/
theorem gates_apply (p : Fin 128) (j : Fin 8192) : k0_pay4 v31 v50 v54 v58 (ix2 p j) = G v31 v58 v50 v54 p j := by
  unfold k0_pay4
  simp only [shapeCast_self]
  show (_ * _ + _) + _ = _
  refine Eq.trans (congrArg₂ (· + ·) (congrArg₂ (· + ·) (congrArg₂ (· * ·)
      (rowNorm_apply (n := 8192) v31 _ (fun p' => sumColumn_apply v31 _ _ _ _ p' 0) _ _ _ _ _ _ _ _ p j)
      (broadcastTo_1b_ab_apply _ _ p j)) (broadcastTo_1b_ab_apply _ _ p j)) rfl) ?_
  rfl

/-- The output gate's block at (p, q): the logistic of the fourth gate block. -/
theorem outGate_apply (p : Fin 128) (q : Fin 2048) :
    k0_pay5 v31 v50 v54 v58 (ix2 p q)
      = Ideal.logistic (G v31 v58 v50 v54 p (Cert.LnLstm.col 6144 (by decide) q)) := by
  unfold k0_pay5
  exact congrArg Ideal.logistic
    ((slice2_axis1_apply 6144 _ _ p q (Cert.LnLstm.col 6144 (by decide) q) rfl).trans (gates_apply v31 v58 v50 v54 p _))

/-- The raw cell block at (p, q): forget gate times the old cell plus input gate times the candidate. -/
theorem rawCell_apply (p : Fin 128) (q : Fin 2048) :
    k0_pay6 v31 v50 v54 v58 v68 (ix2 p q)
      = Cert.LnLstm.rowCellRaw (G v31 v58 v50 v54 p) (fun q => v68 (ix2 p q)) q := by
  unfold k0_pay6
  exact congrArg₂ (· + ·)
    (congrArg₂ (· * ·)
      (congrArg Ideal.logistic
        ((slice2_axis1_apply 2048 _ _ p q (Cert.LnLstm.col 2048 (by decide) q) rfl).trans (gates_apply v31 v58 v50 v54 p _)))
      rfl)
    (congrArg₂ (· * ·)
      (congrArg Ideal.logistic
        ((slice2_axis1_apply 0 _ _ p q (Cert.LnLstm.col 0 (by decide) q) rfl).trans (gates_apply v31 v58 v50 v54 p _)))
      (congrArg Ideal.tanh
        ((slice2_axis1_apply 4096 _ _ p q (Cert.LnLstm.col 4096 (by decide) q) rfl).trans (gates_apply v31 v58 v50 v54 p _))))

/-- The column of the raw cell block's row sums, in row `p`. -/
theorem rawCellSum_apply (p : Fin 128) (u : Fin 1) :
    k0_pay7 v31 v50 v54 v58 v68 (ix2 p u) = ∑ k : Fin 2048, k0_pay6 v31 v50 v54 v58 v68 (ix2 p k) := by
  unfold k0_pay7
  exact sumColumn_apply (n := 2048) _ _ _ _ _ p u

/-- The new cell block at (p, q): row p of the raw cell block normalised, scaled and shifted. -/
theorem cell_apply (p : Fin 128) (q : Fin 2048) :
    k0_pay8 (k0_pay6 v31 v50 v54 v58 v68) (k0_pay7 v31 v50 v54 v58 v68) (Scalar.ofBits .f32 0x45000000#32) v90 v94 (ix2 p q)
      = Cert.LnLstm.rowCell (G v31 v58 v50 v54 p) (fun q => v68 (ix2 p q)) (fun q => v90 (ix2 0 q))
          (fun q => v94 (ix2 0 q)) q := by
  unfold k0_pay8
  simp only [shapeCast_self]
  show _ * _ + _ = _
  refine Eq.trans (congrArg₂ (· + ·) (congrArg₂ (· * ·)
      (rowNorm_apply (n := 2048) (k0_pay6 v31 v50 v54 v58 v68) (k0_pay7 v31 v50 v54 v58 v68)
        (fun p' => rawCellSum_apply v31 v58 v50 v54 v68 p' 0) _ _ _ _ _ _ _ _ p q)
      (broadcastTo_1b_ab_apply _ _ p q)) (broadcastTo_1b_ab_apply _ _ p q)) ?_
  simp only [rawCell_apply]
  rfl

/-- The raw hidden block at (p, k): output gate times tanh of the new cell. -/
theorem rawHidden_apply (p : Fin 128) (k : Fin 2048) :
    mulf (k0_pay5 v31 v50 v54 v58)
        (tanh (k0_pay8 (k0_pay6 v31 v50 v54 v58 v68) (k0_pay7 v31 v50 v54 v58 v68) (Scalar.ofBits .f32 0x45000000#32) v90 v94))
        (ix2 p k)
      = Cert.LnLstm.rowHiddenRaw (G v31 v58 v50 v54 p) (fun q => v68 (ix2 p q)) (fun q => v90 (ix2 0 q))
          (fun q => v94 (ix2 0 q)) k :=
  congrArg₂ (· * ·) (outGate_apply v31 v58 v50 v54 p k)
    (congrArg Ideal.tanh (cell_apply v31 v58 v50 v54 v68 v90 v94 p k))

/-- The new hidden block at (p, q): row p of the raw hidden block normalised, scaled and shifted. -/
theorem hidden_apply (p : Fin 128) (q : Fin 2048) :
    k0_pay3 (k0_pay9 (k0_pay5 v31 v50 v54 v58) (k0_pay6 v31 v50 v54 v58 v68) (k0_pay7 v31 v50 v54 v58 v68)
        (Scalar.ofBits .f32 0x45000000#32) v90 v94) (k0_pay10 v118) v122 (ix2 p q)
      = Cert.LnLstm.rowHidden (G v31 v58 v50 v54 p) (fun q => v68 (ix2 p q)) (fun q => v90 (ix2 0 q))
          (fun q => v94 (ix2 0 q)) (fun q => v118 (ix2 0 q)) (fun q => v122 (ix2 0 q)) q := by
  unfold k0_pay3 k0_pay9 k0_pay10
  simp only [shapeCast_self]
  show _ * _ + _ = _
  refine Eq.trans (congrArg₂ (· + ·) (congrArg₂ (· * ·)
      (rowNorm_apply (n := 2048)
        (mulf (k0_pay5 v31 v50 v54 v58)
          (tanh (k0_pay8 (k0_pay6 v31 v50 v54 v58 v68) (k0_pay7 v31 v50 v54 v58 v68) (Scalar.ofBits .f32 0x45000000#32) v90 v94)))
        _ (fun p' => sumColumn_apply _ _ _ _ _ p' 0) _ _ _ _ _ _ _ _ p q)
      (broadcastTo_1b_ab_apply _ _ p q)) (broadcastTo_1b_ab_apply _ _ p q)) ?_
  simp only [rawHidden_apply]
  rfl

end

end Cert.KernelIdeal.Math

end
-- ==== Proof.KernelArrays.lean ====
/-
  The kernel's two result arrays on the extended reals are the specification's.

  The gate rows a batch tile assembles over its sixteen column tiles are, at (p, j), the dense layers at global row
  128·(t / 16) + p and gate column j: column j is computed at column tile j / 512, inner column j mod 512, and
  512·(j / 512) + j mod 512 = j.  The finalising arithmetic of the last column tile acts on one row at a time, so the
  new cell and hidden blocks of batch tile t / 16 are rows 128·(t / 16) … 128·(t / 16) + 127 of the specification's two
  arrays.  Those blocks are written back at the last column tiles, and the 32 of them cover the 4096 rows: row r by the
  last column tile of batch tile r / 128.
-/
import proofs.«178478_j42855183680049_2_alg».proof.Proof.IdealData
import proofs.«178478_j42855183680049_2_alg».proof.Proof.KernelArraysTiles
import proofs.«178478_j42855183680049_2_alg».proof.Proof.KernelMath
import Idealize.ShloMosaic.Lib.Pipeline.Value

set_option maxRecDepth 16384

noncomputable section

open scoped BigOperators

namespace Cert.KernelIdeal.Arrays

open Cert.KernelIdeal Cert.KernelIdeal.Gen Cert.KernelIdeal.Math Cert.KernelIdeal.Body
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The specification's new hidden state of the launched arguments on core `c`. -/
abbrev hiddenSpec (c : Dev nD) : S4096x2048.Idx → EReal := Cert.LnLstm.hiddenArr (aX m c) (aH m c) (aC m c) (aWih m c) (aWhh m c) (aBih m c) (aBhh m c) (aGx m c) (aBetax m c) (aGc m c) (aBetac m c) (aGh m c) (aBetah m c)
/-- The specification's new cell state of the launched arguments on core `c`. -/
abbrev cellSpec (c : Dev nD) : S4096x2048.Idx → EReal := Cert.LnLstm.cellArr (aX m c) (aH m c) (aC m c) (aWih m c) (aWhh m c) (aBih m c) (aBhh m c) (aGx m c) (aBetax m c) (aGc m c) (aBetac m c)

/-! ## The assembled gate rows -/

/-- The input path's assembled rows of point `t`'s batch tile, at (p, j). -/
theorem rowsX_apply (c : Dev nD) (t : Fin cfg0.N) (p : Fin 128) (j : Fin 8192) :
    rowsX m c t.val (ix2 p j) = Cert.LnLstm.dense (aX m c) (aWih m c) (aBih m c) (rowOf t p) j := by
  have hN : cfg0.N = 512 := N_0
  have ht := t.isLt
  have hj := j.isLt
  have hr : rowOf (tilePoint t.val j.val) p = rowOf t p := Fin.ext (by
    show 128 * (((16 * (t.val / 16) + j.val / 512) % 512) / 16) + p.val = 128 * (t.val / 16) + p.val
    omega)
  have hc : colOf (tilePoint t.val j.val) (⟨j.val % 512, Nat.mod_lt _ (by decide)⟩ : Fin 512) = j := Fin.ext (by
    show 512 * (((16 * (t.val / 16) + j.val / 512) % 512) % 16) + j.val % 512 = j.val
    omega)
  show k0_pay1 (iblk m c 0 (tilePoint t.val j.val)) (iblk m c 3 (tilePoint t.val j.val)) (iblk m c 5 (tilePoint t.val j.val))
      (ix2 p (⟨j.val % 512, Nat.mod_lt _ (by decide)⟩ : Fin 512)) = _
  rw [denseX_tile, hr, hc]

/-- The hidden path's assembled rows of point `t`'s batch tile, at (p, j). -/
theorem rowsH_apply (c : Dev nD) (t : Fin cfg0.N) (p : Fin 128) (j : Fin 8192) :
    rowsH m c t.val (ix2 p j) = Cert.LnLstm.dense (aH m c) (aWhh m c) (aBhh m c) (rowOf t p) j := by
  have hN : cfg0.N = 512 := N_0
  have ht := t.isLt
  have hj := j.isLt
  have hr : rowOf (tilePoint t.val j.val) p = rowOf t p := Fin.ext (by
    show 128 * (((16 * (t.val / 16) + j.val / 512) % 512) / 16) + p.val = 128 * (t.val / 16) + p.val
    omega)
  have hc : colOf (tilePoint t.val j.val) (⟨j.val % 512, Nat.mod_lt _ (by decide)⟩ : Fin 512) = j := Fin.ext (by
    show 512 * (((16 * (t.val / 16) + j.val / 512) % 512) % 16) + j.val % 512 = j.val
    omega)
  show k0_pay2 (iblk m c 1 (tilePoint t.val j.val)) (iblk m c 4 (tilePoint t.val j.val)) (iblk m c 6 (tilePoint t.val j.val))
      (ix2 p (⟨j.val % 512, Nat.mod_lt _ (by decide)⟩ : Fin 512)) = _
  rw [denseH_tile, hr, hc]

/-- The gate pre-activations of inner row `p` at point `t` are the specification's at the global row. -/
theorem gates_row (c : Dev nD) (t : Fin cfg0.N) (p : Fin 128) :
    G (rowsX m c t.val) (rowsH m c t.val) (iblk m c 7 t) (iblk m c 8 t) p
      = Cert.LnLstm.gates (aX m c) (aH m c) (aWih m c) (aWhh m c) (aBih m c) (aBhh m c) (aGx m c) (aBetax m c) (rowOf t p) :=
  congr (congr (congr (congrArg Cert.LnLstm.rowGates (funext (rowsX_apply m c t p))) (funext (rowsH_apply m c t p)))
    (funext (iblk7_apply m c t))) (funext (iblk8_apply m c t))

/-! ## The two result blocks -/

/-- The new cell block of point `t` at (p, q): the specification's cell state at the global row. -/
theorem cellBlk_apply (c : Dev nD) (t : Fin cfg0.N) (p : Fin 128) (q : Fin 2048) :
    cellBlk m c t (ix2 p q) = cellSpec m c (ix2 (rowOf t p) q) := by
  unfold cellBlk
  refine (cell_apply (rowsX m c t.val) (rowsH m c t.val) (iblk m c 7 t) (iblk m c 8 t) (iblk m c 2 t) (iblk m c 9 t)
    (iblk m c 10 t) p q).trans ?_
  exact congrFun (congr (congr (congr (congrArg Cert.LnLstm.rowCell (gates_row m c t p)) (funext (iblk2_apply m c t p)))
    (funext (iblk9_apply m c t))) (funext (iblk10_apply m c t))) q

/-- The new hidden block of point `t` at (p, q): the specification's hidden state at the global row. -/
theorem hiddenBlk_apply (c : Dev nD) (t : Fin cfg0.N) (p : Fin 128) (q : Fin 2048) :
    hiddenBlk m c t (ix2 p q) = hiddenSpec m c (ix2 (rowOf t p) q) := by
  unfold hiddenBlk
  refine (hidden_apply (rowsX m c t.val) (rowsH m c t.val) (iblk m c 7 t) (iblk m c 8 t) (iblk m c 2 t) (iblk m c 9 t)
    (iblk m c 10 t) (iblk m c 11 t) (iblk m c 12 t) p q).trans ?_
  exact congrFun (congr (congr (congr (congr (congr (congrArg Cert.LnLstm.rowHidden (gates_row m c t p))
    (funext (iblk2_apply m c t p))) (funext (iblk9_apply m c t))) (funext (iblk10_apply m c t)))
    (funext (iblk11_apply m c t))) (funext (iblk12_apply m c t))) q

/-- The same two readings at an index given whole. -/
theorem cellBlk_apply' (c : Dev nD) (t : Fin cfg0.N) (y : S128x2048.Idx) :
    cellBlk m c t y = cellSpec m c (ix2 (rowOf t (y 0)) (y 1)) :=
  (congrArg (cellBlk m c t) (eq_ix2 y)).trans (cellBlk_apply m c t (y 0) (y 1))
theorem hiddenBlk_apply' (c : Dev nD) (t : Fin cfg0.N) (y : S128x2048.Idx) :
    hiddenBlk m c t y = hiddenSpec m c (ix2 (rowOf t (y 0)) (y 1)) :=
  (congrArg (hiddenBlk m c t) (eq_ix2 y)).trans (hiddenBlk_apply m c t (y 0) (y 1))

/-! ## From the blocks to the arrays -/

/-- What a last column tile writes back to result 0: its block of the specification's array. -/
theorem flushed13_eq (c : Dev nD) (t : Fin cfg0.N) (hf : (cfg0.win 13).flush t = true) :
    (dats m 0 c).flushed 13 t = ((cfg0.win 13).blk t).view.read (Elt Ideal) (hiddenSpec m c) := by
  show (cfg0.win 13).cut (grid0.coords t) ((dats m 0 c).after 13 t) = _
  rw [after13]
  funext y
  show hiddenBlk m c t y = hiddenSpec m c (((cfg0.win 13).blk t).view.emb y)
  refine (hiddenBlk_apply' m c t y).trans (congrArg (hiddenSpec m c) (funext fun a => Fin.ext ?_))
  obtain ⟨e0, e1⟩ := idx13 t
  match a with
  | ⟨0, _⟩ => show 128 * (t.val / 16) + (y 0).val = win0_13.index t 0 * 128 + 1 * (y 0).val; rw [e0]; omega
  | ⟨1, _⟩ => show (y 1).val = win0_13.index t 1 * 2048 + 1 * (y 1).val; rw [e1]; omega

/-- An index of the result array is in point `t`'s block iff each coordinate is in the block's range on its axis. -/
theorem mem_blk13 (t : Fin cfg0.N) (i : S4096x2048.Idx) :
    i ∈ ((cfg0.win 13).blk t).view.set ↔ ∀ a : Fin 2, win0_13.index t a * S128x2048.size a ≤ (i a).val
      ∧ (i a).val < win0_13.index t a * S128x2048.size a + S128x2048.size a := by
  show i ∈ ((View.whole main_v0_0).slice (win0_13.rect t)).set ↔ _
  rw [View.set_slice_whole, Rect.mem_set_unit]
  exact Iff.rfl

/-- Row r of the result is written back by the last column tile of batch tile r / 128. -/
theorem cover13 (i : S4096x2048.Idx) :
    ∃ t : Fin cfg0.N, (cfg0.win 13).flush t = true ∧ i ∈ ((cfg0.win 13).blk t).view.set := by
  have hN : cfg0.N = 512 := N_0
  have h0 : (i 0).val < 4096 := (i 0).isLt
  have h1 : (i 1).val < 2048 := (i 1).isLt
  have hlt : 16 * ((i 0).val / 128) + 15 < cfg0.N := by omega
  refine ⟨⟨16 * ((i 0).val / 128) + 15, hlt⟩, (flush0_13 _).mpr (by show (16 * ((i 0).val / 128) + 15) % 16 = 15; omega), ?_⟩
  rw [mem_blk13]
  obtain ⟨e0, e1⟩ := idx13 ⟨16 * ((i 0).val / 128) + 15, hlt⟩
  have e0' : win0_13.index ⟨16 * ((i 0).val / 128) + 15, hlt⟩ 0 = (16 * ((i 0).val / 128) + 15) / 16 := e0
  intro a
  match a with
  | ⟨0, _⟩ =>
    show win0_13.index ⟨16 * ((i 0).val / 128) + 15, hlt⟩ 0 * 128 ≤ (i 0).val
      ∧ (i 0).val < win0_13.index ⟨16 * ((i 0).val / 128) + 15, hlt⟩ 0 * 128 + 128
    rw [e0']; omega
  | ⟨1, _⟩ =>
    show win0_13.index ⟨16 * ((i 0).val / 128) + 15, hlt⟩ 1 * 2048 ≤ (i 1).val
      ∧ (i 1).val < win0_13.index ⟨16 * ((i 0).val / 128) + 15, hlt⟩ 1 * 2048 + 2048
    rw [e1]; omega

/-- Result 0 ends holding the specification's array. -/
theorem final13 (c : Dev nD) : (dats m 0 c).arrAt 13 cfg0.N = hiddenSpec m c :=
  (dats m 0 c).arrAt_eq_of_cover 13 (hiddenSpec m c) (flushed13_eq m c) (cover13)

/-- What a last column tile writes back to result 1: its block of the specification's array. -/
theorem flushed14_eq (c : Dev nD) (t : Fin cfg0.N) (hf : (cfg0.win 14).flush t = true) :
    (dats m 0 c).flushed 14 t = ((cfg0.win 14).blk t).view.read (Elt Ideal) (cellSpec m c) := by
  show (cfg0.win 14).cut (grid0.coords t) ((dats m 0 c).after 14 t) = _
  rw [after14]
  funext y
  show cellBlk m c t y = cellSpec m c (((cfg0.win 14).blk t).view.emb y)
  refine (cellBlk_apply' m c t y).trans (congrArg (cellSpec m c) (funext fun a => Fin.ext ?_))
  obtain ⟨e0, e1⟩ := idx14 t
  match a with
  | ⟨0, _⟩ => show 128 * (t.val / 16) + (y 0).val = win0_14.index t 0 * 128 + 1 * (y 0).val; rw [e0]; omega
  | ⟨1, _⟩ => show (y 1).val = win0_14.index t 1 * 2048 + 1 * (y 1).val; rw [e1]; omega

/-- An index of the result array is in point `t`'s block iff each coordinate is in the block's range on its axis. -/
theorem mem_blk14 (t : Fin cfg0.N) (i : S4096x2048.Idx) :
    i ∈ ((cfg0.win 14).blk t).view.set ↔ ∀ a : Fin 2, win0_14.index t a * S128x2048.size a ≤ (i a).val
      ∧ (i a).val < win0_14.index t a * S128x2048.size a + S128x2048.size a := by
  show i ∈ ((View.whole main_v0_1).slice (win0_14.rect t)).set ↔ _
  rw [View.set_slice_whole, Rect.mem_set_unit]
  exact Iff.rfl

/-- Row r of the result is written back by the last column tile of batch tile r / 128. -/
theorem cover14 (i : S4096x2048.Idx) :
    ∃ t : Fin cfg0.N, (cfg0.win 14).flush t = true ∧ i ∈ ((cfg0.win 14).blk t).view.set := by
  have hN : cfg0.N = 512 := N_0
  have h0 : (i 0).val < 4096 := (i 0).isLt
  have h1 : (i 1).val < 2048 := (i 1).isLt
  have hlt : 16 * ((i 0).val / 128) + 15 < cfg0.N := by omega
  refine ⟨⟨16 * ((i 0).val / 128) + 15, hlt⟩, (flush0_14 _).mpr (by show (16 * ((i 0).val / 128) + 15) % 16 = 15; omega), ?_⟩
  rw [mem_blk14]
  obtain ⟨e0, e1⟩ := idx14 ⟨16 * ((i 0).val / 128) + 15, hlt⟩
  have e0' : win0_14.index ⟨16 * ((i 0).val / 128) + 15, hlt⟩ 0 = (16 * ((i 0).val / 128) + 15) / 16 := e0
  intro a
  match a with
  | ⟨0, _⟩ =>
    show win0_14.index ⟨16 * ((i 0).val / 128) + 15, hlt⟩ 0 * 128 ≤ (i 0).val
      ∧ (i 0).val < win0_14.index ⟨16 * ((i 0).val / 128) + 15, hlt⟩ 0 * 128 + 128
    rw [e0']; omega
  | ⟨1, _⟩ =>
    show win0_14.index ⟨16 * ((i 0).val / 128) + 15, hlt⟩ 1 * 2048 ≤ (i 1).val
      ∧ (i 1).val < win0_14.index ⟨16 * ((i 0).val / 128) + 15, hlt⟩ 1 * 2048 + 2048
    rw [e1]; omega

/-- Result 1 ends holding the specification's array. -/
theorem final14 (c : Dev nD) : (dats m 0 c).arrAt 14 cfg0.N = cellSpec m c :=
  (dats m 0 c).arrAt_eq_of_cover 14 (cellSpec m c) (flushed14_eq m c) (cover14)

end Cert.KernelIdeal.Arrays

end
-- ==== Proof.KernelRun.lean ====
/-
  The idealized kernel's two results are the specification's hidden and cell arrays of its arguments.

  The region's run leaves every array a window stages at what the proof data compute and every other buffer as the
  region found it. The two result windows' arrays, after the last write-back, are the specification's hidden and cell
  arrays of the thirteen arguments as launched; the old cell state is an input window's array, which a run leaves
  as it was; the twelve other arguments are staged through converted or re-viewed copies, so no window holds them and
  nothing before the region writes them.
-/
import proofs.«178478_j42855183680049_2_alg».proof.Defs
import proofs.«178478_j42855183680049_2_alg».proof.Proof.Spec
import proofs.«178478_j42855183680049_2_alg».proof.Proof.IdealBody
import proofs.«178478_j42855183680049_2_alg».proof.Proof.KernelArrays

set_option maxRecDepth 16384

noncomputable section

namespace Cert.KernelIdeal.Arrays

open Cert.KernelIdeal Cert.KernelIdeal.Gen
open Idealize.ShloMosaic Idealize.ShloMosaic.TcCoe Idealize.SL.Sem
open Idealize.ShloMosaic.Pipeline (Dat)

/-- On every device, from any memory with zero counters: every weakly fair execution of the idealized kernel's program
    terminates with the new hidden state and the new cell state at the specification's arrays of the thirteen
    arguments' contents at launch, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v0_0)
          = Cert.LnLstm.hiddenArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
              (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_v0_1)
          = Cert.LnLstm.cellArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
              (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono
    (fun _ h c => ⟨((h c).1 13).trans (final13 m c), ((h c).1 14).trans (final14 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 2).trans (((Body.dats m 0 c).arrAt_in 2 rfl _).trans ((Body.A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c)⟩)
    (Body.run_main (F := Ideal) m ρ)

end Cert.KernelIdeal.Arrays

end
-- ==== Proof.RefOps.lean ====
/-
  The reference's layout and reduction operations read at one entry: a vector laid along every row, a column of row
  statistics laid along every column, the splat of a scalar, a row sum and a row mean, a block of 2048 consecutive
  columns, and the plain product of a [4096, 2048] by a [2048, 8192] matrix.
-/
import proofs.«178478_j42855183680049_2_alg».proof.Proof.Gen.ReferenceIdeal
import proofs.«178478_j42855183680049_2_alg».proof.Proof.Spec
import Idealize.ShloMosaic.Lib.IdealHost
import Idealize.ShloMosaic.Lib.StackMember
import Idealize.ShloMosaic.Lib.ValueLayout

noncomputable section

open scoped BigOperators

namespace Cert.ReferenceIdeal.RefOps

open Cert.ReferenceIdeal Idealize.ShloMosaic Idealize.ShloMosaic.ValueIdx

variable {α : Type}

/-- A length-4096 vector laid along the one column of a [4096, 1] array reads, at row r, its r-th entry. -/
theorem vecCol_apply (h : S4096.BroadcastsInDim S4096x1 (![0] : Fin 1 → Fin S4096x1.rank)) (x : S4096.Idx → α)
    (r : Fin 4096) (u : Fin 1) : broadcastInDim S4096x1 ![0] h x (ix2 r u) = x (ix1 r) :=
  broadcastInDim_apply ![0] h x (ix2 r u) (ix1 r) (fun a => by
    match a with
    | ⟨0, _⟩ =>
      show r.val = if (4096 : ℕ) = 1 then 0 else r.val
      exact (if_neg (by decide)).symm)

/-- The splat of a scalar f32 word over any shape reads, everywhere, the extended real the word encodes. -/
theorem splat_apply {T : Shape} (h : S_.BroadcastsInDim T (![] : Fin 0 → Fin T.rank)) (w : BitVec 32) (i : T.Idx) :
    broadcastInDim T ![] h (constant (F := Ideal) S_ .f32 w) i = Ideal.ofBits .f32 w :=
  broadcastInDim_scalar_apply h _ i

/-- A length-8192 vector laid along the one row of a [1, 8192] array reads, at column j, its j-th entry. -/
theorem vecRow8192_apply (h : S8192.BroadcastsInDim S1x8192 (![1] : Fin 1 → Fin S1x8192.rank)) (x : S8192.Idx → α)
    (u : Fin 1) (j : Fin 8192) : broadcastInDim S1x8192 ![1] h x (ix2 u j) = x (ix1 j) :=
  broadcastInDim_apply ![1] h x (ix2 u j) (ix1 j) (fun a => by
    match a with
    | ⟨0, _⟩ =>
      show j.val = if (8192 : ℕ) = 1 then 0 else j.val
      exact (if_neg (by decide)).symm)

/-- A length-8192 vector laid along every one of the 4096 rows reads, at (r, j), its j-th entry. -/
theorem bias8192_apply (h1 : S8192.BroadcastsInDim S1x8192 (![1] : Fin 1 → Fin S1x8192.rank))
    (h2 : S1x8192.BroadcastsInDim S4096x8192 (![0, 1] : Fin 2 → Fin S4096x8192.rank)) (x : S8192.Idx → α)
    (r : Fin 4096) (j : Fin 8192) :
    broadcastInDim S4096x8192 ![0, 1] h2 (broadcastInDim S1x8192 ![1] h1 x) (ix2 r j) = x (ix1 j) :=
  (broadcastInDim_oneRow_apply h2 _ r j).trans (vecRow8192_apply h1 x 0 j)

/-- A column of 4096 row statistics laid along every one of the 8192 columns reads, at (r, j), the statistic of row r. -/
theorem colRows8192_apply (h : S4096x1.BroadcastsInDim S4096x8192 (![0, 1] : Fin 2 → Fin S4096x8192.rank))
    (y : S4096x1.Idx → α) (r : Fin 4096) (j : Fin 8192) :
    broadcastInDim S4096x8192 ![0, 1] h y (ix2 r j) = y (ix2 r (0 : Fin 1)) :=
  broadcastInDim_apply ![0, 1] h y (ix2 r j) (ix2 r (0 : Fin 1)) (fun a => by
    match a with
    | ⟨0, _⟩ =>
      show r.val = if (4096 : ℕ) = 1 then 0 else r.val
      exact (if_neg (by decide)).symm
    | ⟨1, _⟩ =>
      show (0 : ℕ) = if (1 : ℕ) = 1 then 0 else j.val
      exact (if_pos rfl).symm)

/-- The host's sum over the columns of a [4096, 8192] array from the zero word is, at row r, the sum of that row's
    8192 entries. -/
theorem rowSum8192_apply (h' : S4096x8192.ReducesTo [1] S4096) (hu : 0 < S_.numel) (x : FVec Ideal S4096x8192 .f32)
    (r : Fin 4096) :
    Host.reduceAdd (F := Ideal) x (constant (F := Ideal) S_ .f32 0x00000000#32) h' hu (ix1 r)
      = ∑ k : Fin 8192, x (ix2 r k) := by
  have h : S4096x8192.Reduces [1] S4096 := by decide
  refine (Ideal.hostReduceAdd_single h' h x _ (ix1 r)).trans ?_
  show Ideal.ofBits .f32 0x00000000#32 + _ = _
  rw [Ideal.ofBits_zero_f32, zero_add]
  refine Finset.sum_congr rfl fun k _ => congrArg x (funext fun a => Fin.ext ?_)
  match a with
  | ⟨0, _⟩ => rfl
  | ⟨1, _⟩ => rfl

/-- The mean of row r of a [4096, 8192] array as the reference spells it: the row sums laid out as a column, divided by
    the splat of the divisor's word. -/
theorem meanCol8192_apply (h' : S4096x8192.ReducesTo [1] S4096) (hu : 0 < S_.numel)
    (hc : S4096.BroadcastsInDim S4096x1 (![0] : Fin 1 → Fin S4096x1.rank))
    (hs : S_.BroadcastsInDim S4096x1 (![] : Fin 0 → Fin S4096x1.rank)) (w : BitVec 32)
    (x : FVec Ideal S4096x8192 .f32) (r : Fin 4096) (u : Fin 1) :
    Host.divf (F := Ideal)
        (broadcastInDim S4096x1 ![0] hc (Host.reduceAdd (F := Ideal) x (constant (F := Ideal) S_ .f32 0x00000000#32) h' hu))
        (broadcastInDim S4096x1 ![] hs (constant (F := Ideal) S_ .f32 w)) (ix2 r u)
      = Cert.LnLstm.mean (Ideal.ofBits .f32 w) (fun k : Fin 8192 => x (ix2 r k)) := by
  show Ideal.div _ _ = Ideal.div _ _
  exact congrArg₂ Ideal.div ((vecCol_apply hc _ r u).trans (rowSum8192_apply h' hu x r)) (splat_apply hs w _)

/-- A length-2048 vector laid along the one row of a [1, 2048] array reads, at column j, its j-th entry. -/
theorem vecRow2048_apply (h : S2048.BroadcastsInDim S1x2048 (![1] : Fin 1 → Fin S1x2048.rank)) (x : S2048.Idx → α)
    (u : Fin 1) (j : Fin 2048) : broadcastInDim S1x2048 ![1] h x (ix2 u j) = x (ix1 j) :=
  broadcastInDim_apply ![1] h x (ix2 u j) (ix1 j) (fun a => by
    match a with
    | ⟨0, _⟩ =>
      show j.val = if (2048 : ℕ) = 1 then 0 else j.val
      exact (if_neg (by decide)).symm)

/-- A length-2048 vector laid along every one of the 4096 rows reads, at (r, j), its j-th entry. -/
theorem bias2048_apply (h1 : S2048.BroadcastsInDim S1x2048 (![1] : Fin 1 → Fin S1x2048.rank))
    (h2 : S1x2048.BroadcastsInDim S4096x2048 (![0, 1] : Fin 2 → Fin S4096x2048.rank)) (x : S2048.Idx → α)
    (r : Fin 4096) (j : Fin 2048) :
    broadcastInDim S4096x2048 ![0, 1] h2 (broadcastInDim S1x2048 ![1] h1 x) (ix2 r j) = x (ix1 j) :=
  (broadcastInDim_oneRow_apply h2 _ r j).trans (vecRow2048_apply h1 x 0 j)

/-- A column of 4096 row statistics laid along every one of the 2048 columns reads, at (r, j), the statistic of row r. -/
theorem colRows2048_apply (h : S4096x1.BroadcastsInDim S4096x2048 (![0, 1] : Fin 2 → Fin S4096x2048.rank))
    (y : S4096x1.Idx → α) (r : Fin 4096) (j : Fin 2048) :
    broadcastInDim S4096x2048 ![0, 1] h y (ix2 r j) = y (ix2 r (0 : Fin 1)) :=
  broadcastInDim_apply ![0, 1] h y (ix2 r j) (ix2 r (0 : Fin 1)) (fun a => by
    match a with
    | ⟨0, _⟩ =>
      show r.val = if (4096 : ℕ) = 1 then 0 else r.val
      exact (if_neg (by decide)).symm
    | ⟨1, _⟩ =>
      show (0 : ℕ) = if (1 : ℕ) = 1 then 0 else j.val
      exact (if_pos rfl).symm)

/-- The host's sum over the columns of a [4096, 2048] array from the zero word is, at row r, the sum of that row's
    2048 entries. -/
theorem rowSum2048_apply (h' : S4096x2048.ReducesTo [1] S4096) (hu : 0 < S_.numel) (x : FVec Ideal S4096x2048 .f32)
    (r : Fin 4096) :
    Host.reduceAdd (F := Ideal) x (constant (F := Ideal) S_ .f32 0x00000000#32) h' hu (ix1 r)
      = ∑ k : Fin 2048, x (ix2 r k) := by
  have h : S4096x2048.Reduces [1] S4096 := by decide
  refine (Ideal.hostReduceAdd_single h' h x _ (ix1 r)).trans ?_
  show Ideal.ofBits .f32 0x00000000#32 + _ = _
  rw [Ideal.ofBits_zero_f32, zero_add]
  refine Finset.sum_congr rfl fun k _ => congrArg x (funext fun a => Fin.ext ?_)
  match a with
  | ⟨0, _⟩ => rfl
  | ⟨1, _⟩ => rfl

/-- The mean of row r of a [4096, 2048] array as the reference spells it: the row sums laid out as a column, divided by
    the splat of the divisor's word. -/
theorem meanCol2048_apply (h' : S4096x2048.ReducesTo [1] S4096) (hu : 0 < S_.numel)
    (hc : S4096.BroadcastsInDim S4096x1 (![0] : Fin 1 → Fin S4096x1.rank))
    (hs : S_.BroadcastsInDim S4096x1 (![] : Fin 0 → Fin S4096x1.rank)) (w : BitVec 32)
    (x : FVec Ideal S4096x2048 .f32) (r : Fin 4096) (u : Fin 1) :
    Host.divf (F := Ideal)
        (broadcastInDim S4096x1 ![0] hc (Host.reduceAdd (F := Ideal) x (constant (F := Ideal) S_ .f32 0x00000000#32) h' hu))
        (broadcastInDim S4096x1 ![] hs (constant (F := Ideal) S_ .f32 w)) (ix2 r u)
      = Cert.LnLstm.mean (Ideal.ofBits .f32 w) (fun k : Fin 2048 => x (ix2 r k)) := by
  show Ideal.div _ _ = Ideal.div _ _
  exact congrArg₂ Ideal.div ((vecCol_apply hc _ r u).trans (rowSum2048_apply h' hu x r)) (splat_apply hs w _)

/-- The block of 2048 columns starting at column o of a [4096, 8192] array reads, at (r, q), the array at column
    o + q of row r. -/
theorem gateBlock_apply (o : ℕ) (ho : o + 2048 ≤ 8192) (h : S4096x8192.Slices ![0, o] S4096x2048)
    (x : S4096x8192.Idx → α) (r : Fin 4096) (q : Fin 2048) :
    extractStridedSlice S4096x2048 ![0, o] x h (ix2 r q) = x (ix2 r (Cert.LnLstm.col o ho q)) :=
  slice2_axis1_apply o x h r q (Cert.LnLstm.col o ho q) rfl

/-- The host's product of a [4096, 2048] by a [2048, 8192] matrix reads, at (r, j), the sum over the 2048 features
    of the products of the entries. -/
theorem dot_apply (A : FVec Ideal S4096x2048 .f32) (W : FVec Ideal S2048x8192 .f32) (r : Fin 4096) (j : Fin 8192) :
    Host.dotGeneral (F := Ideal) dot_S4096x2048_S2048x8192_S4096x8192_1_0_0_1_n_n none A W (ix2 r j)
      = ∑ k : Fin 2048, A (ix2 r k) * W (ix2 k j) :=
  StackMember.dotGeneral_plain_apply none A W r j

end Cert.ReferenceIdeal.RefOps

end
-- ==== Proof.RefNorm.lean ====
/-
  The reference's three composite spellings read at one entry: a dense layer (the plain product plus the bias laid
  along the rows), a logistic gate written as 1 / (1 + exp(−x)) over splats of the word of 1.0, and a layer
  normalisation written over a column of row means and an array of deviations. Each is named here as a function of
  its operands so that the later statements stay short; each is the specification's function of the row.
-/
import proofs.«178478_j42855183680049_2_alg».proof.Proof.RefOps

noncomputable section

open scoped BigOperators

namespace Cert.ReferenceIdeal.RefOps

open Cert.ReferenceIdeal Cert.ReferenceIdeal.Gen Idealize.ShloMosaic Idealize.ShloMosaic.ValueIdx Cert.LnLstm

/-- A dense layer as the reference spells it, read at (r, j): the specification's dense row. -/
theorem dense_apply (A : FVec Ideal S4096x2048 .f32) (W : FVec Ideal S2048x8192 .f32) (b : FVec Ideal S8192 .f32)
    (r : Fin 4096) (j : Fin 8192) :
    addf (Host.dotGeneral dot_S4096x2048_S2048x8192_S4096x8192_1_0_0_1_n_n none A W)
        (broadcastInDim S4096x8192 ![0, 1] bcast_S1x8192_S4096x8192_0_1 (broadcastInDim S1x8192 ![1] bcast_S8192_S1x8192_1 b))
        (ix2 r j)
      = dense A W b r j := by
  unfold dense
  exact congrArg₂ (· + ·) (dot_apply A W r j) (bias8192_apply _ _ b r j)

/-- The reference's logistic gate of a [4096, 2048] array: 1 / (1 + exp(−x)), the ones splats of the word of 1.0. -/
def sigTerm (x : FVec Ideal S4096x2048 .f32) : FVec Ideal S4096x2048 .f32 :=
  Host.divf (broadcastInDim S4096x2048 ![] bcast_S_S4096x2048 (constant S_ .f32 0x3F800000#32)) (addf (broadcastInDim S4096x2048 ![] bcast_S_S4096x2048 (constant S_ .f32 0x3F800000#32)) (Host.exp (Host.negf x)))

/-- At an entry where `x` is `y` it is the logistic function of `y`: the word 0x3F800000 is the real 1. -/
theorem sigTerm_apply (x : FVec Ideal S4096x2048 .f32) (i : S4096x2048.Idx) (y : EReal) (hx : x i = y) :
    sigTerm x i = Ideal.logistic y := by
  have h1 : broadcastInDim S4096x2048 ![] bcast_S_S4096x2048 (constant (F := Ideal) S_ .f32 0x3F800000#32) i = 1 :=
    (splat_apply _ _ i).trans Ideal.ofBits_one_f32
  unfold sigTerm Ideal.logistic
  exact congrArg₂ Ideal.div h1 (congrArg₂ (· + ·) h1 (congrArg (fun t => Ideal.exp (-t)) hx))

/-- The reference's spelling of a normalised [4096, 8192] array, with the divisor's word `wd`: from the array `v`, its
    column of row means `mu` and its deviations `dev`, the entry (v − mu) · rsqrt(mean(dev²) + ε) · g + β, the
    statistics laid along the columns and the scale and shift along the rows. -/
def lnTerm8192 (wd : BitVec 32) (v dev : FVec Ideal S4096x8192 .f32) (mu : FVec Ideal S4096x1 .f32)
    (g β : FVec Ideal S8192 .f32) : FVec Ideal S4096x8192 .f32 :=
  addf (mulf (mulf (subf v (broadcastInDim S4096x8192 ![0, 1] bcast_S4096x1_S4096x8192_0_1 mu)) (broadcastInDim S4096x8192 ![0, 1] bcast_S4096x1_S4096x8192_0_1 (Host.rsqrt (addf (Host.divf (broadcastInDim S4096x1 ![0] bcast_S4096_S4096x1_0 (Host.reduceAdd (mulf dev dev) (constant S_ .f32 0x00000000#32) reducesTo_S4096x8192_S4096_d1 h_S_)) (broadcastInDim S4096x1 ![] bcast_S_S4096x1 (constant S_ .f32 wd))) (broadcastInDim S4096x1 ![] bcast_S_S4096x1 (constant S_ .f32 0x3727C5AC#32)))))) (broadcastInDim S4096x8192 ![0, 1] bcast_S1x8192_S4096x8192_0_1 (broadcastInDim S1x8192 ![1] bcast_S8192_S1x8192_1 g))) (broadcastInDim S4096x8192 ![0, 1] bcast_S1x8192_S4096x8192_0_1 (broadcastInDim S1x8192 ![1] bcast_S8192_S1x8192_1 β))

/-- Row r of that spelling is the specification's normalised row: given that row r of `v` is `a`, that `mu` holds
    the mean of `a` at row r, and that row r of `dev` holds the deviations of `a` from its mean. -/
theorem lnTerm8192_apply (wd : BitVec 32) (v dev : FVec Ideal S4096x8192 .f32) (mu : FVec Ideal S4096x1 .f32)
    (g β : FVec Ideal S8192 .f32) (r : Fin 4096) (a : Fin 8192 → EReal)
    (hv : ∀ k, v (ix2 r k) = a k)
    (hmu : mu (ix2 r (0 : Fin 1)) = mean (Ideal.ofBits .f32 wd) a)
    (hdev : ∀ k, dev (ix2 r k) = a k - mean (Ideal.ofBits .f32 wd) a) (j : Fin 8192) :
    lnTerm8192 wd v dev mu g β (ix2 r j)
      = lnorm (Ideal.ofBits .f32 wd) a (fun k => g (ix1 k)) (fun k => β (ix1 k)) j := by
  have e1 : broadcastInDim S4096x8192 ![0, 1] bcast_S4096x1_S4096x8192_0_1 mu (ix2 r j)
      = mean (Ideal.ofBits .f32 wd) a := (colRows8192_apply _ mu r j).trans hmu
  have e2 : (fun k : Fin 8192 => mulf dev dev (ix2 r k))
      = fun k => (a k - mean (Ideal.ofBits .f32 wd) a) * (a k - mean (Ideal.ofBits .f32 wd) a) :=
    funext fun k => congrArg₂ (· * ·) (hdev k) (hdev k)
  unfold lnTerm8192 lnorm
  exact congrArg₂ (· + ·)
    (congrArg₂ (· * ·)
      (congrArg₂ (· * ·) (congrArg₂ (· - ·) (hv j) e1)
        ((colRows8192_apply _ _ r j).trans
          (congrArg Ideal.rsqrt
            (congrArg₂ (· + ·)
              ((meanCol8192_apply _ _ _ _ wd (mulf dev dev) r 0).trans
                (congrArg (mean (Ideal.ofBits .f32 wd)) e2))
              (splat_apply _ _ _)))))
      (bias8192_apply _ _ g r j))
    (bias8192_apply _ _ β r j)

/-- The reference's spelling of a normalised [4096, 2048] array, with the divisor's word `wd`: from the array `v`, its
    column of row means `mu` and its deviations `dev`, the entry (v − mu) · rsqrt(mean(dev²) + ε) · g + β, the
    statistics laid along the columns and the scale and shift along the rows. -/
def lnTerm2048 (wd : BitVec 32) (v dev : FVec Ideal S4096x2048 .f32) (mu : FVec Ideal S4096x1 .f32)
    (g β : FVec Ideal S2048 .f32) : FVec Ideal S4096x2048 .f32 :=
  addf (mulf (mulf (subf v (broadcastInDim S4096x2048 ![0, 1] bcast_S4096x1_S4096x2048_0_1 mu)) (broadcastInDim S4096x2048 ![0, 1] bcast_S4096x1_S4096x2048_0_1 (Host.rsqrt (addf (Host.divf (broadcastInDim S4096x1 ![0] bcast_S4096_S4096x1_0 (Host.reduceAdd (mulf dev dev) (constant S_ .f32 0x00000000#32) reducesTo_S4096x2048_S4096_d1 h_S_)) (broadcastInDim S4096x1 ![] bcast_S_S4096x1 (constant S_ .f32 wd))) (broadcastInDim S4096x1 ![] bcast_S_S4096x1 (constant S_ .f32 0x3727C5AC#32)))))) (broadcastInDim S4096x2048 ![0, 1] bcast_S1x2048_S4096x2048_0_1 (broadcastInDim S1x2048 ![1] bcast_S2048_S1x2048_1 g))) (broadcastInDim S4096x2048 ![0, 1] bcast_S1x2048_S4096x2048_0_1 (broadcastInDim S1x2048 ![1] bcast_S2048_S1x2048_1 β))

/-- Row r of that spelling is the specification's normalised row: given that row r of `v` is `a`, that `mu` holds
    the mean of `a` at row r, and that row r of `dev` holds the deviations of `a` from its mean. -/
theorem lnTerm2048_apply (wd : BitVec 32) (v dev : FVec Ideal S4096x2048 .f32) (mu : FVec Ideal S4096x1 .f32)
    (g β : FVec Ideal S2048 .f32) (r : Fin 4096) (a : Fin 2048 → EReal)
    (hv : ∀ k, v (ix2 r k) = a k)
    (hmu : mu (ix2 r (0 : Fin 1)) = mean (Ideal.ofBits .f32 wd) a)
    (hdev : ∀ k, dev (ix2 r k) = a k - mean (Ideal.ofBits .f32 wd) a) (j : Fin 2048) :
    lnTerm2048 wd v dev mu g β (ix2 r j)
      = lnorm (Ideal.ofBits .f32 wd) a (fun k => g (ix1 k)) (fun k => β (ix1 k)) j := by
  have e1 : broadcastInDim S4096x2048 ![0, 1] bcast_S4096x1_S4096x2048_0_1 mu (ix2 r j)
      = mean (Ideal.ofBits .f32 wd) a := (colRows2048_apply _ mu r j).trans hmu
  have e2 : (fun k : Fin 2048 => mulf dev dev (ix2 r k))
      = fun k => (a k - mean (Ideal.ofBits .f32 wd) a) * (a k - mean (Ideal.ofBits .f32 wd) a) :=
    funext fun k => congrArg₂ (· * ·) (hdev k) (hdev k)
  unfold lnTerm2048 lnorm
  exact congrArg₂ (· + ·)
    (congrArg₂ (· * ·)
      (congrArg₂ (· * ·) (congrArg₂ (· - ·) (hv j) e1)
        ((colRows2048_apply _ _ r j).trans
          (congrArg Ideal.rsqrt
            (congrArg₂ (· + ·)
              ((meanCol2048_apply _ _ _ _ wd (mulf dev dev) r 0).trans
                (congrArg (mean (Ideal.ofBits .f32 wd)) e2))
              (splat_apply _ _ _)))))
      (bias2048_apply _ _ g r j))
    (bias2048_apply _ _ β r j)

end Cert.ReferenceIdeal.RefOps

end
-- ==== Proof.RefStages.lean ====
/-
  The reference's named intermediate arrays, row by row, as the specification's functions of the argument arrays.
  Over any assignment of contents to the buffers: the input-path dense layer, its row means and deviations, the gate
  pre-activations, the raw cell rows with their means and deviations, the new cell state, the raw hidden rows with
  their means and deviations, and the new hidden state.
-/
import proofs.«178478_j42855183680049_2_alg».proof.Defs
import proofs.«178478_j42855183680049_2_alg».proof.Proof.Gen.ReferenceIdeal.Run
import proofs.«178478_j42855183680049_2_alg».proof.Proof.RefNorm

noncomputable section

open scoped BigOperators

namespace Cert.ReferenceIdeal.RefValue

open Cert.ReferenceIdeal Cert.ReferenceIdeal.Gen Cert.ReferenceIdeal.Value Cert.ReferenceIdeal.RefOps Cert.LnLstm
open Idealize.ShloMosaic Idealize.ShloMosaic.TcCoe Idealize.SL.Sem Idealize.ShloMosaic.StableHlo Idealize.ShloMosaic.ValueIdx

variable (V0 : Valuation τ sig (Elt Ideal))

/-! ## The thirteen argument arrays under an assignment -/

/-- The input x. -/
abbrev aX : S4096x2048.Idx → EReal := V0 (Proc.devRef .tc main_arg0)
/-- The previous hidden state. -/
abbrev aH : S4096x2048.Idx → EReal := V0 (Proc.devRef .tc main_arg1)
/-- The previous cell state. -/
abbrev aC : S4096x2048.Idx → EReal := V0 (Proc.devRef .tc main_arg2)
/-- The input-path weights. -/
abbrev aWih : S2048x8192.Idx → EReal := V0 (Proc.devRef .tc main_arg3)
/-- The hidden-path weights. -/
abbrev aWhh : S2048x8192.Idx → EReal := V0 (Proc.devRef .tc main_arg4)
/-- The input-path bias. -/
abbrev abih : S8192.Idx → EReal := V0 (Proc.devRef .tc main_arg5)
/-- The hidden-path bias. -/
abbrev abhh : S8192.Idx → EReal := V0 (Proc.devRef .tc main_arg6)
/-- The gate normalisation's scale. -/
abbrev agx : S8192.Idx → EReal := V0 (Proc.devRef .tc main_arg7)
/-- The gate normalisation's shift. -/
abbrev abx : S8192.Idx → EReal := V0 (Proc.devRef .tc main_arg8)
/-- The cell normalisation's scale. -/
abbrev agc : S2048.Idx → EReal := V0 (Proc.devRef .tc main_arg9)
/-- The cell normalisation's shift. -/
abbrev abc : S2048.Idx → EReal := V0 (Proc.devRef .tc main_arg10)
/-- The hidden normalisation's scale. -/
abbrev agh : S2048.Idx → EReal := V0 (Proc.devRef .tc main_arg11)
/-- The hidden normalisation's shift. -/
abbrev abh : S2048.Idx → EReal := V0 (Proc.devRef .tc main_arg12)

/-- The input-path dense row of batch row r. -/
abbrev inRow (r : Fin 4096) : Fin 8192 → EReal := dense (aX V0) (aWih V0) (abih V0) r
/-- The gate pre-activations of batch row r. -/
abbrev G (r : Fin 4096) : Fin 8192 → EReal := gates (aX V0) (aH V0) (aWih V0) (aWhh V0) (abih V0) (abhh V0) (agx V0) (abx V0) r
/-- The previous cell row of batch row r. -/
abbrev cp (r : Fin 4096) : Fin 2048 → EReal := fun q => aC V0 (ix2 r q)
/-- The cell normalisation's scale and shift as rows. -/
abbrev gcRow : Fin 2048 → EReal := fun q => agc V0 (ix1 q)
abbrev bcRow : Fin 2048 → EReal := fun q => abc V0 (ix1 q)
/-- The hidden normalisation's scale and shift as rows. -/
abbrev ghRow : Fin 2048 → EReal := fun q => agh V0 (ix1 q)
abbrev bhRow : Fin 2048 → EReal := fun q => abh V0 (ix1 q)

/-! ## The gate pre-activations -/

/-- The input-path dense layer at (r, j). -/
theorem v3_apply (r : Fin 4096) (j : Fin 8192) : res_main_v3 (F := Ideal) V0 (ix2 r j) = inRow V0 r j := by
  unfold res_main_v3
  exact dense_apply _ _ _ r j

/-- Its column of row means holds, at row r, the mean of the dense row. -/
theorem v7_apply (r : Fin 4096) :
    res_main_v7 (F := Ideal) V0 (ix2 r (0 : Fin 1)) = mean n8192 (inRow V0 r) := by
  unfold res_main_v7
  exact (meanCol8192_apply _ _ _ _ 0x46000000#32 (res_main_v3 (F := Ideal) V0) r 0).trans
    (congrArg (mean n8192) (funext fun k => v3_apply V0 r k))

/-- Its deviations hold, at (r, k), the dense row's entry less the row's mean. -/
theorem v9_apply (r : Fin 4096) (k : Fin 8192) :
    res_main_v9 (F := Ideal) V0 (ix2 r k) = inRow V0 r k - mean n8192 (inRow V0 r) := by
  unfold res_main_v9
  exact congrArg₂ (· - ·) (v3_apply V0 r k) ((colRows8192_apply _ _ r k).trans (v7_apply V0 r))

/-- The gate pre-activations at (r, j): the normalised input path plus the hidden path. -/
theorem v32_apply (r : Fin 4096) (j : Fin 8192) : res_main_v32 (F := Ideal) V0 (ix2 r j) = G V0 r j := by
  unfold res_main_v32
  exact congrArg₂ (· + ·)
    (lnTerm8192_apply 0x46000000#32 (res_main_v3 (F := Ideal) V0) (res_main_v9 (F := Ideal) V0)
      (res_main_v7 (F := Ideal) V0) (agx V0) (abx V0) r (inRow V0 r) (v3_apply V0 r) (v7_apply V0 r) (v9_apply V0 r) j)
    (dense_apply (aH V0) (aWhh V0) (abhh V0) r j)

/-! ## The gate blocks -/

/-- The block of 2048 gate columns starting at column o. -/
abbrev blk (o : ℕ) (h : S4096x8192.Slices ![0, o] S4096x2048) : FVec Ideal S4096x2048 .f32 :=
  extractStridedSlice S4096x2048 ![0, o] (res_main_v32 (F := Ideal) V0) h

/-- It reads, at (r, q), gate column o + q of row r. -/
theorem blk_apply (o : ℕ) (ho : o + 2048 ≤ 8192) (h : S4096x8192.Slices ![0, o] S4096x2048) (r : Fin 4096)
    (q : Fin 2048) : blk V0 o h (ix2 r q) = G V0 r (col o ho q) :=
  (gateBlock_apply o ho h (res_main_v32 (F := Ideal) V0) r q).trans (v32_apply V0 r _)

/-- The reference's logistic gate of a block reads, at (r, q), the logistic function of that gate column. -/
theorem gate_apply (o : ℕ) (ho : o + 2048 ≤ 8192) (h : S4096x8192.Slices ![0, o] S4096x2048) (r : Fin 4096)
    (q : Fin 2048) : sigTerm (blk V0 o h) (ix2 r q) = Ideal.logistic (G V0 r (col o ho q)) :=
  sigTerm_apply _ _ _ (blk_apply V0 o ho h r q)

/-! ## The cell state -/

/-- The raw cell rows: forget gate times the old cell plus input gate times the candidate. -/
theorem v58_apply (r : Fin 4096) (q : Fin 2048) :
    res_main_v58 (F := Ideal) V0 (ix2 r q) = rowCellRaw (G V0 r) (cp V0 r) q := by
  unfold res_main_v58 rowCellRaw
  exact congrArg₂ (· + ·)
    (congrArg₂ (· * ·) (gate_apply V0 2048 (by decide) slices_S4096x8192_S4096x2048_0_2048 r q) rfl)
    (congrArg₂ (· * ·) (gate_apply V0 0 (by decide) slices_S4096x8192_S4096x2048_0_0 r q)
      (congrArg Ideal.tanh (blk_apply V0 4096 (by decide) slices_S4096x8192_S4096x2048_0_4096 r q)))

/-- Their column of row means. -/
theorem v62_apply (r : Fin 4096) :
    res_main_v62 (F := Ideal) V0 (ix2 r (0 : Fin 1)) = mean n2048 (rowCellRaw (G V0 r) (cp V0 r)) := by
  unfold res_main_v62
  exact (meanCol2048_apply _ _ _ _ 0x45000000#32 (res_main_v58 (F := Ideal) V0) r 0).trans
    (congrArg (mean n2048) (funext fun k => v58_apply V0 r k))

/-- Their deviations. -/
theorem v64_apply (r : Fin 4096) (k : Fin 2048) :
    res_main_v64 (F := Ideal) V0 (ix2 r k)
      = rowCellRaw (G V0 r) (cp V0 r) k - mean n2048 (rowCellRaw (G V0 r) (cp V0 r)) := by
  unfold res_main_v64
  exact congrArg₂ (· - ·) (v58_apply V0 r k) ((colRows2048_apply _ _ r k).trans (v62_apply V0 r))

/-- The new cell state as the reference spells it. -/
abbrev cellTerm : FVec Ideal S4096x2048 .f32 :=
  lnTerm2048 0x45000000#32 (res_main_v58 (F := Ideal) V0) (res_main_v64 (F := Ideal) V0) (res_main_v62 (F := Ideal) V0)
    (agc V0) (abc V0)

/-- At (r, q) it is the specification's new cell row. -/
theorem cellTerm_apply (r : Fin 4096) (q : Fin 2048) :
    cellTerm V0 (ix2 r q) = rowCell (G V0 r) (cp V0 r) (gcRow V0) (bcRow V0) q :=
  lnTerm2048_apply 0x45000000#32 _ _ _ (agc V0) (abc V0) r (rowCellRaw (G V0 r) (cp V0 r)) (v58_apply V0 r)
    (v62_apply V0 r) (v64_apply V0 r) q

/-- The new cell state is the specification's cell array. -/
theorem cell_eq :
    cellTerm V0 = cellArr (aX V0) (aH V0) (aC V0) (aWih V0) (aWhh V0) (abih V0) (abhh V0) (agx V0) (abx V0) (agc V0)
      (abc V0) := by
  funext i
  obtain ⟨r, q, rfl⟩ : ∃ (r : Fin 4096) (q : Fin 2048), i = ix2 r q := ⟨i 0, i 1, eq_ix2 i⟩
  exact cellTerm_apply V0 r q

/-! ## The hidden state -/

/-- The raw hidden rows: output gate times tanh of the new cell row. -/
theorem v84_apply (r : Fin 4096) (q : Fin 2048) :
    res_main_v84 (F := Ideal) V0 (ix2 r q) = rowHiddenRaw (G V0 r) (cp V0 r) (gcRow V0) (bcRow V0) q := by
  unfold res_main_v84 rowHiddenRaw
  exact congrArg₂ (· * ·) (gate_apply V0 6144 (by decide) slices_S4096x8192_S4096x2048_0_6144 r q)
    (congrArg Ideal.tanh (cellTerm_apply V0 r q))

/-- Their column of row means. -/
theorem v88_apply (r : Fin 4096) :
    res_main_v88 (F := Ideal) V0 (ix2 r (0 : Fin 1))
      = mean n2048 (rowHiddenRaw (G V0 r) (cp V0 r) (gcRow V0) (bcRow V0)) := by
  unfold res_main_v88
  exact (meanCol2048_apply _ _ _ _ 0x45000000#32 (res_main_v84 (F := Ideal) V0) r 0).trans
    (congrArg (mean n2048) (funext fun k => v84_apply V0 r k))

/-- Their deviations. -/
theorem v90_apply (r : Fin 4096) (k : Fin 2048) :
    res_main_v90 (F := Ideal) V0 (ix2 r k)
      = rowHiddenRaw (G V0 r) (cp V0 r) (gcRow V0) (bcRow V0) k
        - mean n2048 (rowHiddenRaw (G V0 r) (cp V0 r) (gcRow V0) (bcRow V0)) := by
  unfold res_main_v90
  exact congrArg₂ (· - ·) (v84_apply V0 r k) ((colRows2048_apply _ _ r k).trans (v88_apply V0 r))

/-- The new hidden state as the reference spells it. -/
abbrev hiddenTerm : FVec Ideal S4096x2048 .f32 :=
  lnTerm2048 0x45000000#32 (res_main_v84 (F := Ideal) V0) (res_main_v90 (F := Ideal) V0) (res_main_v88 (F := Ideal) V0)
    (agh V0) (abh V0)

/-- At (r, q) it is the specification's new hidden row. -/
theorem hiddenTerm_apply (r : Fin 4096) (q : Fin 2048) :
    hiddenTerm V0 (ix2 r q) = rowHidden (G V0 r) (cp V0 r) (gcRow V0) (bcRow V0) (ghRow V0) (bhRow V0) q :=
  lnTerm2048_apply 0x45000000#32 _ _ _ (agh V0) (abh V0) r (rowHiddenRaw (G V0 r) (cp V0 r) (gcRow V0) (bcRow V0))
    (v84_apply V0 r) (v88_apply V0 r) (v90_apply V0 r) q

/-- The new hidden state is the specification's hidden array. -/
theorem hidden_eq :
    hiddenTerm V0 = hiddenArr (aX V0) (aH V0) (aC V0) (aWih V0) (aWhh V0) (abih V0) (abhh V0) (agx V0) (abx V0) (agc V0)
      (abc V0) (agh V0) (abh V0) := by
  funext i
  obtain ⟨r, q, rfl⟩ : ∃ (r : Fin 4096) (q : Fin 2048), i = ix2 r q := ⟨i 0, i 1, eq_ix2 i⟩
  exact hiddenTerm_apply V0 r q

end Cert.ReferenceIdeal.RefValue

end
-- ==== Proof.RefValue.lean ====
/-
  The reference program's two results are the specification's hidden and cell arrays of its arguments.

  The program's run ends with each result buffer holding the composition of its host operations applied to the
  arguments' contents at launch. Row by row that composition is the specification: the two dense layers, the
  normalisation of the input path, the four gate blocks, the cell row and its normalisation, the hidden row and its
  normalisation. Here the run's statement is restated with the specification's two arrays in place of the compositions.
-/
import proofs.«178478_j42855183680049_2_alg».proof.Defs
import proofs.«178478_j42855183680049_2_alg».proof.Proof.Gen.ReferenceIdeal.Run
import proofs.«178478_j42855183680049_2_alg».proof.Proof.Spec
import proofs.«178478_j42855183680049_2_alg».proof.Proof.RefStages

noncomputable section

namespace Cert.ReferenceIdeal.RefValue

open Cert.ReferenceIdeal Cert.ReferenceIdeal.Gen Idealize.ShloMosaic Idealize.ShloMosaic.TcCoe Idealize.SL.Sem
  Idealize.ShloMosaic.StableHlo

/-- On every device, from any memory with zero counters: every weakly fair execution of the reference terminates with
    the new hidden state and the new cell state at the specification's arrays of the thirteen arguments' contents at
    launch, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v108)
          = Cert.LnLstm.hiddenArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
              (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_v82)
          = Cert.LnLstm.cellArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
              (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono
    (fun _ h c => ⟨(h c).1.trans (hidden_eq (launchContents m c)), (h c).2.1.trans (cell_eq (launchContents m c)),
      (h c).2.2⟩)
    (Cert.ReferenceIdeal.Value.run (F := Ideal) m ρ)

end Cert.ReferenceIdeal.RefValue

end
-- ==== Proof.lean ====
/-
  The certificate's five claims for the layer-normalised LSTM cell.

  Each of the three programs runs to the end and leaves its thirteen argument arrays as they were launched. The
  idealized kernel is the kernel's own text read on the extended reals, so there is nothing to preserve. At the
  extended reals the idealized kernel and the idealized reference, started from memories that agree on the arguments,
  both end with the new hidden state and the new cell state at ONE pair of arrays: the specification's hidden and cell
  arrays of those arguments (two dense layers, the normalised gate pre-activations, the gated cell row and its
  normalisation, the gated hidden row and its normalisation).
-/
import proofs.«178478_j42855183680049_2_alg».proof.Defs
import proofs.«178478_j42855183680049_2_alg».proof.Proof.Gen.Kernel
import proofs.«178478_j42855183680049_2_alg».proof.Proof.Gen.Kernel.Skeleton
import proofs.«178478_j42855183680049_2_alg».proof.Proof.Gen.Kernel.Launch
import proofs.«178478_j42855183680049_2_alg».proof.Proof.Gen.Kernel.Points
import proofs.«178478_j42855183680049_2_alg».proof.Proof.Gen.Kernel.Frame
import proofs.«178478_j42855183680049_2_alg».proof.Proof.Gen.KernelIdeal
import proofs.«178478_j42855183680049_2_alg».proof.Proof.Gen.KernelIdeal.Skeleton
import proofs.«178478_j42855183680049_2_alg».proof.Proof.Gen.KernelIdeal.Launch
import proofs.«178478_j42855183680049_2_alg».proof.Proof.Gen.KernelIdeal.Points
import proofs.«178478_j42855183680049_2_alg».proof.Proof.Gen.KernelIdeal.Frame
import proofs.«178478_j42855183680049_2_alg».proof.Proof.Gen.ReferenceIdeal
import proofs.«178478_j42855183680049_2_alg».proof.Proof.Gen.Pre_finite_inputs
import proofs.«178478_j42855183680049_2_alg».proof.Proof.WordBody
import proofs.«178478_j42855183680049_2_alg».proof.Proof.IdealBody
import proofs.«178478_j42855183680049_2_alg».proof.Proof.KernelRun
import proofs.«178478_j42855183680049_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs to the end and leaves its arguments as launched. -/
theorem frame_Kernel : Cert.frame_Kernel := fun m ρ _ => Cert.Kernel.Body.frame (F := Bits) m ρ

/-- So does the kernel read on the extended reals. -/
theorem frame_KernelIdeal : Cert.frame_KernelIdeal := fun m ρ _ => Cert.KernelIdeal.Body.frame (F := Ideal) m ρ

/-- So does the reference: its run with the two results dropped. -/
theorem frame_ReferenceIdeal : Cert.frame_ReferenceIdeal := fun m ρ _ =>
  (θ_run Cert.ReferenceIdeal.defs _ _).mono (fun _ h c => (h c).2.2) (Cert.ReferenceIdeal.RefValue.run m ρ)

/-- The idealization rewrote no operation. -/
theorem preserves : Cert.preserves_Kernel_KernelIdeal := trivial

/-- Both idealized programs end at the specification's hidden and cell arrays of the kernel's arguments: the kernel by
    its run, the reference by its run at arguments that agree with the kernel's, one after the other. -/
theorem algebraic : Cert.algebraic_KernelIdeal_ReferenceIdeal := by
  intro m ρ m' ρ' _ hagree
  refine ⟨fun c => Cert.LnLstm.hiddenArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))
      (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)),
    fun c => Cert.LnLstm.cellArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))
      (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    Cert.KernelIdeal.Arrays.run m ρ, ?_⟩
  refine (θ_run Cert.ReferenceIdeal.defs _ _).mono (fun _ h c => ?_) (Cert.ReferenceIdeal.RefValue.run m' ρ')
  obtain ⟨h0, h1, h2, h3, h4, h5, h6, h7, h8, h9, h10, h11, h12⟩ := hagree c
  refine ⟨(h c).1.trans ?_, (h c).2.1.trans ?_, (h c).2.2⟩
  · rw [h0, h1, h2, h3, h4, h5, h6, h7, h8, h9, h10, h11, h12]
  · rw [h0, h1, h2, h3, h4, h5, h6, h7, h8, h9, h10]

theorem claim : Cert.Claim :=
  ⟨Cert.Kernel.Gen.facts, Cert.KernelIdeal.Gen.facts, Cert.ReferenceIdeal.Gen.facts, Cert.Pre_finite_inputs.Gen.facts,
    frame_Kernel, frame_KernelIdeal, frame_ReferenceIdeal, preserves, algebraic⟩

end Cert.Proof

end
